-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v74_0)) (v1 : (c : Dev Cert.KernelIdeal.nD) → Buf (Elt Ideal) ((c.tc : Thread Cert.KernelIdeal.nD Cert.KernelIdeal.τ).loc Cert.KernelIdeal.main_v74_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_0) = v0 c
          ∧ r.2.mem ((c.tc : Thread Cert.KernelIdeal.nD Cert.KernelIdeal.τ).loc Cert.KernelIdeal.main_v74_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩
abbrev S1x1200000 : Shape := ⟨2, ![1, 1200000]⟩
abbrev S1200000 : Shape := ⟨1, ![1200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part4 {F : FTy → Type} [FloatOps F] (main_v63 : IVec S_ 1) (main_v67 : IVec S1200000 1) (main_c_25 : IVec S_ 1) : IVec S_ 1 :=
  let main_v68 : IVec S_ 1 := (fun x v => Host.reduce IntOp.andi x v reducesTo_S1200000_S_d0 h_S_) main_v67 main_c_25
  let main_v69 : IVec S_ 1 := andi main_v63 main_v68
  main_v69

def fn_part3 {F : FTy → Type} [FloatOps F] (main_arg1 : IVec S2x1200000 32) (main_arg12 : FVec F S2x64 .f32) (main_arg13 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S2x64 .f32 := Host.absf main_arg12
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : IVec S1x1200000 32 := (extractStridedSlice S1x1200000 ![1, 0] · slices_S2x1200000_S1x1200000_1_0) main_arg1
  let main_v65 : IVec S1200000 32 := shapeCast S1200000 main_v64 shapeCasts_S1x1200000_S1200000
  let main_c_24 : IVec S_ 32 := constantI S_ 32 0#32
  let main_v66 : IVec S1200000 32 := broadcastInDim S1200000 ![] bcast_S_S1200000 main_c_24
  let main_v67 : IVec S1200000 1 := cmpi .sge main_v65 main_v66
  let main_c_25 : IVec S_ 1 := constantI S_ 1 1#1
  fn_part4 (F := F) main_v63 main_v67 main_c_25

def fn_part2 {F : FTy → Type} [FloatOps F] (main_arg1 : IVec S2x1200000 32) (main_arg8 : FVec F S64 .f32) (main_arg9 : FVec F S64x128 .f32) (main_arg10 : FVec F S64 .f32) (main_arg11 : FVec F S64 .f32) (main_arg12 : FVec F S2x64 .f32) (main_arg13 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_v48 main_v49 main_v50

def fn_part1 {F : FTy → Type} [FloatOps F] (main_arg1 : IVec S2x1200000 32) (main_arg5 : FVec F S128 .f32) (main_arg6 : FVec F S128 .f32) (main_arg7 : FVec F S64x128 .f32) (main_arg8 : FVec F S64 .f32) (main_arg9 : FVec F S64x128 .f32) (main_arg10 : FVec F S64 .f32) (main_arg11 : FVec F S64 .f32) (main_arg12 : FVec F S2x64 .f32) (main_arg13 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S100000x64 .f32) (main_arg1 : IVec S2x1200000 32) (main_arg2 : FVec F S128x64 .f32) (main_arg3 : FVec F S128 .f32) (main_arg4 : FVec F S128x64 .f32) (main_arg5 : FVec F S128 .f32) (main_arg6 : FVec F S128 .f32) (main_arg7 : FVec F S64x128 .f32) (main_arg8 : FVec F S64 .f32) (main_arg9 : FVec F S64x128 .f32) (main_arg10 : FVec F S64 .f32) (main_arg11 : FVec F S64 .f32) (main_arg12 : FVec F S2x64 .f32) (main_arg13 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_arg10 main_arg11 main_arg12 main_arg13 main_v13 main_v16
-- ==== Kernel.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x128 : Shape := ⟨2, ![1, 128]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S1200000x128 : Shape := ⟨2, ![1200000, 128]⟩
abbrev S1x64 : Shape := ⟨2, ![1, 64]⟩
abbrev S1x2 : Shape := ⟨2, ![1, 2]⟩
abbrev S100000x2 : Shape := ⟨2, ![100000, 2]⟩
abbrev S4000x2 : Shape := ⟨2, ![4000, 2]⟩
abbrev S64x2 : Shape := ⟨2, ![64, 2]⟩
abbrev S4000 : Shape := ⟨1, ![4000]⟩

abbrev nBuf : Space → Nat
  | .hbm => 116
  | .vmem => 46
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S64, .f32⟩
  | .hbm, ⟨11, _⟩ => ⟨S64, .f32⟩
  | .hbm, ⟨12, _⟩ => ⟨S2x64, .f32⟩
  | .hbm, ⟨13, _⟩ => ⟨S2, .f32⟩
  | .hbm, ⟨14, _⟩ => ⟨S1x1200000, .i32⟩
  | .hbm, ⟨15, _⟩ => ⟨S1200000, .i32⟩
  | .hbm, ⟨16, _⟩ => ⟨S1x1200000, .i32⟩
  | .hbm, ⟨17, _⟩ => ⟨S1200000, .i32⟩
  | .hbm, ⟨18, _⟩ => ⟨S_, .f32⟩
  | .hbm, ⟨19, _⟩ => ⟨S100000, .f32⟩
  | .hbm, ⟨20, _⟩ => ⟨S_, .i32⟩
  | .hbm, ⟨21, _⟩ => ⟨S1200000, .i32⟩
  | .hbm, ⟨22, _⟩ => ⟨S1200000, .i1⟩
  | .hbm, ⟨23, _⟩ => ⟨S_, .i32⟩
  | .hbm, ⟨24, _⟩ => ⟨S1200000, .i32⟩
  | .hbm, ⟨25, _⟩ => ⟨S1200000, .i32⟩
  | .hbm, ⟨26, _⟩ => ⟨S1200000, .i32⟩
  | .hbm, ⟨27, _⟩ => ⟨S1200000x1, .i32⟩
  | .hbm, ⟨28, _⟩ => ⟨S_, .f32⟩
  | .hbm, ⟨29, _⟩ => ⟨S1200000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S_, .f32⟩
  | .hbm, ⟨39, _⟩ => ⟨S100000x64, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S100000x64, .f32⟩
  | .hbm, ⟨58, _⟩ => ⟨S1x128, .f32⟩
  | .hbm, ⟨59, _⟩ => ⟨S100000x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S_, .i32⟩
  | .hbm, ⟨79, _⟩ => ⟨S1200000, .i32⟩
  | .hbm, ⟨80, _⟩ => ⟨S1200000, .i1⟩
  | .hbm, ⟨81, _⟩ => ⟨S_, .i32⟩
  | .hbm, ⟨82, _⟩ => ⟨S1200000, .i32⟩
  | .hbm, ⟨83, _⟩ => ⟨S1200000, .i32⟩
  | .hbm, ⟨84, _⟩ => ⟨S1200000, .i32⟩
  | .hbm, ⟨85, _⟩ => ⟨S1200000x1, .i32⟩
  | .hbm, ⟨86, _⟩ => ⟨S1200000x128, .f32⟩
  | .hbm, ⟨87, _⟩ => ⟨S_, .i32⟩
  | .hbm, ⟨88, _⟩ => ⟨S1200000, .i32⟩
  | .hbm, ⟨89, _⟩ => ⟨S1200000, .i1⟩
  | .hbm, ⟨90, _⟩ => ⟨S_, .i32⟩
  | .hbm, ⟨91, _⟩ => ⟨S1200000, .i32⟩
  | .hbm, ⟨92, _⟩ => ⟨S1200000, .i32⟩
  | .hbm, ⟨93, _⟩ => ⟨S1200000, .i32⟩
  | .hbm, ⟨94, _⟩ => ⟨S1200000x1, .i32⟩
  | .hbm, ⟨95, _⟩ => ⟨S100000x128, .f32⟩
  | .hbm, ⟨96, _⟩ => ⟨S1x64, .f32⟩
  | .hbm, ⟨97, _⟩ => ⟨S100000x64, .f32⟩
  | .hbm, ⟨98, _⟩ => ⟨S1x64, .f32⟩
  | .hbm, ⟨99, _⟩ => ⟨S1x64, .f32⟩
  | .hbm, ⟨100, _⟩ => ⟨S_, .f32⟩
  | .hbm, ⟨101, _⟩ => ⟨S1x64, .f32⟩
  | .hbm, ⟨102, _⟩ => ⟨S1x64, .f32⟩
  | .hbm, ⟨103, _⟩ => ⟨S_, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S_, .f32⟩
  | .hbm, ⟨109, _⟩ => ⟨S1x64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x2, .f32⟩
  | .hbm, ⟨114, _⟩ => ⟨S100000x64, .f32⟩
  | .hbm, ⟨115, _⟩ => ⟨S100000x2, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S128x64, .f32⟩
  | .local _ .vmem, ⟨7, _⟩ => ⟨S1x128, .f32⟩
  | .local _ .vmem, ⟨8, _⟩ => ⟨S128x64, .f32⟩
  | .local _ .vmem, ⟨9, _⟩ => ⟨S4000x128, .f32⟩
  | .local _ .vmem, ⟨10, _⟩ => ⟨S4000x128, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S4000x128, .f32⟩
  | .local _ .vmem, ⟨26, _⟩ => ⟨S4000x128, .f32⟩
  | .local _ .vmem, ⟨27, _⟩ => ⟨S64x128, .f32⟩
  | .local _ .vmem, ⟨28, _⟩ => ⟨S1x64, .f32⟩
  | .local _ .vmem, ⟨29, _⟩ => ⟨S64x128, .f32⟩
  | .local _ .vmem, ⟨30, _⟩ => ⟨S4000x64, .f32⟩
  | .local _ .vmem, ⟨31, _⟩ => ⟨S4000x64, .f32⟩
  | .local _ .vmem, ⟨32, _⟩ => ⟨S1x64, .f32⟩
  | .local _ .vmem, ⟨33, _⟩ => ⟨S1x64, .f32⟩
  | .local _ .vmem, ⟨34, _⟩ => ⟨S4000x64, .f32⟩
  | .local _ .vmem, ⟨35, _⟩ => ⟨S4000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S2x64, .f32⟩
  | .local _ .vmem, ⟨41, _⟩ => ⟨S1x2, .f32⟩
  | .local _ .vmem, ⟨42, _⟩ => ⟨S4000x64, .f32⟩
  | .local _ .vmem, ⟨43, _⟩ => ⟨S4000x64, .f32⟩
  | .local _ .vmem, ⟨44, _⟩ => ⟨S4000x2, .f32⟩
  | .local _ .vmem, ⟨45, _⟩ => ⟨S4000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_c_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34_0 : Ref sig .tc := ⟨.hbm, 59, rfl⟩
abbrev main_v34_1 : Ref sig .tc := ⟨.hbm, 60, rfl⟩
abbrev main_v34_2 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_cst_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_12 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_15 : Ref sig .tc := ⟨.hbm, 87, rfl⟩
abbrev main_v54 : Ref sig .tc := ⟨.hbm, 88, rfl⟩
abbrev main_v55 : Ref sig .tc := ⟨.hbm, 89, rfl⟩
abbrev main_c_16 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62_0 : Ref sig .tc := ⟨.hbm, 97, rfl⟩
abbrev main_v62_1 : Ref sig .tc := ⟨.hbm, 98, rfl⟩
abbrev main_v62_2 : Ref sig .tc := ⟨.hbm, 99, rfl⟩
abbrev main_cst_17 : Ref sig .tc := ⟨.hbm, 100, rfl⟩
abbrev main_v63 : Ref sig .tc := ⟨.hbm, 101, rfl⟩
abbrev main_v64 : Ref sig .tc := ⟨.hbm, 102, rfl⟩
abbrev main_cst_18 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_19 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74_0 : Ref sig .tc := ⟨.hbm, 114, rfl⟩
abbrev main_v74_1 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg8_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc3_sem8_0 : DmaSem sig := 44
abbrev cc3_sem8_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S4000x2 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S100000_S100000x1 : S100000.ShapeCasts S100000x1
  bcast_S_S100000x64 : S_.BroadcastsInDim S100000x64 (![] : Fin 0 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x64_S128x64_0_0 : ∀ a, (![0, 0] : Fin 2 → Nat) a + S128x64.size a ≤ S128x64.size a
  h_S128x64 : 0 < S128x64.numel
  shapeCasts_S1x128_S1x128 : S1x128.ShapeCasts S1x128
  broadcasts_S4000x1_S4000x64 : S4000x1.Broadcasts S4000x64
  bitsLt_bf16_f32 : FTy.bits .bf16 < FTy.bits .f32
  transposes_S128x64_p1_0_S64x128 : S128x64.Transposes [1, 0] S64x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  reduces_S4000x128_S128 : S4000x128.Reduces [0] S128
  bcast_S_S1x128 : S_.BroadcastsInDim S1x128 (![] : Fin 0 → Fin S1x128.rank)
  shapeCasts_S4000x128_S4000x128 : S4000x128.ShapeCasts S4000x128
  bcast_S_S100000x128 : S_.BroadcastsInDim S100000x128 (![] : Fin 0 → Fin S100000x128.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S64x128_S64x128_0_0 : ∀ a, (![0, 0] : Fin 2 → Nat) a + S64x128.size a ≤ S64x128.size a
  h_S64x128 : 0 < S64x128.numel
  shapeCasts_S1x64_S1x64 : S1x64.ShapeCasts S1x64
  broadcasts_S4000x1_S4000x128 : S4000x1.Broadcasts S4000x128
  transposes_S64x128_p1_0_S128x64 : S64x128.Transposes [1, 0] S128x64
  broadcasts_S1x64_S4000x64 : S1x64.Broadcasts S4000x64
  reduces_S4000x64_S64 : S4000x64.Reduces [0] S64
  bcast_S_S1x64 : S_.BroadcastsInDim S1x64 (![] : Fin 0 → Fin S1x64.rank)
  shapeCasts_S2_S1x2 : S2.ShapeCasts S1x2
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x128_S4000x128_1_0_0_1_n_n_wf : DotDims.WF S4000x64 S64x128 S4000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S4000x128_S128x64_S4000x64_1_0_0_1_n_n_wf : DotDims.WF S4000x128 S128x64 S4000x64 [1] [0] [0] [1] [] []
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2x64.size a ≤ S2x64.size a
  hwx3_5 : ∀ i : grid3.Coords, EltTy.bits .f32 = 32 ∨ (Rect.block (s := S2x64) S2x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x64.size a ≤ S100000x64.size a
  hwx3_7 : ∀ i : grid3.Coords, EltTy.bits .f32 = 32 ∨ (Rect.block (s := S100000x64) S4000x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x2.size a ≤ S100000x2.size a
  hwx3_8 : ∀ i : grid3.Coords, EltTy.bits .f32 = 32 ∨ (Rect.block (s := S100000x2) S4000x2.size (cc3_transform_8 i) (hinb3_8 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_v32) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v34_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v34_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_0) S4000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v62_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v62_0) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S2x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v74_0) S4000x64.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v74_1) S4000x2.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1200000x128 : Shape := ⟨2, ![1200000, 128]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 169
  | .vmem => 0
  | .smem => 0
  | _ => 0

abbrev hbmTy0_0 (i : Nat) : BufTy := match i % 128 with
  | 0 => ⟨S100000x64, .f32⟩
  | 1 => ⟨S2x1200000, .i32⟩
  | 2 => ⟨S128x64, .f32⟩
  | 3 => ⟨S128, .f32⟩
  | 4 => ⟨S128x64, .f32⟩
  | 5 => ⟨S128, .f32⟩
  | 6 => ⟨S128, .f32⟩
  | 7 => ⟨S64x128, .f32⟩
  | 8 => ⟨S64, .f32⟩
  | 9 => ⟨S64x128, .f32⟩
  | 10 => ⟨S64, .f32⟩
  | 11 => ⟨S64, .f32⟩
  | 12 => ⟨S2x64, .f32⟩
  | 13 => ⟨S2, .f32⟩
  | 14 => ⟨S1x1200000, .i32⟩
  | 15 => ⟨S1200000, .i32⟩
  | 16 => ⟨S1x1200000, .i32⟩
  | 17 => ⟨S1200000, .i32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000x64, .f32⟩
  | 27 => ⟨S_, .f32⟩
  | 28 => ⟨S100000x64, .f32⟩
  | 29 => ⟨S1200000x1, .i32⟩
  | 30 => ⟨S100000x64, .f32⟩
  | 31 => ⟨S_, .f32⟩
  | 32 => ⟨S1200000, .f32⟩
  | 33 => ⟨S_, .f32⟩
  | 34 => ⟨S100000, .f32⟩
  | 35 => ⟨S1200000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S64x128, .f32⟩
  | 44 => ⟨S100000x128, .f32⟩
  | 45 => ⟨S1x128, .f32⟩
  | 46 => ⟨S100000x128, .f32⟩
  | 47 => ⟨S100000x128, .f32⟩
  | 48 => ⟨S64x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S1200000, .i32⟩
  | 86 => ⟨S1200000, .i1⟩
  | 87 => ⟨S_, .i32⟩
  | 88 => ⟨S1200000, .i32⟩
  | 89 => ⟨S1200000, .i32⟩
  | 90 => ⟨S1200000, .i32⟩
  | 91 => ⟨S1200000x1, .i32⟩
  | 92 => ⟨S1200000x128, .f32⟩
  | 93 => ⟨S_, .f32⟩
  | 94 => ⟨S100000x128, .f32⟩
  | 95 => ⟨S1200000x1, .i32⟩
  | 96 => ⟨S100000x128, .f32⟩
  | 97 => ⟨S_, .f32⟩
  | 98 => ⟨S1200000, .f32⟩
  | 99 => ⟨S_, .f32⟩
  | 100 => ⟨S100000, .f32⟩
  | 101 => ⟨S1200000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x128, .f32⟩
  | 108 => ⟨S100000x128, .f32⟩
  | 109 => ⟨S128x64, .f32⟩
  | 110 => ⟨S100000x64, .f32⟩
  | 111 => ⟨S1x64, .f32⟩
  | 112 => ⟨S100000x64, .f32⟩
  | 113 => ⟨S100000x64, .f32⟩
  | 114 => ⟨S128x64, .f32⟩
  | 115 => ⟨S100000x64, .f32⟩
  | 116 => ⟨S100000x64, .f32⟩
  | 117 => ⟨S_, .f32⟩
  | 118 => ⟨S64, .f32⟩
  | 119 => ⟨S_, .f32⟩
  | 120 => ⟨S64, .f32⟩
  | 121 => ⟨S64, .f32⟩
  | 122 => ⟨S1x64, .f32⟩
  | 123 => ⟨S100000x64, .f32⟩
  | 124 => ⟨S100000x64, .f32⟩
  | 125 => ⟨S100000x64, .f32⟩
  | 126 => ⟨S_, .f32⟩
  | 127 => ⟨S64, .f32⟩
  | _ => ⟨S100000x64, .f32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S64, .f32⟩
  | 11 => ⟨S64, .f32⟩
  | 12 => ⟨S64, .f32⟩
  | 13 => ⟨S1x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S64x2, .f32⟩
  | 23 => ⟨S100000x2, .f32⟩
  | 24 => ⟨S1x2, .f32⟩
  | 25 => ⟨S100000x2, .f32⟩
  | 26 => ⟨S100000x2, .f32⟩
  | 27 => ⟨S_, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x2, .f32⟩
  | 34 => ⟨S100000x2, .f32⟩
  | 35 => ⟨S100000x2, .f32⟩
  | 36 => ⟨S_, .f32⟩
  | 37 => ⟨S100000, .f32⟩
  | 38 => ⟨S100000x1, .f32⟩
  | 39 => ⟨S100000x2, .f32⟩
  | 40 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call0_cst : Ref sig .tc := ⟨.hbm, 81, rfl⟩
abbrev main_call0_v0 : Ref sig .tc := ⟨.hbm, 82, rfl⟩
abbrev main_v56 : Ref sig .tc := ⟨.hbm, 83, rfl⟩
abbrev main_c_9 : Ref sig .tc := ⟨.hbm, 84, rfl⟩
abbrev main_v57 : Ref sig .tc := ⟨.hbm, 85, rfl⟩
abbrev main_v58 : Ref sig .tc := ⟨.hbm, 86, rfl⟩
abbrev main_c_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_17 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_19 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_call1_cst : Ref sig .tc := ⟨.hbm, 147, rfl⟩
abbrev main_call1_v0 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_20 : Ref sig .tc := ⟨.hbm, 155, rfl⟩
abbrev main_v115 : Ref sig .tc := ⟨.hbm, 156, rfl⟩
abbrev main_cst_21 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_22 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x128_S100000x128_1_0_0_1_n_n_wf : DotDims.WF S100000x64 S64x128 S100000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run, with what every buffer holds at the end.

  @main is eight segments: a stretch of host operations, then a pallas region, four times over. The contents of the
  TensorCore's buffers at each boundary are a fold from the launch memory: a host stretch applies its operations
  (`StableHlo.after`), a region replaces its windows' arrays by what its write-backs leave. `W8` is the fold's last value.
  The run below says: every weakly fair execution of @main terminates without a fault, and every buffer that is not
  scoped to a region ends at `W8`. The two results and the fourteen arguments are among those buffers, so both the
  value claim and the frame are read off this one statement.
-/
import proofs.«173987_j26422638805210_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every TensorCore
    at the last boundary's contents `W8`: the segments launched from the initial memory, the last thread state read
    against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.RunValue

end
-- ==== Proof.HostStretch.lean ====
/-
  What the four host stretches of the program leave in the buffers they write, as functions of what the buffers
  they read held before — for an arbitrary incoming valuation U.

  A stretch is a list of operations applied in order, each writing one buffer from at most three others. The
  contents of a written buffer afterwards is therefore the composition of the operations on the path to it,
  applied to the contents of the buffers the stretch reads and does not write; a buffer no operation writes is
  unchanged. Stretch 0 splits the edge list into source and destination ids, counts every node's in-degree and
  takes 1 / max(degree, 1), and adds up every node's neighbours' features; stretches 1 and 3 turn column sums
  of h and h² over the 100000 nodes into the mean E[h] and the clamped variance max(E[h²] − E[h]², 0); stretch 2
  adds up the neighbours' hidden features.
-/
import proofs.«173987_j26422638805210_2_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]

/-! ## The terms the host stretches compute

Written once here, with the very operations the program's lists apply, so that each statement below names a value
instead of repeating it. -/

/-- Row 0 of the [2, 1200000] edge list as a vector: the source node of every edge. -/
def srcIds (e : IVec S2x1200000 32) : IVec S1200000 32 :=
  shapeCast S1200000 (extractStridedSlice S1x1200000 ![0, 0] e slices_S2x1200000_S1x1200000_0_0)
    shapeCasts_S1x1200000_S1200000

/-- Row 1 of the edge list as a vector: the destination node of every edge. -/
def dstIds (e : IVec S2x1200000 32) : IVec S1200000 32 :=
  shapeCast S1200000 (extractStridedSlice S1x1200000 ![1, 0] e slices_S2x1200000_S1x1200000_1_0)
    shapeCasts_S1x1200000_S1200000

/-- Node ids made ready for indexing: an id d < 0 becomes d + 100000, any other stays; then the vector is laid out as
    a [1200000, 1] column of one-component index vectors. -/
def wrapIds (D : IVec S1200000 32) : IVec S1200000x1 32 :=
  broadcastInDim S1200000x1 ![0] bcast_S1200000_S1200000x1_0
    (select (cmpi .slt D (broadcastInDim S1200000 ![] bcast_S_S1200000 (constantI S_ 32 0#32)))
      (addi D (broadcastInDim S1200000 ![] bcast_S_S1200000 (constantI S_ 32 100000#32))) D)

/-- The in-degree of every node: ones added up at the destination of every edge, from zero. -/
def degree (dst : IVec S1200000 32) : FVec F S100000 .f32 :=
  Host.scatterAdd scatter_S100000_S1200000x1_S1200000_n_0_0_1
    (broadcastInDim S100000 ![] bcast_S_S100000 (constant (F := F) S_ .f32 0x00000000#32))
    (wrapIds dst)
    (broadcastInDim S1200000 ![] bcast_S_S1200000 (constant (F := F) S_ .f32 0x3F800000#32))

/-- 1 / max(degree, 1), as a [100000, 1] column. -/
def invDegree (dst : IVec S1200000 32) : FVec F S100000x1 .f32 :=
  shapeCast S100000x1
    (Host.divf (broadcastInDim S100000 ![] bcast_S_S100000 (constant (F := F) S_ .f32 0x3F800000#32))
      (maximumf (degree (F := F) dst)
        (broadcastInDim S100000 ![] bcast_S_S100000 (constant (F := F) S_ .f32 0x3F800000#32))))
    shapeCasts_S100000_S100000x1

/-- For every node, the sum over its incoming edges of the source node's 64 features, from zero. -/
def neighbourSum64 (x : FVec F S100000x64 .f32) (src dst : IVec S1200000 32) : FVec F S100000x64 .f32 :=
  Host.scatterAdd scatter_S100000x64_S1200000x1_S1200000x64_1_0_0_1
    (broadcastInDim S100000x64 ![] bcast_S_S100000x64 (constant (F := F) S_ .f32 0x00000000#32))
    (wrapIds dst)
    (Host.gather gather_S100000x64_S1200000x1_S1200000x64_1_0_n_n_0_1_164 x (wrapIds src))

/-- The same over 128 features. -/
def neighbourSum128 (x : FVec F S100000x128 .f32) (src dst : IVec S1200000 32) : FVec F S100000x128 .f32 :=
  Host.scatterAdd scatter_S100000x128_S1200000x1_S1200000x128_1_0_0_1
    (broadcastInDim S100000x128 ![] bcast_S_S100000x128 (constant (F := F) S_ .f32 0x00000000#32))
    (wrapIds dst)
    (Host.gather gather_S100000x128_S1200000x1_S1200000x128_1_0_n_n_0_1_1128 x (wrapIds src))

/-- A column sum divided by the number of nodes, 100000 (the pattern 0x47C35000): a mean, per feature. -/
def mean128 (s : FVec F S1x128 .f32) : FVec F S1x128 .f32 :=
  Host.divf s (broadcastInDim S1x128 ![] bcast_S_S1x128 (constant (F := F) S_ .f32 0x47C35000#32))

/-- max(E[h²] − (E[h])², 0) from the column sums s of h and q of h², per feature. -/
def var128 (s q : FVec F S1x128 .f32) : FVec F S1x128 .f32 :=
  maximumf (subf (mean128 q) (mulf (mean128 s) (mean128 s)))
    (broadcastInDim S1x128 ![] bcast_S_S1x128 (constant (F := F) S_ .f32 0x00000000#32))

/-- The mean over 64 features. -/
def mean64 (s : FVec F S1x64 .f32) : FVec F S1x64 .f32 :=
  Host.divf s (broadcastInDim S1x64 ![] bcast_S_S1x64 (constant (F := F) S_ .f32 0x47C35000#32))

/-- The clamped variance over 64 features. -/
def var64 (s q : FVec F S1x64 .f32) : FVec F S1x64 .f32 :=
  maximumf (subf (mean64 q) (mulf (mean64 s) (mean64 s)))
    (broadcastInDim S1x64 ![] bcast_S_S1x64 (constant (F := F) S_ .f32 0x00000000#32))

/-! ## Stretch 0: the edge list split, the degrees, the first layer's neighbour sums -/

/-- The source ids. -/
theorem s0_v1 (U : Valuation τ sig (Elt F)) :
    (StableHlo.after hostOps0 U (Proc.devRef .tc main_v1) : IVec S1200000 32) =
      srcIds (U (Proc.devRef .tc main_arg1)) := by
  after_results_simp <;> rfl

/-- The destination ids. -/
theorem s0_v3 (U : Valuation τ sig (Elt F)) :
    (StableHlo.after hostOps0 U (Proc.devRef .tc main_v3) : IVec S1200000 32) =
      dstIds (U (Proc.devRef .tc main_arg1)) := by
  after_results_simp <;> rfl

/-- The reciprocal of the degree clamped below by one. -/
theorem s0_v17 (U : Valuation τ sig (Elt F)) :
    (StableHlo.after hostOps0 U (Proc.devRef .tc main_v17) : FVec F S100000x1 .f32) =
      invDegree (F := F) (dstIds (U (Proc.devRef .tc main_arg1))) := by
  after_results_simp <;> rfl

/-- The sums of the neighbours' input features. -/
theorem s0_v32 (U : Valuation τ sig (Elt F)) :
    (StableHlo.after hostOps0 U (Proc.devRef .tc main_v32) : FVec F S100000x64 .f32) =
      neighbourSum64 (U (Proc.devRef .tc main_arg0)) (srcIds (U (Proc.devRef .tc main_arg1))) (dstIds (U (Proc.devRef .tc main_arg1))) := by
  after_results_simp <;> rfl

/-- Argument 3 as one row. -/
theorem s0_v33 (U : Valuation τ sig (Elt F)) :
    (StableHlo.after hostOps0 U (Proc.devRef .tc main_v33) : FVec F S1x128 .f32) =
      shapeCast S1x128 (U (Proc.devRef .tc main_arg3)) shapeCasts_S128_S1x128 := by
  after_results_simp <;> rfl

/-- The buffers stretch 0's operations write, in order. -/
abbrev written0 : List (Ref sig .tc) := [main_v0, main_v1, main_v2, main_v3, main_cst, main_v4, main_c, main_v5, main_v6, main_c_0, main_v7, main_v8, main_v9, main_v10, main_cst_1, main_v11, main_v12, main_cst_2, main_v13, main_v14, main_cst_3, main_v15, main_v16, main_v17, main_cst_4, main_v18, main_c_5, main_v19, main_v20, main_c_6, main_v21, main_v22, main_v23, main_v24, main_v25, main_c_7, main_v26, main_v27, main_c_8, main_v28, main_v29, main_v30, main_v31, main_v32, main_v33]

theorem hostOps0_writes : (hostOps0 : List (HloOp τ sig (Elt F))).Forall fun op =>
    op.writes ⊆ (written0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- Stretch 0 leaves every buffer it does not write as it was. -/
theorem s0_keeps (U : Valuation τ sig (Elt F)) (r : Ref sig .tc) (h : r ∉ written0) :
    StableHlo.after hostOps0 U (Proc.devRef .tc r) = U (Proc.devRef .tc r) :=
  StableHlo.after_of_writes_sub hostOps0 U hostOps0_writes h

theorem s0_arg0 (U : Valuation τ sig (Elt F)) :
    StableHlo.after hostOps0 U (Proc.devRef .tc main_arg0) = U (Proc.devRef .tc main_arg0) := s0_keeps U main_arg0 (by decide)

theorem s0_arg1 (U : Valuation τ sig (Elt F)) :
    StableHlo.after hostOps0 U (Proc.devRef .tc main_arg1) = U (Proc.devRef .tc main_arg1) := s0_keeps U main_arg1 (by decide)

theorem s0_arg2 (U : Valuation τ sig (Elt F)) :
    StableHlo.after hostOps0 U (Proc.devRef .tc main_arg2) = U (Proc.devRef .tc main_arg2) := s0_keeps U main_arg2 (by decide)

theorem s0_arg4 (U : Valuation τ sig (Elt F)) :
    StableHlo.after hostOps0 U (Proc.devRef .tc main_arg4) = U (Proc.devRef .tc main_arg4) := s0_keeps U main_arg4 (by decide)

/-! ## Stretch 1: the first layer's batch statistics -/

/-- The mean of the first layer's activations. -/
theorem s1_v36 (U : Valuation τ sig (Elt F)) :
    (StableHlo.after hostOps1 U (Proc.devRef .tc main_v36) : FVec F S1x128 .f32) =
      mean128 (U (Proc.devRef .tc main_v34_1)) := by
  after_results <;> rfl

/-- Their clamped variance. -/
theorem s1_v42 (U : Valuation τ sig (Elt F)) :
    (StableHlo.after hostOps1 U (Proc.devRef .tc main_v42) : FVec F S1x128 .f32) =
      var128 (U (Proc.devRef .tc main_v34_1)) (U (Proc.devRef .tc main_v34_2)) := by
  after_results <;> rfl

/-- Argument 5 as one row. -/
theorem s1_v43 (U : Valuation τ sig (Elt F)) :
    (StableHlo.after hostOps1 U (Proc.devRef .tc main_v43) : FVec F S1x128 .f32) =
      shapeCast S1x128 (U (Proc.devRef .tc main_arg5)) shapeCasts_S128_S1x128 := by
  after_results <;> rfl

/-- Argument 6 as one row. -/
theorem s1_v44 (U : Valuation τ sig (Elt F)) :
    (StableHlo.after hostOps1 U (Proc.devRef .tc main_v44) : FVec F S1x128 .f32) =
      shapeCast S1x128 (U (Proc.devRef .tc main_arg6)) shapeCasts_S128_S1x128 := by
  after_results <;> rfl

/-- The buffers stretch 1's operations write, in order. -/
abbrev written1 : List (Ref sig .tc) := [main_cst_9, main_v35, main_v36, main_cst_10, main_v37, main_v38, main_v39, main_v40, main_cst_11, main_v41, main_v42, main_v43, main_v44]

theorem hostOps1_writes : (hostOps1 : List (HloOp τ sig (Elt F))).Forall fun op =>
    op.writes ⊆ (written1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- Stretch 1 leaves every buffer it does not write as it was. -/
theorem s1_keeps (U : Valuation τ sig (Elt F)) (r : Ref sig .tc) (h : r ∉ written1) :
    StableHlo.after hostOps1 U (Proc.devRef .tc r) = U (Proc.devRef .tc r) :=
  StableHlo.after_of_writes_sub hostOps1 U hostOps1_writes h

theorem s1_v34_0 (U : Valuation τ sig (Elt F)) :
    StableHlo.after hostOps1 U (Proc.devRef .tc main_v34_0) = U (Proc.devRef .tc main_v34_0) := s1_keeps U main_v34_0 (by decide)

theorem s1_v1 (U : Valuation τ sig (Elt F)) :
    StableHlo.after hostOps1 U (Proc.devRef .tc main_v1) = U (Proc.devRef .tc main_v1) := s1_keeps U main_v1 (by decide)

theorem s1_v3 (U : Valuation τ sig (Elt F)) :
    StableHlo.after hostOps1 U (Proc.devRef .tc main_v3) = U (Proc.devRef .tc main_v3) := s1_keeps U main_v3 (by decide)

theorem s1_v17 (U : Valuation τ sig (Elt F)) :
    StableHlo.after hostOps1 U (Proc.devRef .tc main_v17) = U (Proc.devRef .tc main_v17) := s1_keeps U main_v17 (by decide)

theorem s1_arg7 (U : Valuation τ sig (Elt F)) :
    StableHlo.after hostOps1 U (Proc.devRef .tc main_arg7) = U (Proc.devRef .tc main_arg7) := s1_keeps U main_arg7 (by decide)

theorem s1_arg8 (U : Valuation τ sig (Elt F)) :
    StableHlo.after hostOps1 U (Proc.devRef .tc main_arg8) = U (Proc.devRef .tc main_arg8) := s1_keeps U main_arg8 (by decide)

theorem s1_arg9 (U : Valuation τ sig (Elt F)) :
    StableHlo.after hostOps1 U (Proc.devRef .tc main_arg9) = U (Proc.devRef .tc main_arg9) := s1_keeps U main_arg9 (by decide)

/-! ## Stretch 2: the second layer's neighbour sums -/

/-- The sums of the neighbours' hidden features. -/
theorem s2_v60 (U : Valuation τ sig (Elt F)) :
    (StableHlo.after hostOps2 U (Proc.devRef .tc main_v60) : FVec F S100000x128 .f32) =
      neighbourSum128 (U (Proc.devRef .tc main_v45)) (U (Proc.devRef .tc main_v1)) (U (Proc.devRef .tc main_v3)) := by
  after_results_simp <;> rfl

/-- Argument 8 as one row. -/
theorem s2_v61 (U : Valuation τ sig (Elt F)) :
    (StableHlo.after hostOps2 U (Proc.devRef .tc main_v61) : FVec F S1x64 .f32) =
      shapeCast S1x64 (U (Proc.devRef .tc main_arg8)) shapeCasts_S64_S1x64 := by
  after_results_simp <;> rfl

/-- The buffers stretch 2's operations write, in order. -/
abbrev written2 : List (Ref sig .tc) := [main_cst_12, main_v46, main_c_13, main_v47, main_v48, main_c_14, main_v49, main_v50, main_v51, main_v52, main_v53, main_c_15, main_v54, main_v55, main_c_16, main_v56, main_v57, main_v58, main_v59, main_v60, main_v61]

theorem hostOps2_writes : (hostOps2 : List (HloOp τ sig (Elt F))).Forall fun op =>
    op.writes ⊆ (written2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- Stretch 2 leaves every buffer it does not write as it was. -/
theorem s2_keeps (U : Valuation τ sig (Elt F)) (r : Ref sig .tc) (h : r ∉ written2) :
    StableHlo.after hostOps2 U (Proc.devRef .tc r) = U (Proc.devRef .tc r) :=
  StableHlo.after_of_writes_sub hostOps2 U hostOps2_writes h

theorem s2_v1 (U : Valuation τ sig (Elt F)) :
    StableHlo.after hostOps2 U (Proc.devRef .tc main_v1) = U (Proc.devRef .tc main_v1) := s2_keeps U main_v1 (by decide)

theorem s2_v3 (U : Valuation τ sig (Elt F)) :
    StableHlo.after hostOps2 U (Proc.devRef .tc main_v3) = U (Proc.devRef .tc main_v3) := s2_keeps U main_v3 (by decide)

theorem s2_v17 (U : Valuation τ sig (Elt F)) :
    StableHlo.after hostOps2 U (Proc.devRef .tc main_v17) = U (Proc.devRef .tc main_v17) := s2_keeps U main_v17 (by decide)

theorem s2_v45 (U : Valuation τ sig (Elt F)) :
    StableHlo.after hostOps2 U (Proc.devRef .tc main_v45) = U (Proc.devRef .tc main_v45) := s2_keeps U main_v45 (by decide)

theorem s2_arg7 (U : Valuation τ sig (Elt F)) :
    StableHlo.after hostOps2 U (Proc.devRef .tc main_arg7) = U (Proc.devRef .tc main_arg7) := s2_keeps U main_arg7 (by decide)

theorem s2_arg9 (U : Valuation τ sig (Elt F)) :
    StableHlo.after hostOps2 U (Proc.devRef .tc main_arg9) = U (Proc.devRef .tc main_arg9) := s2_keeps U main_arg9 (by decide)

/-! ## Stretch 3: the second layer's batch statistics -/

/-- The mean of the second layer's activations. -/
theorem s3_v64 (U : Valuation τ sig (Elt F)) :
    (StableHlo.after hostOps3 U (Proc.devRef .tc main_v64) : FVec F S1x64 .f32) =
      mean64 (U (Proc.devRef .tc main_v62_1)) := by
  after_results <;> rfl

/-- Their clamped variance. -/
theorem s3_v70 (U : Valuation τ sig (Elt F)) :
    (StableHlo.after hostOps3 U (Proc.devRef .tc main_v70) : FVec F S1x64 .f32) =
      var64 (U (Proc.devRef .tc main_v62_1)) (U (Proc.devRef .tc main_v62_2)) := by
  after_results <;> rfl

/-- Argument 10 as one row. -/
theorem s3_v71 (U : Valuation τ sig (Elt F)) :
    (StableHlo.after hostOps3 U (Proc.devRef .tc main_v71) : FVec F S1x64 .f32) =
      shapeCast S1x64 (U (Proc.devRef .tc main_arg10)) shapeCasts_S64_S1x64 := by
  after_results <;> rfl

/-- Argument 11 as one row. -/
theorem s3_v72 (U : Valuation τ sig (Elt F)) :
    (StableHlo.after hostOps3 U (Proc.devRef .tc main_v72) : FVec F S1x64 .f32) =
      shapeCast S1x64 (U (Proc.devRef .tc main_arg11)) shapeCasts_S64_S1x64 := by
  after_results <;> rfl

/-- Argument 13 as one row. -/
theorem s3_v73 (U : Valuation τ sig (Elt F)) :
    (StableHlo.after hostOps3 U (Proc.devRef .tc main_v73) : FVec F S1x2 .f32) =
      shapeCast S1x2 (U (Proc.devRef .tc main_arg13)) shapeCasts_S2_S1x2 := by
  after_results <;> rfl

/-- The buffers stretch 3's operations write, in order. -/
abbrev written3 : List (Ref sig .tc) := [main_cst_17, main_v63, main_v64, main_cst_18, main_v65, main_v66, main_v67, main_v68, main_cst_19, main_v69, main_v70, main_v71, main_v72, main_v73]

theorem hostOps3_writes : (hostOps3 : List (HloOp τ sig (Elt F))).Forall fun op =>
    op.writes ⊆ (written3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- Stretch 3 leaves every buffer it does not write as it was. -/
theorem s3_keeps (U : Valuation τ sig (Elt F)) (r : Ref sig .tc) (h : r ∉ written3) :
    StableHlo.after hostOps3 U (Proc.devRef .tc r) = U (Proc.devRef .tc r) :=
  StableHlo.after_of_writes_sub hostOps3 U hostOps3_writes h

theorem s3_v62_0 (U : Valuation τ sig (Elt F)) :
    StableHlo.after hostOps3 U (Proc.devRef .tc main_v62_0) = U (Proc.devRef .tc main_v62_0) := s3_keeps U main_v62_0 (by decide)

theorem s3_arg12 (U : Valuation τ sig (Elt F)) :
    StableHlo.after hostOps3 U (Proc.devRef .tc main_arg12) = U (Proc.devRef .tc main_arg12) := s3_keeps U main_arg12 (by decide)

end Cert.KernelIdeal.Stretch

end
-- ==== Proof.KernelChain.lean ====
/-
  The thread through the program: what every region reads, and the two results, in terms of what the previous
  region left in its output windows and of the launch memory.

  The buffer contents are folded through the program: a host stretch applies its operations (a buffer it does not
  write is unchanged); a region replaces the contents of its output windows' arrays by what its pipeline leaves
  there and changes nothing else — an input window's array ends as it entered, and a buffer that is no window of
  the region is not touched. Following one buffer back from the point where it is read therefore ends either at
  the output window of an earlier region, at a value a host stretch computed from such outputs and from arguments,
  or at the launch memory.
-/
import proofs.«173987_j26422638805210_2_alg».proof.Proof.Gen.KernelIdeal.Frame
import proofs.«173987_j26422638805210_2_alg».proof.Proof.HostStretch

noncomputable section

namespace Cert.KernelIdeal.Chain

open Cert.KernelIdeal Cert.KernelIdeal.Gen Cert.KernelIdeal.Stretch
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The launch, and what region 0 reads -/

/-- At launch every buffer holds the launch memory. -/
theorem W0_arg (b : Ref sig .tc) : W0 m ρ c (Proc.devRef .tc b) = m ((c : Thread nD τ).loc b) := rfl

theorem V1_v32 : (V1 m ρ c main_v32 : FVec F S100000x64 .f32) =
    neighbourSum64 (m ((c : Thread nD τ).loc main_arg0)) (srcIds (m ((c : Thread nD τ).loc main_arg1))) (dstIds (m ((c : Thread nD τ).loc main_arg1))) :=
  Stretch.s0_v32 (W0 m ρ c)

theorem V1_v17 : (V1 m ρ c main_v17 : FVec F S100000x1 .f32) = invDegree (F := F) (dstIds (m ((c : Thread nD τ).loc main_arg1))) :=
  Stretch.s0_v17 (W0 m ρ c)

theorem V1_arg0 : V1 m ρ c main_arg0 = m ((c : Thread nD τ).loc main_arg0) := Stretch.s0_arg0 (W0 m ρ c)

theorem V1_arg2 : V1 m ρ c main_arg2 = m ((c : Thread nD τ).loc main_arg2) := Stretch.s0_arg2 (W0 m ρ c)

theorem V1_v33 : (V1 m ρ c main_v33 : FVec F S1x128 .f32) = shapeCast S1x128 (m ((c : Thread nD τ).loc main_arg3)) shapeCasts_S128_S1x128 :=
  Stretch.s0_v33 (W0 m ρ c)

theorem V1_arg4 : V1 m ρ c main_arg4 = m ((c : Thread nD τ).loc main_arg4) := Stretch.s0_arg4 (W0 m ρ c)

/-! ## What region 1 reads -/

theorem W2_arg5 : W2 m ρ c (Proc.devRef .tc main_arg5) = m ((c : Thread nD τ).loc main_arg5) :=
  (W2_of_ne m ρ c main_arg5 (by decide)).trans (Stretch.s0_keeps (W0 m ρ c) main_arg5 (by decide))

theorem W2_arg6 : W2 m ρ c (Proc.devRef .tc main_arg6) = m ((c : Thread nD τ).loc main_arg6) :=
  (W2_of_ne m ρ c main_arg6 (by decide)).trans (Stretch.s0_keeps (W0 m ρ c) main_arg6 (by decide))

theorem V3_v34_0 : V3 m ρ c main_v34_0 = (dat0 (V1 m ρ) c).arrAt 6 cfg0.N :=
  (Stretch.s1_v34_0 (W2 m ρ c)).trans (W2_arr m ρ c 6)

theorem V3_v36 : (V3 m ρ c main_v36 : FVec F S1x128 .f32) = mean128 ((dat0 (V1 m ρ) c).arrAt 7 cfg0.N) :=
  (Stretch.s1_v36 (W2 m ρ c)).trans (congrArg mean128 (W2_arr m ρ c 7))

theorem V3_v42 : (V3 m ρ c main_v42 : FVec F S1x128 .f32) = var128 ((dat0 (V1 m ρ) c).arrAt 7 cfg0.N) ((dat0 (V1 m ρ) c).arrAt 8 cfg0.N) :=
  (Stretch.s1_v42 (W2 m ρ c)).trans (congrArg₂ var128 (W2_arr m ρ c 7) (W2_arr m ρ c 8))

theorem V3_v43 : (V3 m ρ c main_v43 : FVec F S1x128 .f32) = shapeCast S1x128 (m ((c : Thread nD τ).loc main_arg5)) shapeCasts_S128_S1x128 :=
  (Stretch.s1_v43 (W2 m ρ c)).trans (congrArg (fun x => shapeCast S1x128 x shapeCasts_S128_S1x128) (W2_arg5 m ρ c))

theorem V3_v44 : (V3 m ρ c main_v44 : FVec F S1x128 .f32) = shapeCast S1x128 (m ((c : Thread nD τ).loc main_arg6)) shapeCasts_S128_S1x128 :=
  (Stretch.s1_v44 (W2 m ρ c)).trans (congrArg (fun x => shapeCast S1x128 x shapeCasts_S128_S1x128) (W2_arg6 m ρ c))

/-! ## What region 2 reads -/

/-- A function of three arguments respects equality in each. -/
theorem congrArg₃ {α β γ δ : Type} (f : α → β → γ → δ) {a a' : α} {b b' : β} {c c' : γ}
    (ha : a = a') (hb : b = b') (hc : c = c') : f a b c = f a' b' c' := by
  subst ha hb hc; rfl

theorem W4_v1 : W4 m ρ c (Proc.devRef .tc main_v1) = srcIds (m ((c : Thread nD τ).loc main_arg1)) :=
  (W4_of_ne m ρ c main_v1 (by decide)).trans ((Stretch.s1_keeps (W2 m ρ c) main_v1 (by decide)).trans ((W2_of_ne m ρ c main_v1 (by decide)).trans (Stretch.s0_v1 (W0 m ρ c))))

theorem W4_v3 : W4 m ρ c (Proc.devRef .tc main_v3) = dstIds (m ((c : Thread nD τ).loc main_arg1)) :=
  (W4_of_ne m ρ c main_v3 (by decide)).trans ((Stretch.s1_keeps (W2 m ρ c) main_v3 (by decide)).trans ((W2_of_ne m ρ c main_v3 (by decide)).trans (Stretch.s0_v3 (W0 m ρ c))))

theorem W4_v17 : W4 m ρ c (Proc.devRef .tc main_v17) = invDegree (F := F) (dstIds (m ((c : Thread nD τ).loc main_arg1))) :=
  (W4_of_ne m ρ c main_v17 (by decide)).trans ((Stretch.s1_keeps (W2 m ρ c) main_v17 (by decide)).trans (((W2_arr m ρ c 1).trans (((dat0 (V1 m ρ) c).arrAt_in 1 rfl _).trans (A_eq0 (V1 m ρ) c 1))).trans (Stretch.s0_v17 (W0 m ρ c))))

theorem W4_arg7 : W4 m ρ c (Proc.devRef .tc main_arg7) = m ((c : Thread nD τ).loc main_arg7) :=
  (W4_of_ne m ρ c main_arg7 (by decide)).trans ((Stretch.s1_keeps (W2 m ρ c) main_arg7 (by decide)).trans ((W2_of_ne m ρ c main_arg7 (by decide)).trans (Stretch.s0_keeps (W0 m ρ c) main_arg7 (by decide))))

theorem W4_arg8 : W4 m ρ c (Proc.devRef .tc main_arg8) = m ((c : Thread nD τ).loc main_arg8) :=
  (W4_of_ne m ρ c main_arg8 (by decide)).trans ((Stretch.s1_keeps (W2 m ρ c) main_arg8 (by decide)).trans ((W2_of_ne m ρ c main_arg8 (by decide)).trans (Stretch.s0_keeps (W0 m ρ c) main_arg8 (by decide))))

theorem W4_arg9 : W4 m ρ c (Proc.devRef .tc main_arg9) = m ((c : Thread nD τ).loc main_arg9) :=
  (W4_of_ne m ρ c main_arg9 (by decide)).trans ((Stretch.s1_keeps (W2 m ρ c) main_arg9 (by decide)).trans ((W2_of_ne m ρ c main_arg9 (by decide)).trans (Stretch.s0_keeps (W0 m ρ c) main_arg9 (by decide))))

theorem V5_v60 : (V5 m ρ c main_v60 : FVec F S100000x128 .f32) =
    neighbourSum128 ((dat1 (V3 m ρ) c).arrAt 5 cfg1.N) (srcIds (m ((c : Thread nD τ).loc main_arg1))) (dstIds (m ((c : Thread nD τ).loc main_arg1))) :=
  (Stretch.s2_v60 (W4 m ρ c)).trans
    (congrArg₃ neighbourSum128 (W4_arr m ρ c 5) (W4_v1 m ρ c) (W4_v3 m ρ c))

theorem V5_v17 : (V5 m ρ c main_v17 : FVec F S100000x1 .f32) = invDegree (F := F) (dstIds (m ((c : Thread nD τ).loc main_arg1))) :=
  (Stretch.s2_v17 (W4 m ρ c)).trans (W4_v17 m ρ c)

theorem V5_v45 : V5 m ρ c main_v45 = (dat1 (V3 m ρ) c).arrAt 5 cfg1.N :=
  (Stretch.s2_v45 (W4 m ρ c)).trans (W4_arr m ρ c 5)

theorem V5_arg7 : V5 m ρ c main_arg7 = m ((c : Thread nD τ).loc main_arg7) :=
  (Stretch.s2_arg7 (W4 m ρ c)).trans (W4_arg7 m ρ c)

theorem V5_v61 : (V5 m ρ c main_v61 : FVec F S1x64 .f32) = shapeCast S1x64 (m ((c : Thread nD τ).loc main_arg8)) shapeCasts_S64_S1x64 :=
  (Stretch.s2_v61 (W4 m ρ c)).trans (congrArg (fun x => shapeCast S1x64 x shapeCasts_S64_S1x64) (W4_arg8 m ρ c))

theorem V5_arg9 : V5 m ρ c main_arg9 = m ((c : Thread nD τ).loc main_arg9) :=
  (Stretch.s2_arg9 (W4 m ρ c)).trans (W4_arg9 m ρ c)

/-! ## The results, and what region 3 reads -/

/-- The first result is what region 3 leaves in its output window 7. -/
theorem W8_v74_0 : W8 m ρ c (Proc.devRef .tc main_v74_0) = (dat3 (V7 m ρ) c).arrAt 7 cfg3.N := W8_arr m ρ c 7

/-- The second result is what region 3 leaves in its output window 8. -/
theorem W8_v74_1 : W8 m ρ c (Proc.devRef .tc main_v74_1) = (dat3 (V7 m ρ) c).arrAt 8 cfg3.N := W8_arr m ρ c 8

theorem W6_arg10 : W6 m ρ c (Proc.devRef .tc main_arg10) = m ((c : Thread nD τ).loc main_arg10) :=
  (W6_of_ne m ρ c main_arg10 (by decide)).trans ((Stretch.s2_keeps (W4 m ρ c) main_arg10 (by decide)).trans ((W4_of_ne m ρ c main_arg10 (by decide)).trans ((Stretch.s1_keeps (W2 m ρ c) main_arg10 (by decide)).trans ((W2_of_ne m ρ c main_arg10 (by decide)).trans (Stretch.s0_keeps (W0 m ρ c) main_arg10 (by decide))))))

theorem W6_arg11 : W6 m ρ c (Proc.devRef .tc main_arg11) = m ((c : Thread nD τ).loc main_arg11) :=
  (W6_of_ne m ρ c main_arg11 (by decide)).trans ((Stretch.s2_keeps (W4 m ρ c) main_arg11 (by decide)).trans ((W4_of_ne m ρ c main_arg11 (by decide)).trans ((Stretch.s1_keeps (W2 m ρ c) main_arg11 (by decide)).trans ((W2_of_ne m ρ c main_arg11 (by decide)).trans (Stretch.s0_keeps (W0 m ρ c) main_arg11 (by decide))))))

theorem W6_arg12 : W6 m ρ c (Proc.devRef .tc main_arg12) = m ((c : Thread nD τ).loc main_arg12) :=
  (W6_of_ne m ρ c main_arg12 (by decide)).trans ((Stretch.s2_keeps (W4 m ρ c) main_arg12 (by decide)).trans ((W4_of_ne m ρ c main_arg12 (by decide)).trans ((Stretch.s1_keeps (W2 m ρ c) main_arg12 (by decide)).trans ((W2_of_ne m ρ c main_arg12 (by decide)).trans (Stretch.s0_keeps (W0 m ρ c) main_arg12 (by decide))))))

theorem W6_arg13 : W6 m ρ c (Proc.devRef .tc main_arg13) = m ((c : Thread nD τ).loc main_arg13) :=
  (W6_of_ne m ρ c main_arg13 (by decide)).trans ((Stretch.s2_keeps (W4 m ρ c) main_arg13 (by decide)).trans ((W4_of_ne m ρ c main_arg13 (by decide)).trans ((Stretch.s1_keeps (W2 m ρ c) main_arg13 (by decide)).trans ((W2_of_ne m ρ c main_arg13 (by decide)).trans (Stretch.s0_keeps (W0 m ρ c) main_arg13 (by decide))))))

theorem V7_v62_0 : V7 m ρ c main_v62_0 = (dat2 (V5 m ρ) c).arrAt 6 cfg2.N :=
  (Stretch.s3_v62_0 (W6 m ρ c)).trans (W6_arr m ρ c 6)

theorem V7_v64 : (V7 m ρ c main_v64 : FVec F S1x64 .f32) = mean64 ((dat2 (V5 m ρ) c).arrAt 7 cfg2.N) :=
  (Stretch.s3_v64 (W6 m ρ c)).trans (congrArg mean64 (W6_arr m ρ c 7))

theorem V7_v70 : (V7 m ρ c main_v70 : FVec F S1x64 .f32) = var64 ((dat2 (V5 m ρ) c).arrAt 7 cfg2.N) ((dat2 (V5 m ρ) c).arrAt 8 cfg2.N) :=
  (Stretch.s3_v70 (W6 m ρ c)).trans (congrArg₂ var64 (W6_arr m ρ c 7) (W6_arr m ρ c 8))

theorem V7_v71 : (V7 m ρ c main_v71 : FVec F S1x64 .f32) = shapeCast S1x64 (m ((c : Thread nD τ).loc main_arg10)) shapeCasts_S64_S1x64 :=
  (Stretch.s3_v71 (W6 m ρ c)).trans (congrArg (fun x => shapeCast S1x64 x shapeCasts_S64_S1x64) (W6_arg10 m ρ c))

theorem V7_v72 : (V7 m ρ c main_v72 : FVec F S1x64 .f32) = shapeCast S1x64 (m ((c : Thread nD τ).loc main_arg11)) shapeCasts_S64_S1x64 :=
  (Stretch.s3_v72 (W6 m ρ c)).trans (congrArg (fun x => shapeCast S1x64 x shapeCasts_S64_S1x64) (W6_arg11 m ρ c))

theorem V7_arg12 : V7 m ρ c main_arg12 = m ((c : Thread nD τ).loc main_arg12) :=
  (Stretch.s3_arg12 (W6 m ρ c)).trans (W6_arg12 m ρ c)

theorem V7_v73 : (V7 m ρ c main_v73 : FVec F S1x2 .f32) = shapeCast S1x2 (m ((c : Thread nD τ).loc main_arg13)) shapeCasts_S2_S1x2 :=
  (Stretch.s3_v73 (W6 m ρ c)).trans (congrArg (fun x => shapeCast S1x2 x shapeCasts_S2_S1x2) (W6_arg13 m ρ c))

end Cert.KernelIdeal.Chain

end
-- ==== Proof.LinCases0.lean ====
/-
  What one grid point of the first linear layer leaves in its three output buffers, as values.

  The body computes the block h = (agg * invdeg) Wlᵀ + bl + x Wrᵀ of 4000 rows, stores it, and adds the block's column sums of h
  and of h * h onto two running rows; at the first point it zeroes those rows first. So the block output is h in both cases, and
  the running rows are "zero + column sums" at the first point and "carried + column sums" afterwards.
-/
import proofs.«173987_j26422638805210_2_alg».proof.Proof.Gen.KernelIdeal.Frame
import Idealize.ShloMosaic.Lib.Pipeline.Value
import Idealize.ShloMosaic.Lib.Tactic

set_option maxRecDepth 16384

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

theorem blockA (c : Dev nD) (i : grid0.Coords) (arg1 : Memref sig .tc .vmem S4000x64 .f32) (harg1 : arg1.IsWhole) (arg2 : Memref sig .tc .vmem S4000x1 .f32) (harg2 : arg2.IsWhole) (arg3 : Memref sig .tc .vmem S4000x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S4000x64 .f32) (x1 : Vec F S4000x1 .f32) (x2 : Vec F S4000x64 .f32) (x3 : Vec F S128x64 .f32) (x4 : Vec F S1x128 .f32) (x5 : Vec F S128x64 .f32) :
    out0_A_6 c i arg1 harg1 arg2 harg2 arg3 harg3 arg4 harg4 arg5 harg5 arg6 harg6 arg7 harg7 arg8 harg8 arg9 harg9 hc0 x0 x1 x2 x3 x4 x5 = (k0_pay4 x0 x1 x2 x3 x5 x4) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x64) hz, View.ld_unit_zero (S := S4000x1) hz, View.ld_unit_zero (S := S128x64) hz, View.ld_unit_zero (S := S1x128) hz, View.ld_unit_zero (S := S4000x128) hz]

theorem blockB (c : Dev nD) (i : grid0.Coords) (arg1 : Memref sig .tc .vmem S4000x64 .f32) (harg1 : arg1.IsWhole) (arg2 : Memref sig .tc .vmem S4000x1 .f32) (harg2 : arg2.IsWhole) (arg3 : Memref sig .tc .vmem S4000x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S4000x64 .f32) (x1 : Vec F S4000x1 .f32) (x2 : Vec F S4000x64 .f32) (x3 : Vec F S128x64 .f32) (x4 : Vec F S1x128 .f32) (x5 : Vec F S128x64 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = (k0_pay4 x0 x1 x2 x3 x5 x4) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x64) hz, View.ld_unit_zero (S := S4000x1) hz, View.ld_unit_zero (S := S128x64) hz, View.ld_unit_zero (S := S1x128) hz, View.ld_unit_zero (S := S4000x128) hz]

theorem sumA (c : Dev nD) (i : grid0.Coords) (arg1 : Memref sig .tc .vmem S4000x64 .f32) (harg1 : arg1.IsWhole) (arg2 : Memref sig .tc .vmem S4000x1 .f32) (harg2 : arg2.IsWhole) (arg3 : Memref sig .tc .vmem S4000x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S4000x64 .f32) (x1 : Vec F S4000x1 .f32) (x2 : Vec F S4000x64 .f32) (x3 : Vec F S128x64 .f32) (x4 : Vec F S1x128 .f32) (x5 : Vec F S128x64 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x5 x4 k0_pay2 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, harg9.read_unread, View.ld_unit_zero (S := S4000x64) hz, View.ld_unit_zero (S := S4000x1) hz, View.ld_unit_zero (S := S128x64) hz, View.ld_unit_zero (S := S1x128) hz, View.ld_unit_zero (S := S4000x128) hz]

theorem sumB (c : Dev nD) (i : grid0.Coords) (arg1 : Memref sig .tc .vmem S4000x64 .f32) (harg1 : arg1.IsWhole) (arg2 : Memref sig .tc .vmem S4000x1 .f32) (harg2 : arg2.IsWhole) (arg3 : Memref sig .tc .vmem S4000x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S4000x64 .f32) (x1 : Vec F S4000x1 .f32) (x2 : Vec F S4000x64 .f32) (x3 : Vec F S128x64 .f32) (x4 : Vec F S1x128 .f32) (x5 : Vec F S128x64 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x5 x4 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x64) hz, View.ld_unit_zero (S := S4000x1) hz, View.ld_unit_zero (S := S128x64) hz, View.ld_unit_zero (S := S1x128) hz, View.ld_unit_zero (S := S4000x128) hz]

theorem sumsqA (c : Dev nD) (i : grid0.Coords) (arg1 : Memref sig .tc .vmem S4000x64 .f32) (harg1 : arg1.IsWhole) (arg2 : Memref sig .tc .vmem S4000x1 .f32) (harg2 : arg2.IsWhole) (arg3 : Memref sig .tc .vmem S4000x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S4000x64 .f32) (x1 : Vec F S4000x1 .f32) (x2 : Vec F S4000x64 .f32) (x3 : Vec F S128x64 .f32) (x4 : Vec F S1x128 .f32) (x5 : Vec F S128x64 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x5 x4) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, harg9.read_unread, View.ld_unit_zero (S := S4000x64) hz, View.ld_unit_zero (S := S4000x1) hz, View.ld_unit_zero (S := S128x64) hz, View.ld_unit_zero (S := S1x128) hz, View.ld_unit_zero (S := S4000x128) hz]

theorem sumsqB (c : Dev nD) (i : grid0.Coords) (arg1 : Memref sig .tc .vmem S4000x64 .f32) (harg1 : arg1.IsWhole) (arg2 : Memref sig .tc .vmem S4000x1 .f32) (harg2 : arg2.IsWhole) (arg3 : Memref sig .tc .vmem S4000x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S4000x64 .f32) (x1 : Vec F S4000x1 .f32) (x2 : Vec F S4000x64 .f32) (x3 : Vec F S128x64 .f32) (x4 : Vec F S1x128 .f32) (x5 : Vec F S128x64 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x5 x4) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x64) hz, View.ld_unit_zero (S := S4000x1) hz, View.ld_unit_zero (S := S128x64) hz, View.ld_unit_zero (S := S1x128) hz, View.ld_unit_zero (S := S4000x128) hz]

end Cert.KernelIdeal.Lin0

end
-- ==== Proof.LinBlock0.lean ====
/-
  One block of the first linear layer, read entry by entry on the extended reals.

  For a block of 4000 rows the body forms h = (agg * invdeg) Wlᵀ + bl + x Wrᵀ. Entry (y, f) of h is
      Σ_k (agg[y,k] * invdeg[y,0]) * Wl[f,k]  +  bl[0,f]  +  Σ_k x[y,k] * Wr[f,k]
  (a change of float format is the identity here, and a matrix product onto a zero accumulator is the plain sum over the
  contracted index k). The two running rows receive, at column f, the block's column sums Σ_y h[y,f] and Σ_y h[y,f]².
-/
import proofs.«173987_j26422638805210_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LinBlock0

open Cert.KernelIdeal Cert.KernelIdeal.Gen Idealize.ShloMosaic Idealize.ShloMosaic.ValueIdx
open scoped BigOperators

/-! ## The block product's operand indices -/

theorem lhs_row (i : S4000x128.Idx) (q : dot_S4000x64_S64x128_S4000x128_1_0_0_1_n_n.contr.Idx) : (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs_contr (i : S4000x128.Idx) (q : dot_S4000x64_S64x128_S4000x128_1_0_0_1_n_n.contr.Idx) : (dot_S4000x64_S64x128_S4000x128_1_0_0_1_n_n.lhsIdx i q 1).val = (q ⟨0, by decide⟩).val :=
  dot_S4000x64_S64x128_S4000x128_1_0_0_1_n_n.lhsIdx_val_of_single rfl i q
theorem rhs_contr (i : S4000x128.Idx) (q : dot_S4000x64_S64x128_S4000x128_1_0_0_1_n_n.contr.Idx) : (dot_S4000x64_S64x128_S4000x128_1_0_0_1_n_n.rhsIdx i q 0).val = (q ⟨0, by decide⟩).val :=
  dot_S4000x64_S64x128_S4000x128_1_0_0_1_n_n.rhsIdx_val_of_single rfl i q
theorem rhs_col (i : S4000x128.Idx) (q : dot_S4000x64_S64x128_S4000x128_1_0_0_1_n_n.contr.Idx) : (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- A [4000, 64] × [64, 128] product onto the zero accumulator, at entry (y, f): the sum over k of l[y,k] * r[k,f]. -/
theorem product_apply {φ₁ φ₂ : FTy} (l : FVec Ideal S4000x64 φ₁) (r : FVec Ideal S64x128 φ₂) (y : Fin 4000) (f : Fin 128) :
    FloatOps.matmul dot_S4000x64_S64x128_S4000x128_1_0_0_1_n_n none l r (constant S4000x128 .f32 0x00000000#32) (ix2 y f) = ∑ k : Fin 64, l (ix2 y k) * r (ix2 k f) := by
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 y f) ((ValueIdx.contrEquiv1 dot_S4000x64_S64x128_S4000x128_1_0_0_1_n_n 64 rfl rfl).symm k) = ix2 y k := funext fun a => Fin.ext (by
    match a with
    | ⟨0, _⟩ => exact lhs_row _ _
    | ⟨1, _⟩ => exact (lhs_contr _ _).trans hk)
  have er : dot_S4000x64_S64x128_S4000x128_1_0_0_1_n_n.rhsIdx (ix2 y f) ((ValueIdx.contrEquiv1 dot_S4000x64_S64x128_S4000x128_1_0_0_1_n_n 64 rfl rfl).symm k) = ix2 k f := funext fun a => Fin.ext (by
    match a with
    | ⟨0, _⟩ => exact (rhs_contr _ _).trans hk
    | ⟨1, _⟩ => exact rhs_col _ _)
  rw [el, er]

/-- A [4000, 1] column broadcast to [4000, 64] reads, at (p, c), the column at row p. -/
theorem column_apply {α : Type} (v : S4000x1.Idx → α) (h : S4000x1.Broadcasts S4000x64) (p : Fin 4000) (c : Fin 64) :
    broadcastTo S4000x64 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ## The block h at an entry -/

/-- Entry (y, f) of the block h. -/
theorem block_apply (x0 : Vec Ideal S4000x64 .f32) (x1 : Vec Ideal S4000x1 .f32) (x2 : Vec Ideal S4000x64 .f32) (x3 x5 : Vec Ideal S128x64 .f32) (x4 : Vec Ideal S1x128 .f32)
    (y : Fin 4000) (f : Fin 128) :
    k0_pay4 x0 x1 x2 x3 x5 x4 (ix2 y f)
      = (∑ k : Fin 64, (x0 (ix2 y k) * x1 (ix2 y (0 : Fin 1))) * x3 (ix2 f k)) + x4 (ix2 (0 : Fin 1) f) + ∑ k : Fin 64, x2 (ix2 y k) * x5 (ix2 f k) := by
  unfold k0_pay4
  simp only [matmul]
  rw [addf_apply, addf_apply, product_apply, product_apply, broadcastTo_1b_ab_apply]
  have e3 : ∀ k : Fin 64, (transpose S64x128 [1, 0] (truncf (F := Ideal) .bf16 (x3 : FVec Ideal S128x64 .f32) bitsLt_bf16_f32) transposes_S128x64_p1_0_S64x128 (ix2 k f) : EReal) = (x3 (ix2 f k) : EReal) :=
    fun k => by rw [transpose_ix2_apply]; rfl
  have e5 : ∀ k : Fin 64, (transpose S64x128 [1, 0] (truncf (F := Ideal) .bf16 (x5 : FVec Ideal S128x64 .f32) bitsLt_bf16_f32) transposes_S128x64_p1_0_S64x128 (ix2 k f) : EReal) = (x5 (ix2 f k) : EReal) :=
    fun k => by rw [transpose_ix2_apply]; rfl
  simp only [truncf_apply, mulf_apply, shapeCast_self, column_apply, e3, e5]

/-- The same entry when the block's rows are rows of whole arrays: if the block's row y reads row r of the node arrays, and the
    weight and bias blocks are their arrays, entry (y, f) of the block is the layer's formula at (r, f). -/
theorem block_entry_of_reads (x0 : Vec Ideal S4000x64 .f32) (x1 : Vec Ideal S4000x1 .f32) (x2 : Vec Ideal S4000x64 .f32) (x3 x5 : Vec Ideal S128x64 .f32) (x4 : Vec Ideal S1x128 .f32)
    (A0 : S100000x64.Idx → EReal) (A1 : S100000x1.Idx → EReal) (A2 : S100000x64.Idx → EReal) (A3 : S128x64.Idx → EReal) (A4 : S1x128.Idx → EReal) (A5 : S128x64.Idx → EReal)
    (y : Fin 4000) (f : Fin 128) (r : Fin 100000)
    (h0 : ∀ k : Fin 64, x0 (ix2 y k) = A0 (ix2 r k)) (h1 : x1 (ix2 y (0 : Fin 1)) = A1 (ix2 r (0 : Fin 1)))
    (h2 : ∀ k : Fin 64, x2 (ix2 y k) = A2 (ix2 r k)) (h3 : ∀ k : Fin 64, x3 (ix2 f k) = A3 (ix2 f k))
    (h4 : x4 (ix2 (0 : Fin 1) f) = A4 (ix2 (0 : Fin 1) f)) (h5 : ∀ k : Fin 64, x5 (ix2 f k) = A5 (ix2 f k)) :
    k0_pay4 x0 x1 x2 x3 x5 x4 (ix2 y f)
      = (∑ k : Fin 64, (A0 (ix2 r k) * A1 (ix2 r (0 : Fin 1))) * A3 (ix2 f k)) + A4 (ix2 (0 : Fin 1) f) + ∑ k : Fin 64, A2 (ix2 r k) * A5 (ix2 f k) := by
  rw [block_apply, h1, h4]
  simp only [h0, h2, h3, h5]

/-! ## The running rows at a column -/

/-- The sum over the block's 4000 rows, at column f. -/
theorem colsum_apply (src : FVec Ideal S4000x128 .f32) (h : S4000x128.Reduces [0] S128) (hφ : FKind.Formats .f32)
    (hacc : (0x00000000#32 : BitVec 32) = 0x00000000#32) (f : Fin 128) :
    multiReduction .add [0] S128 src 0x00000000#32 h hφ hacc (ix1 f) = ∑ y : Fin 4000, src (ix2 y f) :=
  (Ideal.multiReduction_add_single src 0x00000000#32 h hφ hacc (ix1 f)).trans (by
    show (∑ y : Fin 4000, src (h.lift (ix1 f) y)) = _
    refine Finset.sum_congr rfl fun y _ => congrArg src ?_
    funext a
    match a with
    | ⟨0, _⟩ => rfl
    | ⟨1, _⟩ => rfl)

/-- The row of column sums of h: the carried row plus the block's column sums. -/
theorem sum_apply (x0 : Vec Ideal S4000x64 .f32) (x1 : Vec Ideal S4000x1 .f32) (x2 : Vec Ideal S4000x64 .f32) (x3 x5 : Vec Ideal S128x64 .f32) (x4 : Vec Ideal S1x128 .f32)
    (prev : Vec Ideal S1x128 .f32) (f : Fin 128) :
    k0_pay5 x0 x1 x2 x3 x5 x4 prev (ix2 (0 : Fin 1) f)
      = prev (ix2 (0 : Fin 1) f) + ∑ y : Fin 4000, k0_pay4 x0 x1 x2 x3 x5 x4 (ix2 y f) := by
  unfold k0_pay5
  rw [addf_apply, shapeCast_self, shapeCast_a_1a_apply, colsum_apply]

/-- The row of column sums of h * h: the carried row plus the block's column sums of squares. -/
theorem sumsq_apply (h : FVec Ideal S4000x128 .f32) (prev : Vec Ideal S1x128 .f32) (f : Fin 128) :
    k0_pay1 h prev (ix2 (0 : Fin 1) f) = prev (ix2 (0 : Fin 1) f) + ∑ y : Fin 4000, h (ix2 y f) * h (ix2 y f) := by
  unfold k0_pay1
  rw [addf_apply, shapeCast_self, shapeCast_a_1a_apply, colsum_apply]
  rfl

/-- The rows the first grid point starts from are zero. -/
theorem zero_sum_apply (f : Fin 128) : (k0_pay2 (F := Ideal)) (ix2 (0 : Fin 1) f) = 0 := by
  show Ideal.ofBits .f32 0x00000000#32 = 0
  exact Ideal.ofBits_zero_f32
theorem zero_sumsq_apply (f : Fin 128) : (k0_pay3 (F := Ideal)) (ix2 (0 : Fin 1) f) = 0 := by
  show Ideal.ofBits .f32 0x00000000#32 = 0
  exact Ideal.ofBits_zero_f32

end Cert.KernelIdeal.LinBlock0

end
-- ==== Proof.Stats.lean ====
/-
  Real-number identities behind a batch-normalised column statistic, and the small toolkit that
  carries them to the extended reals.

  A column of 100000 values can be summed all at once, or as 25 consecutive blocks of 4000 values
  each; the two sums agree in any commutative monoid. The variance of a finite family can be
  computed as the mean of the squared deviations from the mean, or as the mean of the squares minus
  the square of the mean (clamped below at zero); over the reals the two agree. Finally, every
  operation involved (sum, difference, product, maximum, quotient by a real, reciprocal square
  root of a positive real) sends real numbers, embedded in the extended reals, to real numbers.
-/
import Mathlib.Tactic
import Mathlib.Data.EReal.Inv
import Mathlib.Algebra.BigOperators.Fin
import Mathlib.Data.Fintype.BigOperators
import Mathlib.Algebra.Order.BigOperators.Group.Finset
import Idealize.ShloMosaic.PureOps.Ideal
import Idealize.ShloMosaic.PureOps.Ideal.Laws

open scoped BigOperators

namespace Cert.Proof.Stats

open Idealize.ShloMosaic

/-! ## The embedding of the reals commutes with finite sums and with `max` -/

/-- The embedding `ℝ → EReal` is additive, hence commutes with a finite sum (induction on the
    index set: the empty sum is `0`, and inserting an index adds one term on both sides). -/
theorem coe_sum {ι : Type*} (s : Finset ι) (f : ι → ℝ) :
    (∑ i ∈ s, ((f i : ℝ) : EReal)) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- The embedding `ℝ → EReal` is monotone, hence commutes with `max`. -/
theorem coe_max (a b : ℝ) : ((max a b : ℝ) : EReal) = max (a : EReal) (b : EReal) :=
  EReal.coe_strictMono.monotone.map_max

/-! ## A sum over 100000 rows as 25 blocks of 4000 rows -/

/-- Euclidean division by 4000: a row index below 100000 is `4000 * t + y` for exactly one block
    `t < 25` and one offset `y < 4000`. -/
def blockEquiv : Fin 25 × Fin 4000 ≃ Fin 100000 where
  toFun p := ⟨4000 * p.1.val + p.2.val, by omega⟩
  invFun r := (⟨r.val / 4000, by omega⟩, ⟨r.val % 4000, by omega⟩)
  left_inv p := by
    rcases p with ⟨⟨a, ha⟩, ⟨b, hb⟩⟩
    refine Prod.ext (Fin.ext ?_) (Fin.ext ?_)
    · show (4000 * a + b) / 4000 = a
      omega
    · show (4000 * a + b) % 4000 = b
      omega
  right_inv r := by
    refine Fin.ext ?_
    show 4000 * (r.val / 4000) + r.val % 4000 = r.val
    omega

/-- Summing block by block, and inside each block offset by offset, is summing over all rows:
    the double sum is a sum over pairs (block, offset), and the pairs are in bijection with the rows. -/
theorem sum_rows_by_blocks' {M : Type*} [AddCommMonoid M] (f : Fin 100000 → M) :
    ∑ t : Fin 25, ∑ y : Fin 4000, f ⟨4000 * t.val + y.val, by omega⟩ = ∑ r : Fin 100000, f r :=
  calc ∑ t : Fin 25, ∑ y : Fin 4000, f ⟨4000 * t.val + y.val, by omega⟩
      = ∑ p : Fin 25 × Fin 4000, f (blockEquiv p) :=
        (Fintype.sum_prod_type' (fun t y => f (blockEquiv (t, y)))).symm
    _ = ∑ r : Fin 100000, f r := Equiv.sum_comp blockEquiv f

theorem sum_rows_by_blocks (f : Fin 100000 → EReal) :
    ∑ t : Fin 25, ∑ y : Fin 4000, f ⟨4000 * t.val + y.val, by omega⟩ = ∑ r : Fin 100000, f r :=
  sum_rows_by_blocks' f

/-- The partial form: the first `n` blocks hold exactly the rows below `4000 * n`. Apply the full
    decomposition to the family cut off at `4000 * n`: a block `t < n` lies wholly below the cut,
    a block `t ≥ n` wholly above it (its terms are all `0`). -/
theorem sum_first_blocks' {M : Type*} [AddCommMonoid M] (f : Fin 100000 → M) (n : ℕ) (hn : n ≤ 25) :
    ∑ t ∈ Finset.range n, ∑ y : Fin 4000,
        (if h : 4000 * t + y.val < 100000 then f ⟨4000 * t + y.val, h⟩ else 0)
      = ∑ r : Fin 100000, (if r.val < 4000 * n then f r else 0) := by
  have hR : ∑ r : Fin 100000, (if r.val < 4000 * n then f r else 0)
      = ∑ t ∈ Finset.range 25, if t < n then ∑ y : Fin 4000,
          (if h : 4000 * t + y.val < 100000 then f ⟨4000 * t + y.val, h⟩ else 0) else 0 := by
    rw [← sum_rows_by_blocks' (fun r : Fin 100000 => if r.val < 4000 * n then f r else 0),
      ← Fin.sum_univ_eq_sum_range (fun t => if t < n then ∑ y : Fin 4000,
          (if h : 4000 * t + y.val < 100000 then f ⟨4000 * t + y.val, h⟩ else 0) else 0) 25]
    refine Finset.sum_congr rfl fun t _ => ?_
    by_cases htn : t.val < n
    · rw [if_pos htn]
      refine Finset.sum_congr rfl fun y _ => ?_
      rw [dif_pos (show 4000 * t.val + y.val < 100000 by omega),
        if_pos (show 4000 * t.val + y.val < 4000 * n by omega)]
    · rw [if_neg htn]
      refine Finset.sum_eq_zero fun y _ => ?_
      rw [if_neg (show ¬ 4000 * t.val + y.val < 4000 * n by omega)]
  rw [hR, Finset.sum_ite, Finset.sum_const_zero, add_zero]
  refine Finset.sum_congr ?_ fun _ _ => rfl
  ext t
  simp only [Finset.mem_range, Finset.mem_filter]
  omega

theorem sum_first_blocks (f : Fin 100000 → EReal) (n : ℕ) (hn : n ≤ 25) :
    ∑ t ∈ Finset.range n, ∑ y : Fin 4000,
        (if h : 4000 * t + y.val < 100000 then f ⟨4000 * t + y.val, h⟩ else 0)
      = ∑ r : Fin 100000, (if r.val < 4000 * n then f r else 0) :=
  sum_first_blocks' f n hn

/-! ## The two formulas for the variance -/

/-- Over the reals, for a family of `n` numbers with sum `S` and mean `μ = S / n`:
    `∑ (hᵢ - μ)² = ∑ hᵢ² - 2 μ S + n μ² = ∑ hᵢ² - S² / n`, so the mean squared deviation is the
    mean square minus the squared mean; being a sum of squares over a positive number it is
    nonnegative, and clamping it below at `0` changes nothing. -/
theorem var_identity {ι : Type*} [Fintype ι] (h : ι → ℝ) (n : ℝ) (hn : 0 < n)
    (hc : (Fintype.card ι : ℝ) = n) :
    max ((∑ i, h i * h i) / n - ((∑ i, h i) / n) * ((∑ i, h i) / n)) 0
      = (∑ i, (h i - (∑ j, h j) / n) * (h i - (∑ j, h j) / n)) / n := by
  have hn0 : n ≠ 0 := ne_of_gt hn
  have hexp : (∑ i, h i * h i) / n - ((∑ i, h i) / n) * ((∑ i, h i) / n)
      = (∑ i, (h i - (∑ j, h j) / n) * (h i - (∑ j, h j) / n)) / n := by
    generalize hS : ∑ i, h i = S
    have hsq : ∑ i, (h i - S / n) * (h i - S / n)
        = (∑ i, h i * h i) - 2 * (S / n) * S + n * ((S / n) * (S / n)) := by
      have hterm : ∀ i, (h i - S / n) * (h i - S / n)
          = h i * h i - 2 * (S / n) * h i + (S / n) * (S / n) := fun i => by ring
      rw [Finset.sum_congr rfl (fun i _ => hterm i), Finset.sum_add_distrib,
        Finset.sum_sub_distrib, ← Finset.mul_sum, hS, Finset.sum_const, Finset.card_univ,
        nsmul_eq_mul, hc]
    rw [hsq]
    field_simp
    ring
  rw [hexp]
  exact max_eq_left (div_nonneg (Finset.sum_nonneg fun i _ => mul_self_nonneg _) hn.le)

/-- The same identity between extended reals that are embedded reals, with a quotient by `n`
    written as the product with the inverse of `n`: every operation is the embedding of the real
    one, so the statement is the embedding of `var_identity`. -/
theorem var_identity_ereal {ι : Type*} [Fintype ι] (h : ι → ℝ) (n : ℝ) (hn : 0 < n)
    (hc : (Fintype.card ι : ℝ) = n) :
    max ((∑ i, (h i : EReal) * (h i : EReal)) * (n : EReal)⁻¹
          - ((∑ i, (h i : EReal)) * (n : EReal)⁻¹) * ((∑ i, (h i : EReal)) * (n : EReal)⁻¹)) 0
      = (∑ i, ((h i : EReal) - (∑ j, (h j : EReal)) * (n : EReal)⁻¹)
              * ((h i : EReal) - (∑ j, (h j : EReal)) * (n : EReal)⁻¹)) * (n : EReal)⁻¹ := by
  have e := var_identity h n hn hc
  simp only [div_eq_mul_inv] at e
  simp only [← EReal.coe_inv, coe_sum, ← EReal.coe_mul, ← EReal.coe_sub]
  rw [← EReal.coe_zero, ← coe_max, e]

/-! ## Being a real number -/

/-- An extended real that is (the embedding of) a real number: neither `⊤` nor `⊥`. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.neg {x : EReal} (hx : IsReal x) : IsReal (-x) := by
  obtain ⟨a, rfl⟩ := hx
  exact ⟨-a, (EReal.coe_neg a).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  obtain ⟨a, rfl⟩ := hx
  obtain ⟨b, rfl⟩ := hy
  exact ⟨Max.max a b, (coe_max a b).symm⟩

/-- The inverse of a real is real (the inverse of `0` is `0` on both sides). -/
theorem IsReal.inv {y : EReal} (hy : IsReal y) : IsReal y⁻¹ := by
  obtain ⟨b, rfl⟩ := hy
  exact ⟨b⁻¹, (EReal.coe_inv b).symm⟩

/-- A quotient written as a product with an inverse. -/
theorem IsReal.mul_inv {x y : EReal} (hx : IsReal x) (hy : IsReal y) : IsReal (x * y⁻¹) :=
  hx.mul hy.inv

/-- A finite sum of reals is real. -/
theorem IsReal.sum {ι : Type*} (s : Finset ι) (f : ι → EReal) (hf : ∀ i ∈ s, IsReal (f i)) :
    IsReal (∑ i ∈ s, f i) :=
  Finset.sum_induction f IsReal (fun _ _ => IsReal.add) isReal_zero hf

/-- The reciprocal square root of a positive real is the real `(√x)⁻¹`. -/
theorem rsqrt_coe_of_pos {x : ℝ} (hx : 0 < x) :
    Ideal.rsqrt (x : EReal) = (((Real.sqrt x)⁻¹ : ℝ) : EReal) := by
  rw [Ideal.rsqrt_coe, if_neg (not_lt.mpr hx.le), if_neg hx.ne']

theorem isReal_rsqrt {x : ℝ} (hx : 0 < x) : IsReal (Ideal.rsqrt (x : EReal)) :=
  ⟨(Real.sqrt x)⁻¹, rsqrt_coe_of_pos hx⟩

theorem IsReal.rsqrt {x : EReal} (hx : IsReal x) (hpos : 0 < x) : IsReal (Ideal.rsqrt x) := by
  obtain ⟨a, rfl⟩ := hx
  exact isReal_rsqrt (EReal.coe_pos.mp hpos)

/-! ## A quotient by a nonzero real -/

/-- Division by a nonzero real is the product with its inverse. -/
theorem div_coe_eq_mul_inv {y : ℝ} (hy : y ≠ 0) (x : EReal) :
    Ideal.div x (y : EReal) = x * ((y : ℝ) : EReal)⁻¹ := by
  rw [Ideal.div, if_neg (EReal.coe_ne_zero.mpr hy)]

/-- The reciprocal of a nonzero real. -/
theorem div_one_coe {y : ℝ} (hy : y ≠ 0) : Ideal.div 1 (y : EReal) = ((y : ℝ) : EReal)⁻¹ := by
  rw [div_coe_eq_mul_inv hy, one_mul]

/-- A quotient of reals by a nonzero real is real. -/
theorem IsReal.div {x y : EReal} (hx : IsReal x) (hy : IsReal y) (hy0 : y ≠ 0) :
    IsReal (Ideal.div x y) := by
  rw [Ideal.div, if_neg hy0]
  exact hx.mul_inv hy

/-! ## The variance identity for a family of extended reals known to be real -/

/-- A real extended real is the embedding of its real part. -/
theorem IsReal.coe_toReal {x : EReal} (hx : IsReal x) : ((x.toReal : ℝ) : EReal) = x := by
  obtain ⟨a, rfl⟩ := hx
  rw [EReal.toReal_coe]

/-- The variance identity for a finite family of extended reals each of which is a real number:
    choose the real behind each member and apply `var_identity_ereal`. -/
theorem var_identity_of_isReal {ι : Type*} [Fintype ι] (f : ι → EReal) (hf : ∀ i, IsReal (f i))
    (n : ℝ) (hn : 0 < n) (hc : (Fintype.card ι : ℝ) = n) :
    max ((∑ i, f i * f i) * (n : EReal)⁻¹
          - ((∑ i, f i) * (n : EReal)⁻¹) * ((∑ i, f i) * (n : EReal)⁻¹)) 0
      = (∑ i, (f i - (∑ j, f j) * (n : EReal)⁻¹) * (f i - (∑ j, f j) * (n : EReal)⁻¹))
          * (n : EReal)⁻¹ := by
  choose h hh using hf
  obtain rfl : f = fun i => ((h i : ℝ) : EReal) := funext hh
  exact var_identity_ereal h n hn hc

end Cert.Proof.Stats
-- ==== Proof.LinAccum0.lean ====
/-
  The first linear layer over the whole node array, and its two column statistics.

  The region's grid is 25 points; point t handles rows 4000 t .. 4000 t + 3999. Its block output is those rows of
      h[r, f] = Σ_k (agg[r,k] * invdeg[r,0]) * Wl[f,k] + bl[0,f] + Σ_k x[r,k] * Wr[f,k],
  so after the 25 write-backs the output array is h. The two running rows are zeroed at point 0 and gain each block's
  column sums of h and of h², and are written back once, after the last point: they end at Σ_r h[r,f] and Σ_r h[r,f]².
-/
import proofs.«173987_j26422638805210_2_alg».proof.Proof.LinCases0
import proofs.«173987_j26422638805210_2_alg».proof.Proof.LinBlock0
import proofs.«173987_j26422638805210_2_alg».proof.Proof.Stats
import Idealize.ShloMosaic.Lib.Pipeline.Value
import Idealize.ShloMosaic.Lib.ValueIdx

set_option maxRecDepth 16384

noncomputable section

namespace Cert.KernelIdeal.LinAccum0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The layer, entry by entry -/

/-- Entry (r, f) of h, from the six arrays the region reads. -/
def hEntry (A0 : S100000x64.Idx → EReal) (A1 : S100000x1.Idx → EReal) (A2 : S100000x64.Idx → EReal) (A3 : S128x64.Idx → EReal) (A4 : S1x128.Idx → EReal)
    (A5 : S128x64.Idx → EReal) (r : Fin 100000) (f : Fin 128) : EReal :=
  (∑ k : Fin 64, (A0 (ix2 r k) * A1 (ix2 r (0 : Fin 1))) * A3 (ix2 f k)) + A4 (ix2 (0 : Fin 1) f) + ∑ k : Fin 64, A2 (ix2 r k) * A5 (ix2 f k)

/-- The six arrays as the region finds them. -/
abbrev h (c : Dev nD) (r : Fin 100000) (f : Fin 128) : EReal :=
  hEntry (V c main_v32) (V c main_v17) (V c main_arg0) (V c main_arg2) (V c main_v33) (V c main_arg4) r f

/-! ## The block index maps, decided over the 25 points -/

theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem row_lt (t : Fin cfg0.N) (y : Fin 4000) : 4000 * t.val + y.val < 100000 := by
  have hN : cfg0.N = 25 := N_0
  have := t.isLt; have := y.isLt; omega

/-! ## A block's entry is its array's entry -/

theorem blk0 (c : Dev nD) (t : Fin cfg0.N) (y : Fin 4000) (k : Fin 64) :
    iblk0 V c 0 t (ix2 y k) = V c main_v32 (ix2 ⟨4000 * t.val + y.val, row_lt t y⟩ k) := by
  obtain ⟨e00, e01, -⟩ := idx_facts t
  show V c main_v32 (((cfg0.win 0).blk t).view.emb (ix2 y k)) = _
  refine congrArg (V c main_v32) (funext fun a => Fin.ext ?_)
  match a with
  | ⟨0, _⟩ => show win0_0.index t (0 : Fin 2) * 4000 + 1 * y.val = 4000 * t.val + y.val; omega
  | ⟨1, _⟩ => show win0_0.index t (1 : Fin 2) * 64 + 1 * k.val = k.val; omega

theorem blk1 (c : Dev nD) (t : Fin cfg0.N) (y : Fin 4000) :
    iblk0 V c 1 t (ix2 y (0 : Fin 1)) = V c main_v17 (ix2 ⟨4000 * t.val + y.val, row_lt t y⟩ (0 : Fin 1)) := by
  obtain ⟨-, -, e10, e11, -⟩ := idx_facts t
  show V c main_v17 (((cfg0.win 1).blk t).view.emb (ix2 y (0 : Fin 1))) = _
  refine congrArg (V c main_v17) (funext fun a => Fin.ext ?_)
  match a with
  | ⟨0, _⟩ => show win0_1.index t (0 : Fin 2) * 4000 + 1 * y.val = 4000 * t.val + y.val; omega
  | ⟨1, _⟩ => show win0_1.index t (1 : Fin 2) * 1 + 1 * 0 = 0; omega

theorem blk2 (c : Dev nD) (t : Fin cfg0.N) (y : Fin 4000) (k : Fin 64) :
    iblk0 V c 2 t (ix2 y k) = V c main_arg0 (ix2 ⟨4000 * t.val + y.val, row_lt t y⟩ k) := by
  obtain ⟨-, -, -, -, e20, e21, -⟩ := idx_facts t
  show V c main_arg0 (((cfg0.win 2).blk t).view.emb (ix2 y k)) = _
  refine congrArg (V c main_arg0) (funext fun a => Fin.ext ?_)
  match a with
  | ⟨0, _⟩ => show win0_2.index t (0 : Fin 2) * 4000 + 1 * y.val = 4000 * t.val + y.val; omega
  | ⟨1, _⟩ => show win0_2.index t (1 : Fin 2) * 64 + 1 * k.val = k.val; omega

theorem blk3 (c : Dev nD) (t : Fin cfg0.N) (f : Fin 128) (k : Fin 64) :
    iblk0 V c 3 t (ix2 f k) = V c main_arg2 (ix2 f k) := by
  obtain ⟨-, -, -, -, -, -, e30, e31, -⟩ := idx_facts t
  show V c main_arg2 (((cfg0.win 3).blk t).view.emb (ix2 f k)) = _
  refine congrArg (V c main_arg2) (funext fun a => Fin.ext ?_)
  match a with
  | ⟨0, _⟩ => show win0_3.index t (0 : Fin 2) * 128 + 1 * f.val = f.val; omega
  | ⟨1, _⟩ => show win0_3.index t (1 : Fin 2) * 64 + 1 * k.val = k.val; omega

theorem blk4 (c : Dev nD) (t : Fin cfg0.N) (f : Fin 128) :
    iblk0 V c 4 t (ix2 (0 : Fin 1) f) = V c main_v33 (ix2 (0 : Fin 1) f) := by
  obtain ⟨-, -, -, -, -, -, -, -, e40, e41, -⟩ := idx_facts t
  show V c main_v33 (((cfg0.win 4).blk t).view.emb (ix2 (0 : Fin 1) f)) = _
  refine congrArg (V c main_v33) (funext fun a => Fin.ext ?_)
  match a with
  | ⟨0, _⟩ => show win0_4.index t (0 : Fin 2) * 1 + 1 * 0 = 0; omega
  | ⟨1, _⟩ => show win0_4.index t (1 : Fin 2) * 128 + 1 * f.val = f.val; omega

theorem blk5 (c : Dev nD) (t : Fin cfg0.N) (f : Fin 128) (k : Fin 64) :
    iblk0 V c 5 t (ix2 f k) = V c main_arg4 (ix2 f k) := by
  obtain ⟨-, -, -, -, -, -, -, -, -, -, e50, e51, -⟩ := idx_facts t
  show V c main_arg4 (((cfg0.win 5).blk t).view.emb (ix2 f k)) = _
  refine congrArg (V c main_arg4) (funext fun a => Fin.ext ?_)
  match a with
  | ⟨0, _⟩ => show win0_5.index t (0 : Fin 2) * 128 + 1 * f.val = f.val; omega
  | ⟨1, _⟩ => show win0_5.index t (1 : Fin 2) * 64 + 1 * k.val = k.val; omega

/-- The block h of point t. -/
abbrev hblk (c : Dev nD) (t : Fin cfg0.N) : FVec Ideal S4000x128 .f32 :=
  k0_pay4 (iblk0 V c 0 t) (iblk0 V c 1 t) (iblk0 V c 2 t) (iblk0 V c 3 t) (iblk0 V c 5 t) (iblk0 V c 4 t)

/-- Entry (y, f) of point t's block is h at row 4000 t + y. -/
theorem hblk_apply (c : Dev nD) (t : Fin cfg0.N) (y : Fin 4000) (f : Fin 128) :
    hblk V c t (ix2 y f) = h V c ⟨4000 * t.val + y.val, row_lt t y⟩ f := by
  exact LinBlock0.block_entry_of_reads (iblk0 V c 0 t) (iblk0 V c 1 t) (iblk0 V c 2 t) (iblk0 V c 3 t) (iblk0 V c 5 t) (iblk0 V c 4 t)
    (V c main_v32) (V c main_v17) (V c main_arg0) (V c main_arg2) (V c main_v33) (V c main_arg4) y f ⟨4000 * t.val + y.val, row_lt t y⟩
    (blk0 V c t y) (blk1 V c t y) (blk2 V c t y) (blk3 V c t f) (blk4 V c t f) (blk5 V c t f)

/-! ## What the three output buffers hold after point n -/

/-- The block buffer after point t is point t's block of h, whichever case the point is. -/
theorem outs_block (c : Dev nD) (t : Fin cfg0.N) : (outsAt0 V c t.val t.isLt).1 = hblk V c t := by
  by_cases h0 : t.val % 25 = 0
  · have e1 := congrArg Prod.fst (outsAt0_A V c t h0)
    dsimp only at e1
    have e2 := Cert.KernelIdeal.Lin0.blockA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
    exact e1.trans e2
  · have e1 := congrArg Prod.fst (outsAt0_B V c t h0)
    dsimp only at e1
    have e2 := Cert.KernelIdeal.Lin0.blockB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
    exact e1.trans e2

/-- The column sums of h (of h²) over the rows of the first n blocks, at column f. -/
def partialSum (c : Dev nD) (f : Fin 128) (n : ℕ) : EReal :=
  ∑ t' ∈ Finset.range n, ∑ y : Fin 4000, (if hh : 4000 * t' + y.val < 100000 then h V c ⟨4000 * t' + y.val, hh⟩ f else 0)
def partialSumSq (c : Dev nD) (f : Fin 128) (n : ℕ) : EReal :=
  ∑ t' ∈ Finset.range n, ∑ y : Fin 4000, (if hh : 4000 * t' + y.val < 100000 then h V c ⟨4000 * t' + y.val, hh⟩ f * h V c ⟨4000 * t' + y.val, hh⟩ f else 0)

theorem block_colsum (c : Dev nD) (t : Fin cfg0.N) (f : Fin 128) :
    ∑ y : Fin 4000, hblk V c t (ix2 y f) = ∑ y : Fin 4000, (if hh : 4000 * t.val + y.val < 100000 then h V c ⟨4000 * t.val + y.val, hh⟩ f else 0) :=
  Finset.sum_congr rfl fun y _ => by rw [dif_pos (row_lt t y)]; exact hblk_apply V c t y f

theorem block_colsumsq (c : Dev nD) (t : Fin cfg0.N) (f : Fin 128) :
    ∑ y : Fin 4000, hblk V c t (ix2 y f) * hblk V c t (ix2 y f) = ∑ y : Fin 4000, (if hh : 4000 * t.val + y.val < 100000 then h V c ⟨4000 * t.val + y.val, hh⟩ f * h V c ⟨4000 * t.val + y.val, hh⟩ f else 0) :=
  Finset.sum_congr rfl fun y _ => by
    rw [dif_pos (row_lt t y)]; exact congrArg₂ (· * ·) (hblk_apply V c t y f) (hblk_apply V c t y f)

theorem outs_sum (c : Dev nD) (f : Fin 128) : ∀ (n : ℕ) (hn : n < cfg0.N),
    (outsAt0 V c n hn).2.1 (ix2 (0 : Fin 1) f) = partialSum V c f (n + 1)
  | 0, hn => by
    have e1 := congrArg (fun p => p.2.1 (ix2 (0 : Fin 1) f)) (outsAt0_A V c ⟨0, hn⟩ rfl)
    dsimp only at e1
    have e2 := congrFun (Cert.KernelIdeal.Lin0.sumA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) (ix2 (0 : Fin 1) f)
    have e3 := LinBlock0.sum_apply (iblk0 V c 0 ⟨0, hn⟩) (iblk0 V c 1 ⟨0, hn⟩) (iblk0 V c 2 ⟨0, hn⟩) (iblk0 V c 3 ⟨0, hn⟩) (iblk0 V c 5 ⟨0, hn⟩) (iblk0 V c 4 ⟨0, hn⟩) (k0_pay2 (F := Ideal)) f
    have e4 : partialSum V c f (0 + 1) = ∑ y : Fin 4000, (if hh : 4000 * 0 + y.val < 100000 then h V c ⟨4000 * 0 + y.val, hh⟩ f else 0) := by
      unfold partialSum; exact Finset.sum_range_one _
    have e5 := block_colsum V c ⟨0, hn⟩ f
    refine e1.trans (e2.trans (e3.trans ?_))
    rw [LinBlock0.zero_sum_apply, zero_add, e4]
    exact e5
  | n + 1, hn => by
    have hN : cfg0.N = 25 := N_0
    have hB : ¬(⟨n + 1, hn⟩ : Fin cfg0.N).val % 25 = 0 := by dsimp only; omega
    have e1 := congrArg (fun p => p.2.1 (ix2 (0 : Fin 1) f)) (outsAt0_B V c ⟨n + 1, hn⟩ hB)
    dsimp only at e1
    have e2 := congrFun (Cert.KernelIdeal.Lin0.sumB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2.1 (outsAt0 V c n (Nat.lt_of_succ_lt hn)).2.2) (ix2 (0 : Fin 1) f)
    have e3 := LinBlock0.sum_apply (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩) (outsAt0 V c n (Nat.lt_of_succ_lt hn)).2.1 f
    have ih := outs_sum c f n (Nat.lt_of_succ_lt hn)
    have e4 : partialSum V c f (n + 1 + 1) = partialSum V c f (n + 1) + ∑ y : Fin 4000, (if hh : 4000 * (n + 1) + y.val < 100000 then h V c ⟨4000 * (n + 1) + y.val, hh⟩ f else 0) := by
      unfold partialSum; exact Finset.sum_range_succ _ _
    have e5 := block_colsum V c ⟨n + 1, hn⟩ f
    refine e1.trans (e2.trans (e3.trans ?_))
    rw [e4]
    exact congrArg₂ (· + ·) ih e5

theorem outs_sumsq (c : Dev nD) (f : Fin 128) : ∀ (n : ℕ) (hn : n < cfg0.N),
    (outsAt0 V c n hn).2.2 (ix2 (0 : Fin 1) f) = partialSumSq V c f (n + 1)
  | 0, hn => by
    have e1 := congrArg (fun p => p.2.2 (ix2 (0 : Fin 1) f)) (outsAt0_A V c ⟨0, hn⟩ rfl)
    dsimp only at e1
    have e2 := congrFun (Cert.KernelIdeal.Lin0.sumsqA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) (ix2 (0 : Fin 1) f)
    have e3 := LinBlock0.sumsq_apply (hblk V c ⟨0, hn⟩) (k0_pay3 (F := Ideal)) f
    have e4 : partialSumSq V c f (0 + 1) = ∑ y : Fin 4000, (if hh : 4000 * 0 + y.val < 100000 then h V c ⟨4000 * 0 + y.val, hh⟩ f * h V c ⟨4000 * 0 + y.val, hh⟩ f else 0) := by
      unfold partialSumSq; exact Finset.sum_range_one _
    have e5 := block_colsumsq V c ⟨0, hn⟩ f
    refine e1.trans (e2.trans (e3.trans ?_))
    rw [LinBlock0.zero_sumsq_apply, zero_add, e4]
    exact e5
  | n + 1, hn => by
    have hN : cfg0.N = 25 := N_0
    have hB : ¬(⟨n + 1, hn⟩ : Fin cfg0.N).val % 25 = 0 := by dsimp only; omega
    have e1 := congrArg (fun p => p.2.2 (ix2 (0 : Fin 1) f)) (outsAt0_B V c ⟨n + 1, hn⟩ hB)
    dsimp only at e1
    have e2 := congrFun (Cert.KernelIdeal.Lin0.sumsqB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2.1 (outsAt0 V c n (Nat.lt_of_succ_lt hn)).2.2) (ix2 (0 : Fin 1) f)
    have e3 := LinBlock0.sumsq_apply (hblk V c ⟨n + 1, hn⟩) (outsAt0 V c n (Nat.lt_of_succ_lt hn)).2.2 f
    have ih := outs_sumsq c f n (Nat.lt_of_succ_lt hn)
    have e4 : partialSumSq V c f (n + 1 + 1) = partialSumSq V c f (n + 1) + ∑ y : Fin 4000, (if hh : 4000 * (n + 1) + y.val < 100000 then h V c ⟨4000 * (n + 1) + y.val, hh⟩ f * h V c ⟨4000 * (n + 1) + y.val, hh⟩ f else 0) := by
      unfold partialSumSq; exact Finset.sum_range_succ _ _
    have e5 := block_colsumsq V c ⟨n + 1, hn⟩ f
    refine e1.trans (e2.trans (e3.trans ?_))
    rw [e4]
    exact congrArg₂ (· + ·) ih e5

/-! ## The three arrays after the region -/

/-- The output array h; the row of its column sums; the row of the column sums of its squares. -/
def hArr (c : Dev nD) : S100000x128.Idx → EReal := fun i => h V c (i 0 : Fin 100000) (i 1 : Fin 128)
def sumArr (c : Dev nD) : S1x128.Idx → EReal := fun i => ∑ r : Fin 100000, h V c r (i 1 : Fin 128)
def sumsqArr (c : Dev nD) : S1x128.Idx → EReal := fun i => ∑ r : Fin 100000, h V c r (i 1 : Fin 128) * h V c r (i 1 : Fin 128)

/-- What point t writes back is rows 4000 t .. 4000 t + 3999 of h. -/
theorem flushed_block (c : Dev nD) (t : Fin cfg0.N) :
    (dat0 V c).flushed 6 t = ((cfg0.win 6).blk t).view.read (Elt Ideal) (hArr V c) := by
  show (cfg0.win 6).cut (grid0.coords t) ((dat0 V c).after 6 t) = _
  rw [after0_6, outs_block V c t]
  obtain ⟨-, -, -, -, -, -, -, -, -, -, -, -, e60, e61, e70, e71, e80, e81⟩ := idx_facts t
  funext y
  obtain ⟨p, q, rfl⟩ : ∃ (p : Fin 4000) (q : Fin 128), y = ix2 p q := ⟨y 0, y 1, eq_ix2 y⟩
  show hblk V c t (ix2 p q) = hArr V c (((cfg0.win 6).blk t).view.emb (ix2 p q))
  refine (hblk_apply V c t p q).trans ?_
  unfold hArr
  refine congrArg₂ (h V c) (Fin.ext ?_) (Fin.ext ?_)
  · show 4000 * t.val + p.val = win0_6.index t (0 : Fin 2) * 4000 + 1 * p.val; omega
  · show q.val = win0_6.index t (1 : Fin 2) * 128 + 1 * q.val; omega

theorem mem_block (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v34_0).slice (win0_6.rect t)).set ↔ _
  rw [View.set_slice_whole, Rect.mem_set_unit]
  exact Iff.rfl

/-- Row r lies in the block of point r / 4000. -/
theorem cover_block (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, -, -, e60, e61, e70, e71, e80, e81⟩ := idx_facts t
  have ht : t.val = (i 0).val / 4000 := rfl
  refine ⟨t, flush0_6 t, ?_⟩
  rw [mem_block]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- After the region's 25 points the output array is h. -/
theorem final_block (c : Dev nD) : (dat0 V c).arrAt 6 cfg0.N = hArr V c :=
  (dat0 V c).arrAt_eq_of_cover 6 _ (fun t _ => flushed_block V c t) cover_block

/-- Writing back a whole [1, 128] row whose block is the array itself: if the staged row agrees with S at every column,
    what is written back is S read through the block. -/
theorem row_writeback_7 (t : Fin cfg0.N) (X : Vec Ideal S1x128 .f32) (S : S1x128.Idx → EReal)
    (hX : ∀ f : Fin 128, X (ix2 (0 : Fin 1) f) = S (ix2 (0 : Fin 1) f)) :
    (cfg0.win 7).cut (grid0.coords t) X = ((cfg0.win 7).blk t).view.read (Elt Ideal) S := by
  obtain ⟨-, -, -, -, -, -, -, -, -, -, -, -, e60, e61, e70, e71, e80, e81⟩ := idx_facts t
  funext y
  show X y = S (((cfg0.win 7).blk t).view.emb y)
  obtain ⟨u, f, rfl⟩ : ∃ (u : Fin 1) (f : Fin 128), y = ix2 u f := ⟨y 0, y 1, eq_ix2 y⟩
  obtain rfl : u = 0 := Subsingleton.elim _ _
  refine (hX f).trans (congrArg S (funext fun a => Fin.ext ?_))
  match a with
  | ⟨0, _⟩ => show 0 = win0_7.index t (0 : Fin 2) * 1 + 1 * 0; omega
  | ⟨1, _⟩ => show f.val = win0_7.index t (1 : Fin 2) * 128 + 1 * f.val; omega

/-- Writing back a whole [1, 128] row whose block is the array itself: if the staged row agrees with S at every column,
    what is written back is S read through the block. -/
theorem row_writeback_8 (t : Fin cfg0.N) (X : Vec Ideal S1x128 .f32) (S : S1x128.Idx → EReal)
    (hX : ∀ f : Fin 128, X (ix2 (0 : Fin 1) f) = S (ix2 (0 : Fin 1) f)) :
    (cfg0.win 8).cut (grid0.coords t) X = ((cfg0.win 8).blk t).view.read (Elt Ideal) S := by
  obtain ⟨-, -, -, -, -, -, -, -, -, -, -, -, e60, e61, e70, e71, e80, e81⟩ := idx_facts t
  funext y
  show X y = S (((cfg0.win 8).blk t).view.emb y)
  obtain ⟨u, f, rfl⟩ : ∃ (u : Fin 1) (f : Fin 128), y = ix2 u f := ⟨y 0, y 1, eq_ix2 y⟩
  obtain rfl : u = 0 := Subsingleton.elim _ _
  refine (hX f).trans (congrArg S (funext fun a => Fin.ext ?_))
  match a with
  | ⟨0, _⟩ => show 0 = win0_8.index t (0 : Fin 2) * 1 + 1 * 0; omega
  | ⟨1, _⟩ => show f.val = win0_8.index t (1 : Fin 2) * 128 + 1 * f.val; omega

theorem last_sum (c : Dev nD) (f : Fin 128) (t : Fin cfg0.N) (h24 : t.val = 24) :
    (outsAt0 V c t.val t.isLt).2.1 (ix2 (0 : Fin 1) f) = sumArr V c (ix2 (0 : Fin 1) f) := by
  have e25 : t.val + 1 = 25 := by omega
  rw [outs_sum V c f t.val t.isLt, e25]
  unfold partialSum sumArr
  rw [Cert.Proof.Stats.sum_first_blocks (fun r => h V c r f) 25 (le_refl _)]
  exact Finset.sum_congr rfl fun r _ => if_pos (by have := r.isLt; omega)

/-- The one write-back, after the last point, writes the whole row. -/
theorem flushed_sum (c : Dev nD) (t : Fin cfg0.N) (hf : (cfg0.win 7).flush t = true) :
    (dat0 V c).flushed 7 t = ((cfg0.win 7).blk t).view.read (Elt Ideal) (sumArr V c) := by
  have hN : cfg0.N = 25 := N_0
  have h24 : t.val = 24 := by have := (flush0_7 t).mp hf; have := t.isLt; omega
  show (cfg0.win 7).cut (grid0.coords t) ((dat0 V c).after 7 t) = _
  rw [after0_7]
  exact row_writeback_7 t _ _ (fun f => last_sum V c f t h24)

theorem cover_sum (i : S1x128.Idx) :
    ∃ t : Fin cfg0.N, (cfg0.win 7).flush t = true ∧ i ∈ ((cfg0.win 7).blk t).view.set := by
  have hN : cfg0.N = 25 := N_0
  let t : Fin cfg0.N := ⟨24, by rw [hN]; decide⟩
  obtain ⟨-, -, -, -, -, -, -, -, -, -, -, -, e60, e61, e70, e71, e80, e81⟩ := idx_facts t
  have hi0 : (i 0).val < 1 := (i 0).isLt
  have hi1 : (i 1).val < 128 := (i 1).isLt
  refine ⟨t, (flush0_7 t).mpr rfl, ?_⟩
  show i ∈ ((View.whole main_v34_1).slice (win0_7.rect t)).set
  rw [View.set_slice_whole, Rect.mem_set_unit]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 128 ≤ (i 1).val ∧ (i 1).val < win0_7.index t (1 : Fin 2) * 128 + 128; omega

/-- After the region the row holds, at column f, the sum over all 100000 rows. -/
theorem final_sum (c : Dev nD) : (dat0 V c).arrAt 7 cfg0.N = sumArr V c :=
  (dat0 V c).arrAt_eq_of_cover 7 _ (flushed_sum V c) cover_sum

theorem last_sumsq (c : Dev nD) (f : Fin 128) (t : Fin cfg0.N) (h24 : t.val = 24) :
    (outsAt0 V c t.val t.isLt).2.2 (ix2 (0 : Fin 1) f) = sumsqArr V c (ix2 (0 : Fin 1) f) := by
  have e25 : t.val + 1 = 25 := by omega
  rw [outs_sumsq V c f t.val t.isLt, e25]
  unfold partialSumSq sumsqArr
  rw [Cert.Proof.Stats.sum_first_blocks (fun r => h V c r f * h V c r f) 25 (le_refl _)]
  exact Finset.sum_congr rfl fun r _ => if_pos (by have := r.isLt; omega)

/-- The one write-back, after the last point, writes the whole row. -/
theorem flushed_sumsq (c : Dev nD) (t : Fin cfg0.N) (hf : (cfg0.win 8).flush t = true) :
    (dat0 V c).flushed 8 t = ((cfg0.win 8).blk t).view.read (Elt Ideal) (sumsqArr V c) := by
  have hN : cfg0.N = 25 := N_0
  have h24 : t.val = 24 := by have := (flush0_8 t).mp hf; have := t.isLt; omega
  show (cfg0.win 8).cut (grid0.coords t) ((dat0 V c).after 8 t) = _
  rw [after0_8]
  exact row_writeback_8 t _ _ (fun f => last_sumsq V c f t h24)

theorem cover_sumsq (i : S1x128.Idx) :
    ∃ t : Fin cfg0.N, (cfg0.win 8).flush t = true ∧ i ∈ ((cfg0.win 8).blk t).view.set := by
  have hN : cfg0.N = 25 := N_0
  let t : Fin cfg0.N := ⟨24, by rw [hN]; decide⟩
  obtain ⟨-, -, -, -, -, -, -, -, -, -, -, -, e60, e61, e70, e71, e80, e81⟩ := idx_facts t
  have hi0 : (i 0).val < 1 := (i 0).isLt
  have hi1 : (i 1).val < 128 := (i 1).isLt
  refine ⟨t, (flush0_8 t).mpr rfl, ?_⟩
  show i ∈ ((View.whole main_v34_2).slice (win0_8.rect t)).set
  rw [View.set_slice_whole, Rect.mem_set_unit]
  intro a
  match a with
  | ⟨0, _⟩ => show win0_8.index t (0 : Fin 2) * 1 ≤ (i 0).val ∧ (i 0).val < win0_8.index t (0 : Fin 2) * 1 + 1; omega
  | ⟨1, _⟩ => show win0_8.index t (1 : Fin 2) * 128 ≤ (i 1).val ∧ (i 1).val < win0_8.index t (1 : Fin 2) * 128 + 128; omega

/-- After the region the row holds, at column f, the sum over all 100000 rows. -/
theorem final_sumsq (c : Dev nD) : (dat0 V c).arrAt 8 cfg0.N = sumsqArr V c :=
  (dat0 V c).arrAt_eq_of_cover 8 _ (flushed_sumsq V c) cover_sumsq

end Cert.KernelIdeal.LinAccum0

end
-- ==== Proof.LinCases2.lean ====
/-
  What one grid point of the second linear layer leaves in its three output buffers, as values.

  The body computes the block h = (agg * invdeg) Wlᵀ + bl + x Wrᵀ of 4000 rows, stores it, and adds the block's column sums of h
  and of h * h onto two running rows; at the first point it zeroes those rows first. So the block output is h in both cases, and
  the running rows are "zero + column sums" at the first point and "carried + column sums" afterwards.
-/
import proofs.«173987_j26422638805210_2_alg».proof.Proof.Gen.KernelIdeal.Frame
import Idealize.ShloMosaic.Lib.Pipeline.Value
import Idealize.ShloMosaic.Lib.Tactic

set_option maxRecDepth 16384

noncomputable section

namespace Cert.KernelIdeal.Lin2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

theorem blockA (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S4000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S4000x64 .f32) (harg7 : arg7.IsWhole) (arg8 : Memref sig .tc .vmem S1x64 .f32) (harg8 : arg8.IsWhole) (arg9 : Memref sig .tc .vmem S1x64 .f32) (harg9 : arg9.IsWhole) (hc0 : cond2_0 i)
    (x0 : Vec F S4000x128 .f32) (x1 : Vec F S4000x1 .f32) (x2 : Vec F S4000x128 .f32) (x3 : Vec F S64x128 .f32) (x4 : Vec F S1x64 .f32) (x5 : Vec F S64x128 .f32) :
    out2_A_6 c i arg1 harg1 arg2 harg2 arg3 harg3 arg4 harg4 arg5 harg5 arg6 harg6 arg7 harg7 arg8 harg8 arg9 harg9 hc0 x0 x1 x2 x3 x4 x5 = (k2_pay4 x0 x1 x2 x3 x5 x4) := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x128) hz, View.ld_unit_zero (S := S4000x1) hz, View.ld_unit_zero (S := S64x128) hz, View.ld_unit_zero (S := S1x64) hz, View.ld_unit_zero (S := S4000x64) hz]

theorem blockB (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S4000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S4000x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i)
    (x0 : Vec F S4000x128 .f32) (x1 : Vec F S4000x1 .f32) (x2 : Vec F S4000x128 .f32) (x3 : Vec F S64x128 .f32) (x4 : Vec F S1x64 .f32) (x5 : Vec F S64x128 .f32) (xo7 : Vec F S1x64 .f32) (xo8 : Vec F S1x64 .f32) :
    out2_B_6 c i arg1 harg1 arg2 harg2 arg3 harg3 arg4 harg4 arg5 harg5 arg6 harg6 arg7 harg7 arg8 harg8 arg9 harg9 hc0 x0 x1 x2 x3 x4 x5 xo7 xo8 = (k2_pay4 x0 x1 x2 x3 x5 x4) := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x128) hz, View.ld_unit_zero (S := S4000x1) hz, View.ld_unit_zero (S := S64x128) hz, View.ld_unit_zero (S := S1x64) hz, View.ld_unit_zero (S := S4000x64) hz]

theorem sumA (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S4000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S4000x64 .f32) (harg7 : arg7.IsWhole) (arg8 : Memref sig .tc .vmem S1x64 .f32) (harg8 : arg8.IsWhole) (arg9 : Memref sig .tc .vmem S1x64 .f32) (harg9 : arg9.IsWhole) (hc0 : cond2_0 i)
    (x0 : Vec F S4000x128 .f32) (x1 : Vec F S4000x1 .f32) (x2 : Vec F S4000x128 .f32) (x3 : Vec F S64x128 .f32) (x4 : Vec F S1x64 .f32) (x5 : Vec F S64x128 .f32) :
    out2_A_7 c i arg1 harg1 arg2 harg2 arg3 harg3 arg4 harg4 arg5 harg5 arg6 harg6 arg7 harg7 arg8 harg8 arg9 harg9 hc0 x0 x1 x2 x3 x4 x5 = k2_pay5 x0 x1 x2 x3 x5 x4 k2_pay2 := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S4000x128) hz, View.ld_unit_zero (S := S4000x1) hz, View.ld_unit_zero (S := S64x128) hz, View.ld_unit_zero (S := S1x64) hz, View.ld_unit_zero (S := S4000x64) hz]

theorem sumB (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S4000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S4000x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i)
    (x0 : Vec F S4000x128 .f32) (x1 : Vec F S4000x1 .f32) (x2 : Vec F S4000x128 .f32) (x3 : Vec F S64x128 .f32) (x4 : Vec F S1x64 .f32) (x5 : Vec F S64x128 .f32) (xo7 : Vec F S1x64 .f32) (xo8 : Vec F S1x64 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x5 x4 xo7 := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x128) hz, View.ld_unit_zero (S := S4000x1) hz, View.ld_unit_zero (S := S64x128) hz, View.ld_unit_zero (S := S1x64) hz, View.ld_unit_zero (S := S4000x64) hz]

theorem sumsqA (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S4000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S4000x64 .f32) (harg7 : arg7.IsWhole) (arg8 : Memref sig .tc .vmem S1x64 .f32) (harg8 : arg8.IsWhole) (arg9 : Memref sig .tc .vmem S1x64 .f32) (harg9 : arg9.IsWhole) (hc0 : cond2_0 i)
    (x0 : Vec F S4000x128 .f32) (x1 : Vec F S4000x1 .f32) (x2 : Vec F S4000x128 .f32) (x3 : Vec F S64x128 .f32) (x4 : Vec F S1x64 .f32) (x5 : Vec F S64x128 .f32) :
    out2_A_8 c i arg1 harg1 arg2 harg2 arg3 harg3 arg4 harg4 arg5 harg5 arg6 harg6 arg7 harg7 arg8 harg8 arg9 harg9 hc0 x0 x1 x2 x3 x4 x5 = k2_pay1 (k2_pay4 x0 x1 x2 x3 x5 x4) k2_pay3 := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S4000x128) hz, View.ld_unit_zero (S := S4000x1) hz, View.ld_unit_zero (S := S64x128) hz, View.ld_unit_zero (S := S1x64) hz, View.ld_unit_zero (S := S4000x64) hz]

theorem sumsqB (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S4000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S4000x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i)
    (x0 : Vec F S4000x128 .f32) (x1 : Vec F S4000x1 .f32) (x2 : Vec F S4000x128 .f32) (x3 : Vec F S64x128 .f32) (x4 : Vec F S1x64 .f32) (x5 : Vec F S64x128 .f32) (xo7 : Vec F S1x64 .f32) (xo8 : Vec F S1x64 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay1 (k2_pay4 x0 x1 x2 x3 x5 x4) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x128) hz, View.ld_unit_zero (S := S4000x1) hz, View.ld_unit_zero (S := S64x128) hz, View.ld_unit_zero (S := S1x64) hz, View.ld_unit_zero (S := S4000x64) hz]

end Cert.KernelIdeal.Lin2

end
-- ==== Proof.LinBlock2.lean ====
/-
  One block of the second linear layer, read entry by entry on the extended reals.

  For a block of 4000 rows the body forms h = (agg * invdeg) Wlᵀ + bl + x Wrᵀ. Entry (y, f) of h is
      Σ_k (agg[y,k] * invdeg[y,0]) * Wl[f,k]  +  bl[0,f]  +  Σ_k x[y,k] * Wr[f,k]
  (a change of float format is the identity here, and a matrix product onto a zero accumulator is the plain sum over the
  contracted index k). The two running rows receive, at column f, the block's column sums Σ_y h[y,f] and Σ_y h[y,f]².
-/
import proofs.«173987_j26422638805210_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LinBlock2

open Cert.KernelIdeal Cert.KernelIdeal.Gen Idealize.ShloMosaic Idealize.ShloMosaic.ValueIdx
open scoped BigOperators

/-! ## The block product's operand indices -/

theorem lhs_row (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_contr (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
theorem rhs_contr (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
theorem rhs_col (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- A [4000, 128] × [128, 64] product onto the zero accumulator, at entry (y, f): the sum over k of l[y,k] * r[k,f]. -/
theorem product_apply {φ₁ φ₂ : FTy} (l : FVec Ideal S4000x128 φ₁) (r : FVec Ideal S128x64 φ₂) (y : Fin 4000) (f : Fin 64) :
    FloatOps.matmul dot_S4000x128_S128x64_S4000x64_1_0_0_1_n_n none l r (constant S4000x64 .f32 0x00000000#32) (ix2 y f) = ∑ k : Fin 128, l (ix2 y k) * r (ix2 k f) := by
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 y f) ((ValueIdx.contrEquiv1 dot_S4000x128_S128x64_S4000x64_1_0_0_1_n_n 128 rfl rfl).symm k) = ix2 y k := funext fun a => Fin.ext (by
    match a with
    | ⟨0, _⟩ => exact lhs_row _ _
    | ⟨1, _⟩ => exact (lhs_contr _ _).trans hk)
  have er : dot_S4000x128_S128x64_S4000x64_1_0_0_1_n_n.rhsIdx (ix2 y f) ((ValueIdx.contrEquiv1 dot_S4000x128_S128x64_S4000x64_1_0_0_1_n_n 128 rfl rfl).symm k) = ix2 k f := funext fun a => Fin.ext (by
    match a with
    | ⟨0, _⟩ => exact (rhs_contr _ _).trans hk
    | ⟨1, _⟩ => exact rhs_col _ _)
  rw [el, er]

/-- A [4000, 1] column broadcast to [4000, 128] reads, at (p, c), the column at row p. -/
theorem column_apply {α : Type} (v : S4000x1.Idx → α) (h : S4000x1.Broadcasts S4000x128) (p : Fin 4000) (c : Fin 128) :
    broadcastTo S4000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ## The block h at an entry -/

/-- Entry (y, f) of the block h. -/
theorem block_apply (x0 : Vec Ideal S4000x128 .f32) (x1 : Vec Ideal S4000x1 .f32) (x2 : Vec Ideal S4000x128 .f32) (x3 x5 : Vec Ideal S64x128 .f32) (x4 : Vec Ideal S1x64 .f32)
    (y : Fin 4000) (f : Fin 64) :
    k2_pay4 x0 x1 x2 x3 x5 x4 (ix2 y f)
      = (∑ k : Fin 128, (x0 (ix2 y k) * x1 (ix2 y (0 : Fin 1))) * x3 (ix2 f k)) + x4 (ix2 (0 : Fin 1) f) + ∑ k : Fin 128, x2 (ix2 y k) * x5 (ix2 f k) := by
  unfold k2_pay4
  simp only [matmul]
  rw [addf_apply, addf_apply, product_apply, product_apply, broadcastTo_1b_ab_apply]
  have e3 : ∀ k : Fin 128, (transpose S128x64 [1, 0] (truncf (F := Ideal) .bf16 (x3 : FVec Ideal S64x128 .f32) bitsLt_bf16_f32) transposes_S64x128_p1_0_S128x64 (ix2 k f) : EReal) = (x3 (ix2 f k) : EReal) :=
    fun k => by rw [transpose_ix2_apply]; rfl
  have e5 : ∀ k : Fin 128, (transpose S128x64 [1, 0] (truncf (F := Ideal) .bf16 (x5 : FVec Ideal S64x128 .f32) bitsLt_bf16_f32) transposes_S64x128_p1_0_S128x64 (ix2 k f) : EReal) = (x5 (ix2 f k) : EReal) :=
    fun k => by rw [transpose_ix2_apply]; rfl
  simp only [truncf_apply, mulf_apply, shapeCast_self, column_apply, e3, e5]

/-- The same entry when the block's rows are rows of whole arrays: if the block's row y reads row r of the node arrays, and the
    weight and bias blocks are their arrays, entry (y, f) of the block is the layer's formula at (r, f). -/
theorem block_entry_of_reads (x0 : Vec Ideal S4000x128 .f32) (x1 : Vec Ideal S4000x1 .f32) (x2 : Vec Ideal S4000x128 .f32) (x3 x5 : Vec Ideal S64x128 .f32) (x4 : Vec Ideal S1x64 .f32)
    (A0 : S100000x128.Idx → EReal) (A1 : S100000x1.Idx → EReal) (A2 : S100000x128.Idx → EReal) (A3 : S64x128.Idx → EReal) (A4 : S1x64.Idx → EReal) (A5 : S64x128.Idx → EReal)
    (y : Fin 4000) (f : Fin 64) (r : Fin 100000)
    (h0 : ∀ k : Fin 128, x0 (ix2 y k) = A0 (ix2 r k)) (h1 : x1 (ix2 y (0 : Fin 1)) = A1 (ix2 r (0 : Fin 1)))
    (h2 : ∀ k : Fin 128, x2 (ix2 y k) = A2 (ix2 r k)) (h3 : ∀ k : Fin 128, x3 (ix2 f k) = A3 (ix2 f k))
    (h4 : x4 (ix2 (0 : Fin 1) f) = A4 (ix2 (0 : Fin 1) f)) (h5 : ∀ k : Fin 128, x5 (ix2 f k) = A5 (ix2 f k)) :
    k2_pay4 x0 x1 x2 x3 x5 x4 (ix2 y f)
      = (∑ k : Fin 128, (A0 (ix2 r k) * A1 (ix2 r (0 : Fin 1))) * A3 (ix2 f k)) + A4 (ix2 (0 : Fin 1) f) + ∑ k : Fin 128, A2 (ix2 r k) * A5 (ix2 f k) := by
  rw [block_apply, h1, h4]
  simp only [h0, h2, h3, h5]

/-! ## The running rows at a column -/

/-- The sum over the block's 4000 rows, at column f. -/
theorem colsum_apply (src : FVec Ideal S4000x64 .f32) (h : S4000x64.Reduces [0] S64) (hφ : FKind.Formats .f32)
    (hacc : (0x00000000#32 : BitVec 32) = 0x00000000#32) (f : Fin 64) :
    multiReduction .add [0] S64 src 0x00000000#32 h hφ hacc (ix1 f) = ∑ y : Fin 4000, src (ix2 y f) :=
  (Ideal.multiReduction_add_single src 0x00000000#32 h hφ hacc (ix1 f)).trans (by
    show (∑ y : Fin 4000, src (h.lift (ix1 f) y)) = _
    refine Finset.sum_congr rfl fun y _ => congrArg src ?_
    funext a
    match a with
    | ⟨0, _⟩ => rfl
    | ⟨1, _⟩ => rfl)

/-- The row of column sums of h: the carried row plus the block's column sums. -/
theorem sum_apply (x0 : Vec Ideal S4000x128 .f32) (x1 : Vec Ideal S4000x1 .f32) (x2 : Vec Ideal S4000x128 .f32) (x3 x5 : Vec Ideal S64x128 .f32) (x4 : Vec Ideal S1x64 .f32)
    (prev : Vec Ideal S1x64 .f32) (f : Fin 64) :
    k2_pay5 x0 x1 x2 x3 x5 x4 prev (ix2 (0 : Fin 1) f)
      = prev (ix2 (0 : Fin 1) f) + ∑ y : Fin 4000, k2_pay4 x0 x1 x2 x3 x5 x4 (ix2 y f) := by
  unfold k2_pay5
  rw [addf_apply, shapeCast_self, shapeCast_a_1a_apply, colsum_apply]

/-- The row of column sums of h * h: the carried row plus the block's column sums of squares. -/
theorem sumsq_apply (h : FVec Ideal S4000x64 .f32) (prev : Vec Ideal S1x64 .f32) (f : Fin 64) :
    k2_pay1 h prev (ix2 (0 : Fin 1) f) = prev (ix2 (0 : Fin 1) f) + ∑ y : Fin 4000, h (ix2 y f) * h (ix2 y f) := by
  unfold k2_pay1
  rw [addf_apply, shapeCast_self, shapeCast_a_1a_apply, colsum_apply]
  rfl

/-- The rows the first grid point starts from are zero. -/
theorem zero_sum_apply (f : Fin 64) : (k2_pay2 (F := Ideal)) (ix2 (0 : Fin 1) f) = 0 := by
  show Ideal.ofBits .f32 0x00000000#32 = 0
  exact Ideal.ofBits_zero_f32
theorem zero_sumsq_apply (f : Fin 64) : (k2_pay3 (F := Ideal)) (ix2 (0 : Fin 1) f) = 0 := by
  show Ideal.ofBits .f32 0x00000000#32 = 0
  exact Ideal.ofBits_zero_f32

end Cert.KernelIdeal.LinBlock2

end
-- ==== Proof.LinAccum2.lean ====
/-
  The second linear layer over the whole node array, and its two column statistics.

  The region's grid is 25 points; point t handles rows 4000 t .. 4000 t + 3999. Its block output is those rows of
      h[r, f] = Σ_k (agg[r,k] * invdeg[r,0]) * Wl[f,k] + bl[0,f] + Σ_k x[r,k] * Wr[f,k],
  so after the 25 write-backs the output array is h. The two running rows are zeroed at point 0 and gain each block's
  column sums of h and of h², and are written back once, after the last point: they end at Σ_r h[r,f] and Σ_r h[r,f]².
-/
import proofs.«173987_j26422638805210_2_alg».proof.Proof.LinCases2
import proofs.«173987_j26422638805210_2_alg».proof.Proof.LinBlock2
import proofs.«173987_j26422638805210_2_alg».proof.Proof.Stats
import Idealize.ShloMosaic.Lib.Pipeline.Value
import Idealize.ShloMosaic.Lib.ValueIdx

set_option maxRecDepth 16384

noncomputable section

namespace Cert.KernelIdeal.LinAccum2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The layer, entry by entry -/

/-- Entry (r, f) of h, from the six arrays the region reads. -/
def hEntry (A0 : S100000x128.Idx → EReal) (A1 : S100000x1.Idx → EReal) (A2 : S100000x128.Idx → EReal) (A3 : S64x128.Idx → EReal) (A4 : S1x64.Idx → EReal)
    (A5 : S64x128.Idx → EReal) (r : Fin 100000) (f : Fin 64) : EReal :=
  (∑ k : Fin 128, (A0 (ix2 r k) * A1 (ix2 r (0 : Fin 1))) * A3 (ix2 f k)) + A4 (ix2 (0 : Fin 1) f) + ∑ k : Fin 128, A2 (ix2 r k) * A5 (ix2 f k)

/-- The six arrays as the region finds them. -/
abbrev h (c : Dev nD) (r : Fin 100000) (f : Fin 64) : EReal :=
  hEntry (V c main_v60) (V c main_v17) (V c main_v45) (V c main_arg7) (V c main_v61) (V c main_arg9) r f

/-! ## The block index maps, decided over the 25 points -/

theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem row_lt (t : Fin cfg2.N) (y : Fin 4000) : 4000 * t.val + y.val < 100000 := by
  have hN : cfg2.N = 25 := N_2
  have := t.isLt; have := y.isLt; omega

/-! ## A block's entry is its array's entry -/

theorem blk0 (c : Dev nD) (t : Fin cfg2.N) (y : Fin 4000) (k : Fin 128) :
    iblk2 V c 0 t (ix2 y k) = V c main_v60 (ix2 ⟨4000 * t.val + y.val, row_lt t y⟩ k) := by
  obtain ⟨e00, e01, -⟩ := idx_facts t
  show V c main_v60 (((cfg2.win 0).blk t).view.emb (ix2 y k)) = _
  refine congrArg (V c main_v60) (funext fun a => Fin.ext ?_)
  match a with
  | ⟨0, _⟩ => show win2_0.index t (0 : Fin 2) * 4000 + 1 * y.val = 4000 * t.val + y.val; omega
  | ⟨1, _⟩ => show win2_0.index t (1 : Fin 2) * 128 + 1 * k.val = k.val; omega

theorem blk1 (c : Dev nD) (t : Fin cfg2.N) (y : Fin 4000) :
    iblk2 V c 1 t (ix2 y (0 : Fin 1)) = V c main_v17 (ix2 ⟨4000 * t.val + y.val, row_lt t y⟩ (0 : Fin 1)) := by
  obtain ⟨-, -, e10, e11, -⟩ := idx_facts t
  show V c main_v17 (((cfg2.win 1).blk t).view.emb (ix2 y (0 : Fin 1))) = _
  refine congrArg (V c main_v17) (funext fun a => Fin.ext ?_)
  match a with
  | ⟨0, _⟩ => show win2_1.index t (0 : Fin 2) * 4000 + 1 * y.val = 4000 * t.val + y.val; omega
  | ⟨1, _⟩ => show win2_1.index t (1 : Fin 2) * 1 + 1 * 0 = 0; omega

theorem blk2 (c : Dev nD) (t : Fin cfg2.N) (y : Fin 4000) (k : Fin 128) :
    iblk2 V c 2 t (ix2 y k) = V c main_v45 (ix2 ⟨4000 * t.val + y.val, row_lt t y⟩ k) := by
  obtain ⟨-, -, -, -, e20, e21, -⟩ := idx_facts t
  show V c main_v45 (((cfg2.win 2).blk t).view.emb (ix2 y k)) = _
  refine congrArg (V c main_v45) (funext fun a => Fin.ext ?_)
  match a with
  | ⟨0, _⟩ => show win2_2.index t (0 : Fin 2) * 4000 + 1 * y.val = 4000 * t.val + y.val; omega
  | ⟨1, _⟩ => show win2_2.index t (1 : Fin 2) * 128 + 1 * k.val = k.val; omega

theorem blk3 (c : Dev nD) (t : Fin cfg2.N) (f : Fin 64) (k : Fin 128) :
    iblk2 V c 3 t (ix2 f k) = V c main_arg7 (ix2 f k) := by
  obtain ⟨-, -, -, -, -, -, e30, e31, -⟩ := idx_facts t
  show V c main_arg7 (((cfg2.win 3).blk t).view.emb (ix2 f k)) = _
  refine congrArg (V c main_arg7) (funext fun a => Fin.ext ?_)
  match a with
  | ⟨0, _⟩ => show win2_3.index t (0 : Fin 2) * 64 + 1 * f.val = f.val; omega
  | ⟨1, _⟩ => show win2_3.index t (1 : Fin 2) * 128 + 1 * k.val = k.val; omega

theorem blk4 (c : Dev nD) (t : Fin cfg2.N) (f : Fin 64) :
    iblk2 V c 4 t (ix2 (0 : Fin 1) f) = V c main_v61 (ix2 (0 : Fin 1) f) := by
  obtain ⟨-, -, -, -, -, -, -, -, e40, e41, -⟩ := idx_facts t
  show V c main_v61 (((cfg2.win 4).blk t).view.emb (ix2 (0 : Fin 1) f)) = _
  refine congrArg (V c main_v61) (funext fun a => Fin.ext ?_)
  match a with
  | ⟨0, _⟩ => show win2_4.index t (0 : Fin 2) * 1 + 1 * 0 = 0; omega
  | ⟨1, _⟩ => show win2_4.index t (1 : Fin 2) * 64 + 1 * f.val = f.val; omega

theorem blk5 (c : Dev nD) (t : Fin cfg2.N) (f : Fin 64) (k : Fin 128) :
    iblk2 V c 5 t (ix2 f k) = V c main_arg9 (ix2 f k) := by
  obtain ⟨-, -, -, -, -, -, -, -, -, -, e50, e51, -⟩ := idx_facts t
  show V c main_arg9 (((cfg2.win 5).blk t).view.emb (ix2 f k)) = _
  refine congrArg (V c main_arg9) (funext fun a => Fin.ext ?_)
  match a with
  | ⟨0, _⟩ => show win2_5.index t (0 : Fin 2) * 64 + 1 * f.val = f.val; omega
  | ⟨1, _⟩ => show win2_5.index t (1 : Fin 2) * 128 + 1 * k.val = k.val; omega

/-- The block h of point t. -/
abbrev hblk (c : Dev nD) (t : Fin cfg2.N) : FVec Ideal S4000x64 .f32 :=
  k2_pay4 (iblk2 V c 0 t) (iblk2 V c 1 t) (iblk2 V c 2 t) (iblk2 V c 3 t) (iblk2 V c 5 t) (iblk2 V c 4 t)

/-- Entry (y, f) of point t's block is h at row 4000 t + y. -/
theorem hblk_apply (c : Dev nD) (t : Fin cfg2.N) (y : Fin 4000) (f : Fin 64) :
    hblk V c t (ix2 y f) = h V c ⟨4000 * t.val + y.val, row_lt t y⟩ f := by
  exact LinBlock2.block_entry_of_reads (iblk2 V c 0 t) (iblk2 V c 1 t) (iblk2 V c 2 t) (iblk2 V c 3 t) (iblk2 V c 5 t) (iblk2 V c 4 t)
    (V c main_v60) (V c main_v17) (V c main_v45) (V c main_arg7) (V c main_v61) (V c main_arg9) y f ⟨4000 * t.val + y.val, row_lt t y⟩
    (blk0 V c t y) (blk1 V c t y) (blk2 V c t y) (blk3 V c t f) (blk4 V c t f) (blk5 V c t f)

/-! ## What the three output buffers hold after point n -/

/-- The block buffer after point t is point t's block of h, whichever case the point is. -/
theorem outs_block (c : Dev nD) (t : Fin cfg2.N) : (outsAt2 V c t.val t.isLt).1 = hblk V c t := by
  by_cases h0 : t.val % 25 = 0
  · have e1 := congrArg Prod.fst (outsAt2_A V c t h0)
    dsimp only at e1
    have e2 := Cert.KernelIdeal.Lin2.blockA c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
    exact e1.trans e2
  · have e1 := congrArg Prod.fst (outsAt2_B V c t h0)
    dsimp only at e1
    have e2 := Cert.KernelIdeal.Lin2.blockB c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2
    exact e1.trans e2

/-- The column sums of h (of h²) over the rows of the first n blocks, at column f. -/
def partialSum (c : Dev nD) (f : Fin 64) (n : ℕ) : EReal :=
  ∑ t' ∈ Finset.range n, ∑ y : Fin 4000, (if hh : 4000 * t' + y.val < 100000 then h V c ⟨4000 * t' + y.val, hh⟩ f else 0)
def partialSumSq (c : Dev nD) (f : Fin 64) (n : ℕ) : EReal :=
  ∑ t' ∈ Finset.range n, ∑ y : Fin 4000, (if hh : 4000 * t' + y.val < 100000 then h V c ⟨4000 * t' + y.val, hh⟩ f * h V c ⟨4000 * t' + y.val, hh⟩ f else 0)

theorem block_colsum (c : Dev nD) (t : Fin cfg2.N) (f : Fin 64) :
    ∑ y : Fin 4000, hblk V c t (ix2 y f) = ∑ y : Fin 4000, (if hh : 4000 * t.val + y.val < 100000 then h V c ⟨4000 * t.val + y.val, hh⟩ f else 0) :=
  Finset.sum_congr rfl fun y _ => by rw [dif_pos (row_lt t y)]; exact hblk_apply V c t y f

theorem block_colsumsq (c : Dev nD) (t : Fin cfg2.N) (f : Fin 64) :
    ∑ y : Fin 4000, hblk V c t (ix2 y f) * hblk V c t (ix2 y f) = ∑ y : Fin 4000, (if hh : 4000 * t.val + y.val < 100000 then h V c ⟨4000 * t.val + y.val, hh⟩ f * h V c ⟨4000 * t.val + y.val, hh⟩ f else 0) :=
  Finset.sum_congr rfl fun y _ => by
    rw [dif_pos (row_lt t y)]; exact congrArg₂ (· * ·) (hblk_apply V c t y f) (hblk_apply V c t y f)

theorem outs_sum (c : Dev nD) (f : Fin 64) : ∀ (n : ℕ) (hn : n < cfg2.N),
    (outsAt2 V c n hn).2.1 (ix2 (0 : Fin 1) f) = partialSum V c f (n + 1)
  | 0, hn => by
    have e1 := congrArg (fun p => p.2.1 (ix2 (0 : Fin 1) f)) (outsAt2_A V c ⟨0, hn⟩ rfl)
    dsimp only at e1
    have e2 := congrFun (Cert.KernelIdeal.Lin2.sumA c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)) (ix2 (0 : Fin 1) f)
    have e3 := LinBlock2.sum_apply (iblk2 V c 0 ⟨0, hn⟩) (iblk2 V c 1 ⟨0, hn⟩) (iblk2 V c 2 ⟨0, hn⟩) (iblk2 V c 3 ⟨0, hn⟩) (iblk2 V c 5 ⟨0, hn⟩) (iblk2 V c 4 ⟨0, hn⟩) (k2_pay2 (F := Ideal)) f
    have e4 : partialSum V c f (0 + 1) = ∑ y : Fin 4000, (if hh : 4000 * 0 + y.val < 100000 then h V c ⟨4000 * 0 + y.val, hh⟩ f else 0) := by
      unfold partialSum; exact Finset.sum_range_one _
    have e5 := block_colsum V c ⟨0, hn⟩ f
    refine e1.trans (e2.trans (e3.trans ?_))
    rw [LinBlock2.zero_sum_apply, zero_add, e4]
    exact e5
  | n + 1, hn => by
    have hN : cfg2.N = 25 := N_2
    have hB : ¬(⟨n + 1, hn⟩ : Fin cfg2.N).val % 25 = 0 := by dsimp only; omega
    have e1 := congrArg (fun p => p.2.1 (ix2 (0 : Fin 1) f)) (outsAt2_B V c ⟨n + 1, hn⟩ hB)
    dsimp only at e1
    have e2 := congrFun (Cert.KernelIdeal.Lin2.sumB c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2) (ix2 (0 : Fin 1) f)
    have e3 := LinBlock2.sum_apply (iblk2 V c 0 ⟨n + 1, hn⟩) (iblk2 V c 1 ⟨n + 1, hn⟩) (iblk2 V c 2 ⟨n + 1, hn⟩) (iblk2 V c 3 ⟨n + 1, hn⟩) (iblk2 V c 5 ⟨n + 1, hn⟩) (iblk2 V c 4 ⟨n + 1, hn⟩) (outsAt2 V c n (Nat.lt_of_succ_lt hn)).2.1 f
    have ih := outs_sum c f n (Nat.lt_of_succ_lt hn)
    have e4 : partialSum V c f (n + 1 + 1) = partialSum V c f (n + 1) + ∑ y : Fin 4000, (if hh : 4000 * (n + 1) + y.val < 100000 then h V c ⟨4000 * (n + 1) + y.val, hh⟩ f else 0) := by
      unfold partialSum; exact Finset.sum_range_succ _ _
    have e5 := block_colsum V c ⟨n + 1, hn⟩ f
    refine e1.trans (e2.trans (e3.trans ?_))
    rw [e4]
    exact congrArg₂ (· + ·) ih e5

theorem outs_sumsq (c : Dev nD) (f : Fin 64) : ∀ (n : ℕ) (hn : n < cfg2.N),
    (outsAt2 V c n hn).2.2 (ix2 (0 : Fin 1) f) = partialSumSq V c f (n + 1)
  | 0, hn => by
    have e1 := congrArg (fun p => p.2.2 (ix2 (0 : Fin 1) f)) (outsAt2_A V c ⟨0, hn⟩ rfl)
    dsimp only at e1
    have e2 := congrFun (Cert.KernelIdeal.Lin2.sumsqA c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)) (ix2 (0 : Fin 1) f)
    have e3 := LinBlock2.sumsq_apply (hblk V c ⟨0, hn⟩) (k2_pay3 (F := Ideal)) f
    have e4 : partialSumSq V c f (0 + 1) = ∑ y : Fin 4000, (if hh : 4000 * 0 + y.val < 100000 then h V c ⟨4000 * 0 + y.val, hh⟩ f * h V c ⟨4000 * 0 + y.val, hh⟩ f else 0) := by
      unfold partialSumSq; exact Finset.sum_range_one _
    have e5 := block_colsumsq V c ⟨0, hn⟩ f
    refine e1.trans (e2.trans (e3.trans ?_))
    rw [LinBlock2.zero_sumsq_apply, zero_add, e4]
    exact e5
  | n + 1, hn => by
    have hN : cfg2.N = 25 := N_2
    have hB : ¬(⟨n + 1, hn⟩ : Fin cfg2.N).val % 25 = 0 := by dsimp only; omega
    have e1 := congrArg (fun p => p.2.2 (ix2 (0 : Fin 1) f)) (outsAt2_B V c ⟨n + 1, hn⟩ hB)
    dsimp only at e1
    have e2 := congrFun (Cert.KernelIdeal.Lin2.sumsqB c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2) (ix2 (0 : Fin 1) f)
    have e3 := LinBlock2.sumsq_apply (hblk V c ⟨n + 1, hn⟩) (outsAt2 V c n (Nat.lt_of_succ_lt hn)).2.2 f
    have ih := outs_sumsq c f n (Nat.lt_of_succ_lt hn)
    have e4 : partialSumSq V c f (n + 1 + 1) = partialSumSq V c f (n + 1) + ∑ y : Fin 4000, (if hh : 4000 * (n + 1) + y.val < 100000 then h V c ⟨4000 * (n + 1) + y.val, hh⟩ f * h V c ⟨4000 * (n + 1) + y.val, hh⟩ f else 0) := by
      unfold partialSumSq; exact Finset.sum_range_succ _ _
    have e5 := block_colsumsq V c ⟨n + 1, hn⟩ f
    refine e1.trans (e2.trans (e3.trans ?_))
    rw [e4]
    exact congrArg₂ (· + ·) ih e5

/-! ## The three arrays after the region -/

/-- The output array h; the row of its column sums; the row of the column sums of its squares. -/
def hArr (c : Dev nD) : S100000x64.Idx → EReal := fun i => h V c (i 0 : Fin 100000) (i 1 : Fin 64)
def sumArr (c : Dev nD) : S1x64.Idx → EReal := fun i => ∑ r : Fin 100000, h V c r (i 1 : Fin 64)
def sumsqArr (c : Dev nD) : S1x64.Idx → EReal := fun i => ∑ r : Fin 100000, h V c r (i 1 : Fin 64) * h V c r (i 1 : Fin 64)

/-- What point t writes back is rows 4000 t .. 4000 t + 3999 of h. -/
theorem flushed_block (c : Dev nD) (t : Fin cfg2.N) :
    (dat2 V c).flushed 6 t = ((cfg2.win 6).blk t).view.read (Elt Ideal) (hArr V c) := by
  show (cfg2.win 6).cut (grid2.coords t) ((dat2 V c).after 6 t) = _
  rw [after2_6, outs_block V c t]
  obtain ⟨-, -, -, -, -, -, -, -, -, -, -, -, e60, e61, e70, e71, e80, e81⟩ := idx_facts t
  funext y
  obtain ⟨p, q, rfl⟩ : ∃ (p : Fin 4000) (q : Fin 64), y = ix2 p q := ⟨y 0, y 1, eq_ix2 y⟩
  show hblk V c t (ix2 p q) = hArr V c (((cfg2.win 6).blk t).view.emb (ix2 p q))
  refine (hblk_apply V c t p q).trans ?_
  unfold hArr
  refine congrArg₂ (h V c) (Fin.ext ?_) (Fin.ext ?_)
  · show 4000 * t.val + p.val = win2_6.index t (0 : Fin 2) * 4000 + 1 * p.val; omega
  · show q.val = win2_6.index t (1 : Fin 2) * 64 + 1 * q.val; omega

theorem mem_block (t : Fin cfg2.N) (i : S100000x64.Idx) :
    i ∈ ((cfg2.win 6).blk t).view.set ↔ ∀ a : Fin 2, win2_6.index t a * S4000x64.size a ≤ (i a).val
      ∧ (i a).val < win2_6.index t a * S4000x64.size a + S4000x64.size a := by
  show i ∈ ((View.whole main_v62_0).slice (win2_6.rect t)).set ↔ _
  rw [View.set_slice_whole, Rect.mem_set_unit]
  exact Iff.rfl

/-- Row r lies in the block of point r / 4000. -/
theorem cover_block (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 25 := N_2
  let t : Fin cfg2.N := ⟨(i 0).val / 4000, by rw [hN]; omega⟩
  obtain ⟨-, -, -, -, -, -, -, -, -, -, -, -, e60, e61, e70, e71, e80, e81⟩ := idx_facts t
  have ht : t.val = (i 0).val / 4000 := rfl
  refine ⟨t, flush2_6 t, ?_⟩
  rw [mem_block]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 64 ≤ (i 1).val ∧ (i 1).val < win2_6.index t (1 : Fin 2) * 64 + 64; omega

/-- After the region's 25 points the output array is h. -/
theorem final_block (c : Dev nD) : (dat2 V c).arrAt 6 cfg2.N = hArr V c :=
  (dat2 V c).arrAt_eq_of_cover 6 _ (fun t _ => flushed_block V c t) cover_block

/-- Writing back a whole [1, 64] row whose block is the array itself: if the staged row agrees with S at every column,
    what is written back is S read through the block. -/
theorem row_writeback_7 (t : Fin cfg2.N) (X : Vec Ideal S1x64 .f32) (S : S1x64.Idx → EReal)
    (hX : ∀ f : Fin 64, X (ix2 (0 : Fin 1) f) = S (ix2 (0 : Fin 1) f)) :
    (cfg2.win 7).cut (grid2.coords t) X = ((cfg2.win 7).blk t).view.read (Elt Ideal) S := by
  obtain ⟨-, -, -, -, -, -, -, -, -, -, -, -, e60, e61, e70, e71, e80, e81⟩ := idx_facts t
  funext y
  show X y = S (((cfg2.win 7).blk t).view.emb y)
  obtain ⟨u, f, rfl⟩ : ∃ (u : Fin 1) (f : Fin 64), y = ix2 u f := ⟨y 0, y 1, eq_ix2 y⟩
  obtain rfl : u = 0 := Subsingleton.elim _ _
  refine (hX f).trans (congrArg S (funext fun a => Fin.ext ?_))
  match a with
  | ⟨0, _⟩ => show 0 = win2_7.index t (0 : Fin 2) * 1 + 1 * 0; omega
  | ⟨1, _⟩ => show f.val = win2_7.index t (1 : Fin 2) * 64 + 1 * f.val; omega

/-- Writing back a whole [1, 64] row whose block is the array itself: if the staged row agrees with S at every column,
    what is written back is S read through the block. -/
theorem row_writeback_8 (t : Fin cfg2.N) (X : Vec Ideal S1x64 .f32) (S : S1x64.Idx → EReal)
    (hX : ∀ f : Fin 64, X (ix2 (0 : Fin 1) f) = S (ix2 (0 : Fin 1) f)) :
    (cfg2.win 8).cut (grid2.coords t) X = ((cfg2.win 8).blk t).view.read (Elt Ideal) S := by
  obtain ⟨-, -, -, -, -, -, -, -, -, -, -, -, e60, e61, e70, e71, e80, e81⟩ := idx_facts t
  funext y
  show X y = S (((cfg2.win 8).blk t).view.emb y)
  obtain ⟨u, f, rfl⟩ : ∃ (u : Fin 1) (f : Fin 64), y = ix2 u f := ⟨y 0, y 1, eq_ix2 y⟩
  obtain rfl : u = 0 := Subsingleton.elim _ _
  refine (hX f).trans (congrArg S (funext fun a => Fin.ext ?_))
  match a with
  | ⟨0, _⟩ => show 0 = win2_8.index t (0 : Fin 2) * 1 + 1 * 0; omega
  | ⟨1, _⟩ => show f.val = win2_8.index t (1 : Fin 2) * 64 + 1 * f.val; omega

theorem last_sum (c : Dev nD) (f : Fin 64) (t : Fin cfg2.N) (h24 : t.val = 24) :
    (outsAt2 V c t.val t.isLt).2.1 (ix2 (0 : Fin 1) f) = sumArr V c (ix2 (0 : Fin 1) f) := by
  have e25 : t.val + 1 = 25 := by omega
  rw [outs_sum V c f t.val t.isLt, e25]
  unfold partialSum sumArr
  rw [Cert.Proof.Stats.sum_first_blocks (fun r => h V c r f) 25 (le_refl _)]
  exact Finset.sum_congr rfl fun r _ => if_pos (by have := r.isLt; omega)

/-- The one write-back, after the last point, writes the whole row. -/
theorem flushed_sum (c : Dev nD) (t : Fin cfg2.N) (hf : (cfg2.win 7).flush t = true) :
    (dat2 V c).flushed 7 t = ((cfg2.win 7).blk t).view.read (Elt Ideal) (sumArr V c) := by
  have hN : cfg2.N = 25 := N_2
  have h24 : t.val = 24 := by have := (flush2_7 t).mp hf; have := t.isLt; omega
  show (cfg2.win 7).cut (grid2.coords t) ((dat2 V c).after 7 t) = _
  rw [after2_7]
  exact row_writeback_7 t _ _ (fun f => last_sum V c f t h24)

theorem cover_sum (i : S1x64.Idx) :
    ∃ t : Fin cfg2.N, (cfg2.win 7).flush t = true ∧ i ∈ ((cfg2.win 7).blk t).view.set := by
  have hN : cfg2.N = 25 := N_2
  let t : Fin cfg2.N := ⟨24, by rw [hN]; decide⟩
  obtain ⟨-, -, -, -, -, -, -, -, -, -, -, -, e60, e61, e70, e71, e80, e81⟩ := idx_facts t
  have hi0 : (i 0).val < 1 := (i 0).isLt
  have hi1 : (i 1).val < 64 := (i 1).isLt
  refine ⟨t, (flush2_7 t).mpr rfl, ?_⟩
  show i ∈ ((View.whole main_v62_1).slice (win2_7.rect t)).set
  rw [View.set_slice_whole, Rect.mem_set_unit]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 64 ≤ (i 1).val ∧ (i 1).val < win2_7.index t (1 : Fin 2) * 64 + 64; omega

/-- After the region the row holds, at column f, the sum over all 100000 rows. -/
theorem final_sum (c : Dev nD) : (dat2 V c).arrAt 7 cfg2.N = sumArr V c :=
  (dat2 V c).arrAt_eq_of_cover 7 _ (flushed_sum V c) cover_sum

theorem last_sumsq (c : Dev nD) (f : Fin 64) (t : Fin cfg2.N) (h24 : t.val = 24) :
    (outsAt2 V c t.val t.isLt).2.2 (ix2 (0 : Fin 1) f) = sumsqArr V c (ix2 (0 : Fin 1) f) := by
  have e25 : t.val + 1 = 25 := by omega
  rw [outs_sumsq V c f t.val t.isLt, e25]
  unfold partialSumSq sumsqArr
  rw [Cert.Proof.Stats.sum_first_blocks (fun r => h V c r f * h V c r f) 25 (le_refl _)]
  exact Finset.sum_congr rfl fun r _ => if_pos (by have := r.isLt; omega)

/-- The one write-back, after the last point, writes the whole row. -/
theorem flushed_sumsq (c : Dev nD) (t : Fin cfg2.N) (hf : (cfg2.win 8).flush t = true) :
    (dat2 V c).flushed 8 t = ((cfg2.win 8).blk t).view.read (Elt Ideal) (sumsqArr V c) := by
  have hN : cfg2.N = 25 := N_2
  have h24 : t.val = 24 := by have := (flush2_8 t).mp hf; have := t.isLt; omega
  show (cfg2.win 8).cut (grid2.coords t) ((dat2 V c).after 8 t) = _
  rw [after2_8]
  exact row_writeback_8 t _ _ (fun f => last_sumsq V c f t h24)

theorem cover_sumsq (i : S1x64.Idx) :
    ∃ t : Fin cfg2.N, (cfg2.win 8).flush t = true ∧ i ∈ ((cfg2.win 8).blk t).view.set := by
  have hN : cfg2.N = 25 := N_2
  let t : Fin cfg2.N := ⟨24, by rw [hN]; decide⟩
  obtain ⟨-, -, -, -, -, -, -, -, -, -, -, -, e60, e61, e70, e71, e80, e81⟩ := idx_facts t
  have hi0 : (i 0).val < 1 := (i 0).isLt
  have hi1 : (i 1).val < 64 := (i 1).isLt
  refine ⟨t, (flush2_8 t).mpr rfl, ?_⟩
  show i ∈ ((View.whole main_v62_2).slice (win2_8.rect t)).set
  rw [View.set_slice_whole, Rect.mem_set_unit]
  intro a
  match a with
  | ⟨0, _⟩ => show win2_8.index t (0 : Fin 2) * 1 ≤ (i 0).val ∧ (i 0).val < win2_8.index t (0 : Fin 2) * 1 + 1; omega
  | ⟨1, _⟩ => show win2_8.index t (1 : Fin 2) * 64 ≤ (i 1).val ∧ (i 1).val < win2_8.index t (1 : Fin 2) * 64 + 64; omega

/-- After the region the row holds, at column f, the sum over all 100000 rows. -/
theorem final_sumsq (c : Dev nD) : (dat2 V c).arrAt 8 cfg2.N = sumsqArr V c :=
  (dat2 V c).arrAt_eq_of_cover 8 _ (flushed_sumsq V c) cover_sumsq

end Cert.KernelIdeal.LinAccum2

end
-- ==== Proof.Norm1.lean ====
/-
  The batch-normalisation-and-ReLU region, read as one function of its five argument arrays.

  The region walks the 100000 rows of a [100000,128] array in 25 blocks of 4000 rows. At each block it
  computes, entry by entry, max (g * (h - mu) * rsqrt (var + eps) + b) 0, where h is the entry of the
  block and mu, var, g, b are the entries of four [1,128] rows in the same column. Every block's result
  is therefore the restriction to that block of ONE function of the whole arrays, and since the 25
  blocks cover every row, the output array ends holding that function.
-/
import proofs.«173987_j26422638805210_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Norm1

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## The function -/

/-- One entry: from the pre-activation `h`, the column's mean `mu`, variance `var`, scale `g` and
    shift `b`, the value `max (g * (h - mu) * rsqrt (var + eps) + b) 0`, with the operations associated
    as the region's body applies them (`eps` is the single-precision word `0x3727C5AC`). -/
def normReluElt (h mu var g b : F .f32) : F .f32 :=
  FloatOps.maximumf
    (FloatOps.addf
      (FloatOps.mulf (FloatOps.mulf g (FloatOps.subf h mu))
        (FloatOps.rsqrt (FloatOps.addf var (FloatOps.ofBits .f32 0x3727C5AC#32))))
      b)
    (FloatOps.ofBits .f32 0x00000000#32)

/-- The whole output: entry `(r, f)` is `normReluElt` of the pre-activation at `(r, f)` and of the four
    rows at `(0, f)`. -/
def normRelu (a0 : S100000x128.Idx → Elt F .f32) (a1 a2 a3 a4 : S1x128.Idx → Elt F .f32) :
    S100000x128.Idx → Elt F .f32 :=
  fun i => normReluElt (a0 i) (a1 (ix2 (0 : Fin 1) (i 1 : Fin 128))) (a2 (ix2 (0 : Fin 1) (i 1 : Fin 128)))
    (a3 (ix2 (0 : Fin 1) (i 1 : Fin 128))) (a4 (ix2 (0 : Fin 1) (i 1 : Fin 128)))

theorem normRelu_apply (a0 : S100000x128.Idx → Elt F .f32) (a1 a2 a3 a4 : S1x128.Idx → Elt F .f32)
    (r : Fin 100000) (f : Fin 128) :
    normRelu a0 a1 a2 a3 a4 (ix2 r f)
      = normReluElt (a0 (ix2 r f)) (a1 (ix2 (0 : Fin 1) f)) (a2 (ix2 (0 : Fin 1) f)) (a3 (ix2 (0 : Fin 1) f))
          (a4 (ix2 (0 : Fin 1) f)) := rfl

/-! ## The body's payload at an entry of the block -/

theorem hz : (![0, 0] : Fin 2 → Nat) = fun _ => 0 := funext fun a => by fin_cases a <;> rfl

/-- The payload of the body's one store, read at entry `(p, q)` of the block: the same-shape casts are
    identities, a row broadcast over the block reads the row at `(0, q)`, and the arithmetic is entrywise. -/
theorem pay_apply (x0 : Vec F S4000x128 .f32) (x1 x2 x3 x4 : Vec F S1x128 .f32) (p : Fin 4000) (q : Fin 128) :
    k1_pay1 x0 x1 x2 x3 x4 (ix2 p q)
      = normReluElt (x0 (ix2 p q)) (x1 (ix2 (0 : Fin 1) q)) (x2 (ix2 (0 : Fin 1) q)) (x3 (ix2 (0 : Fin 1) q))
          (x4 (ix2 (0 : Fin 1) q)) := by
  unfold k1_pay1
  simp only [shapeCast_self]
  show FloatOps.maximumf
      (FloatOps.addf
        (FloatOps.mulf
          (FloatOps.mulf (broadcastTo S4000x128 x3 broadcasts_S1x128_S4000x128 (ix2 p q))
            (FloatOps.subf (x0 (ix2 p q)) (broadcastTo S4000x128 x1 broadcasts_S1x128_S4000x128 (ix2 p q))))
          (broadcastTo S4000x128 (rsqrt (addf x2 (broadcast S1x128 (Scalar.ofBits .f32 0x3727C5AC#32))))
            broadcasts_S1x128_S4000x128 (ix2 p q)))
        (broadcastTo S4000x128 x4 broadcasts_S1x128_S4000x128 (ix2 p q)))
      (Scalar.ofBits .f32 0x00000000#32) = _
  rw [broadcastTo_1b_ab_apply, broadcastTo_1b_ab_apply, broadcastTo_1b_ab_apply, broadcastTo_1b_ab_apply]
  rfl

/-! ## From the blocks to the array -/

variable (V : (c : Dev nD) → (b : Ref sig .tc) → Buf (Elt F) ((c : Thread nD τ).loc b))

/-- The block index maps over the 25 grid points: the pre-activation's and the output's blocks are both
    block `(t, 0)`; each of the four rows is its array's one block `(0, 0)`. -/
theorem idx_facts : ∀ t : Fin cfg1.N,
      win1_0.index t (0 : Fin 2) = win1_5.index t (0 : Fin 2)
    ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of one block. If the block's pre-activation entry at `y` is the array's at `k`, the four
    row blocks are their arrays, and `k` lies in `y`'s column, then the payload at `y` is the function
    at `k`. -/
theorem point_eq (x0 : Vec F S4000x128 .f32) (x1 x2 x3 x4 : Vec F S1x128 .f32)
    (A0 : S100000x128.Idx → Elt F .f32) (A1 A2 A3 A4 : S1x128.Idx → Elt F .f32)
    (y : S4000x128.Idx) (k : S100000x128.Idx)
    (h0 : x0 y = A0 k) (h1 : ∀ q : Fin 128, x1 (ix2 (0 : Fin 1) q) = A1 (ix2 (0 : Fin 1) q))
    (h2 : ∀ q : Fin 128, x2 (ix2 (0 : Fin 1) q) = A2 (ix2 (0 : Fin 1) q))
    (h3 : ∀ q : Fin 128, x3 (ix2 (0 : Fin 1) q) = A3 (ix2 (0 : Fin 1) q))
    (h4 : ∀ q : Fin 128, x4 (ix2 (0 : Fin 1) q) = A4 (ix2 (0 : Fin 1) q))
    (hk : (k 1 : Fin 128) = (y 1 : Fin 128)) :
    k1_pay1 x0 x1 x2 x3 x4 y = normRelu A0 A1 A2 A3 A4 k := by
  obtain ⟨p, q, rfl⟩ : ∃ (p : Fin 4000) (q : Fin 128), y = ix2 p q := ⟨y 0, y 1, eq_ix2 y⟩
  rw [pay_apply, h0, h1, h2, h3, h4]
  unfold normRelu
  rw [hk]

/-- What point `t` writes back is block `t` of `normRelu` of the arrays as the region finds them. -/
theorem flushed_eq (c : Dev nD) (t : Fin cfg1.N) :
    (dat1 V c).flushed 5 t = ((cfg1.win 5).blk t).view.read (Elt F)
      (normRelu (V c main_v34_0) (V c main_v36) (V c main_v42) (V c main_v43) (V c main_v44)) := by
  show (cfg1.win 5).cut (grid1.coords t) ((dat1 V c).after 5 t) = _
  rw [after1_5]
  unfold out1_5
  rw [View.canon_unit_zero hz]
  simp only [View.ld_unit_zero (S := S4000x128) hz, View.ld_unit_zero (S := S1x128) hz]
  obtain ⟨e0, e1, e10, e11, e20, e21, e30, e31, e40, e41, e50, e51⟩ := idx_facts t
  funext y
  show k1_pay1 (iblk1 V c 0 t) (iblk1 V c 1 t) (iblk1 V c 2 t) (iblk1 V c 3 t) (iblk1 V c 4 t) y
    = normRelu (V c main_v34_0) (V c main_v36) (V c main_v42) (V c main_v43) (V c main_v44)
        (((cfg1.win 5).blk t).view.emb y)
  refine point_eq _ _ _ _ _ _ _ _ _ _ y _ ?_ ?_ ?_ ?_ ?_ ?_
  · show V c main_v34_0 (((cfg1.win 0).blk t).view.emb y) = V c main_v34_0 (((cfg1.win 5).blk t).view.emb y)
    refine congrArg (V c main_v34_0) (funext fun a => Fin.ext ?_)
    match a with
    | ⟨0, _⟩ => show win1_0.index t (0 : Fin 2) * 4000 + 1 * (y 0).val = win1_5.index t (0 : Fin 2) * 4000 + 1 * (y 0).val; omega
    | ⟨1, _⟩ => show win1_0.index t (1 : Fin 2) * 128 + 1 * (y 1).val = win1_5.index t (1 : Fin 2) * 128 + 1 * (y 1).val; omega
  · intro q
    show V c main_v36 (((cfg1.win 1).blk t).view.emb (ix2 (0 : Fin 1) q)) = V c main_v36 (ix2 (0 : Fin 1) q)
    refine congrArg (V c main_v36) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · intro q
    show V c main_v42 (((cfg1.win 2).blk t).view.emb (ix2 (0 : Fin 1) q)) = V c main_v42 (ix2 (0 : Fin 1) q)
    refine congrArg (V c main_v42) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · intro q
    show V c main_v43 (((cfg1.win 3).blk t).view.emb (ix2 (0 : Fin 1) q)) = V c main_v43 (ix2 (0 : Fin 1) q)
    refine congrArg (V c main_v43) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · intro q
    show V c main_v44 (((cfg1.win 4).blk t).view.emb (ix2 (0 : Fin 1) q)) = V c main_v44 (ix2 (0 : Fin 1) q)
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · refine Fin.ext ?_
    show win1_5.index t (1 : Fin 2) * 128 + 1 * (y 1).val = (y 1).val
    omega

/-- An index of the output array is in point `t`'s block iff each coordinate is in the block's range. -/
theorem mem_blk (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v45).slice (win1_5.rect t)).set ↔ _
  rw [View.set_slice_whole, Rect.mem_set_unit]
  exact Iff.rfl

/-- Row `r` lies in the block of point `r / 4000`: the 25 blocks cover the array. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, -, -, -, -, -, e50, e51⟩ := idx_facts t
  have ht : t.val = (i 0).val / 4000 := rfl
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- After the region's 25 points the output array is `normRelu` of the arrays as the region finds them. -/
theorem final (c : Dev nD) :
    (dat1 V c).arrAt 5 cfg1.N
      = normRelu (V c main_v34_0) (V c main_v36) (V c main_v42) (V c main_v43) (V c main_v44) :=
  (dat1 V c).arrAt_eq_of_cover 5 _ (fun t _ => flushed_eq V c t) cover

end Cert.KernelIdeal.Norm1

end
-- ==== Proof.Norm3.lean ====
/-
  The second batch-normalisation region, which also applies the final linear layer and a softmax over
  its two classes, read as functions of its argument arrays.

  The region walks the 100000 rows of a [100000,64] array in 25 blocks of 4000 rows. Its first output is,
  entry by entry, x = max (g * (h - mu) * rsqrt (var + eps) + b) 0 with mu, var, g, b read from four
  [1,64] rows in the entry's column: the same entrywise function as the first normalisation region.
  Its second output applies to each row of x a linear layer into two classes (the contraction with a
  [2,64] weight matrix plus a [1,2] bias) and a softmax over the two classes. For either output each
  block's result is the restriction to the block of one function of the whole arrays, and the 25
  blocks cover every row.
-/
import proofs.«173987_j26422638805210_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm3

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## The entrywise function -/

/-- One entry: from the pre-activation `h`, the column's mean `mu`, variance `var`, scale `g` and
    shift `b`, the value `max (g * (h - mu) * rsqrt (var + eps) + b) 0`, with the operations associated
    as the region's body applies them (`eps` is the single-precision word `0x3727C5AC`). The first
    normalisation region applies the same function to its 128 columns. -/
def normReluElt (h mu var g b : F .f32) : F .f32 :=
  FloatOps.maximumf
    (FloatOps.addf
      (FloatOps.mulf (FloatOps.mulf g (FloatOps.subf h mu))
        (FloatOps.rsqrt (FloatOps.addf var (FloatOps.ofBits .f32 0x3727C5AC#32))))
      b)
    (FloatOps.ofBits .f32 0x00000000#32)

theorem hz : (![0, 0] : Fin 2 → Nat) = fun _ => 0 := funext fun a => by fin_cases a <;> rfl

/-! ## The normalised activations (the region's first output) -/

/-- Entry `(r, f)` is `normReluElt` of the pre-activation at `(r, f)` and of the four rows at `(0, f)`. -/
def normRelu (a0 : S100000x64.Idx → Elt F .f32) (a1 a2 a3 a4 : S1x64.Idx → Elt F .f32) :
    S100000x64.Idx → Elt F .f32 :=
  fun i => normReluElt (a0 i) (a1 (ix2 (0 : Fin 1) (i 1 : Fin 64))) (a2 (ix2 (0 : Fin 1) (i 1 : Fin 64)))
    (a3 (ix2 (0 : Fin 1) (i 1 : Fin 64))) (a4 (ix2 (0 : Fin 1) (i 1 : Fin 64)))

theorem normRelu_apply (a0 : S100000x64.Idx → Elt F .f32) (a1 a2 a3 a4 : S1x64.Idx → Elt F .f32)
    (r : Fin 100000) (f : Fin 64) :
    normRelu a0 a1 a2 a3 a4 (ix2 r f)
      = normReluElt (a0 (ix2 r f)) (a1 (ix2 (0 : Fin 1) f)) (a2 (ix2 (0 : Fin 1) f)) (a3 (ix2 (0 : Fin 1) f))
          (a4 (ix2 (0 : Fin 1) f)) := rfl

/-- The payload of the store into the first output, read at entry `(p, q)` of the block: the same-shape
    casts are identities, a row broadcast over the block reads the row at `(0, q)`, and the arithmetic is
    entrywise. -/
theorem pay2_apply (x0 : Vec F S4000x64 .f32) (x1 x2 x3 x4 : Vec F S1x64 .f32) (p : Fin 4000) (q : Fin 64) :
    k3_pay2 x0 x1 x2 x3 x4 (ix2 p q)
      = normReluElt (x0 (ix2 p q)) (x1 (ix2 (0 : Fin 1) q)) (x2 (ix2 (0 : Fin 1) q)) (x3 (ix2 (0 : Fin 1) q))
          (x4 (ix2 (0 : Fin 1) q)) := by
  unfold k3_pay2
  simp only [shapeCast_self]
  show FloatOps.maximumf
      (FloatOps.addf
        (FloatOps.mulf
          (FloatOps.mulf (broadcastTo S4000x64 x3 broadcasts_S1x64_S4000x64 (ix2 p q))
            (FloatOps.subf (x0 (ix2 p q)) (broadcastTo S4000x64 x1 broadcasts_S1x64_S4000x64 (ix2 p q))))
          (broadcastTo S4000x64 (rsqrt (addf x2 (broadcast S1x64 (Scalar.ofBits .f32 0x3727C5AC#32))))
            broadcasts_S1x64_S4000x64 (ix2 p q)))
        (broadcastTo S4000x64 x4 broadcasts_S1x64_S4000x64 (ix2 p q)))
      (Scalar.ofBits .f32 0x00000000#32) = _
  rw [broadcastTo_1b_ab_apply, broadcastTo_1b_ab_apply, broadcastTo_1b_ab_apply, broadcastTo_1b_ab_apply]
  rfl

variable (V : (c : Dev nD) → (b : Ref sig .tc) → Buf (Elt F) ((c : Thread nD τ).loc b))

/-- The block index maps over the 25 grid points: the pre-activation's and the two outputs' blocks are
    block `(t, 0)`; each of the four rows, the weight matrix and the bias row is its array's one block
    `(0, 0)`. -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- One entry of one block of the first output. -/
theorem point7_eq (x0 : Vec F S4000x64 .f32) (x1 x2 x3 x4 : Vec F S1x64 .f32)
    (A0 : S100000x64.Idx → Elt F .f32) (A1 A2 A3 A4 : S1x64.Idx → Elt F .f32)
    (y : S4000x64.Idx) (k : S100000x64.Idx)
    (h0 : x0 y = A0 k) (h1 : ∀ q : Fin 64, x1 (ix2 (0 : Fin 1) q) = A1 (ix2 (0 : Fin 1) q))
    (h2 : ∀ q : Fin 64, x2 (ix2 (0 : Fin 1) q) = A2 (ix2 (0 : Fin 1) q))
    (h3 : ∀ q : Fin 64, x3 (ix2 (0 : Fin 1) q) = A3 (ix2 (0 : Fin 1) q))
    (h4 : ∀ q : Fin 64, x4 (ix2 (0 : Fin 1) q) = A4 (ix2 (0 : Fin 1) q))
    (hk : (k 1 : Fin 64) = (y 1 : Fin 64)) :
    k3_pay2 x0 x1 x2 x3 x4 y = normRelu A0 A1 A2 A3 A4 k := by
  obtain ⟨p, q, rfl⟩ : ∃ (p : Fin 4000) (q : Fin 64), y = ix2 p q := ⟨y 0, y 1, eq_ix2 y⟩
  rw [pay2_apply, h0, h1, h2, h3, h4]
  unfold normRelu
  rw [hk]

/-- The pre-activation block at point `t` is rows `4000 t … 4000 t + 3999` of its array. -/
theorem iblk0_apply (c : Dev nD) (t : Fin cfg3.N) (y : S4000x64.Idx) (k : S100000x64.Idx)
    (hk0 : (k 0).val = 4000 * t.val + (y 0).val) (hk1 : (k 1).val = (y 1).val) :
    (iblk3 V c 0 t : Vec F S4000x64 .f32) y = (V c main_v62_0 : S100000x64.Idx → Elt F .f32) k := by
  obtain ⟨e00, e01, -⟩ := idx_facts t
  show V c main_v62_0 (((cfg3.win 0).blk t).view.emb y) = V c main_v62_0 k
  refine congrArg (V c main_v62_0) (funext fun a => Fin.ext ?_)
  match a with
  | ⟨0, _⟩ => show win3_0.index t (0 : Fin 2) * 4000 + 1 * (y 0).val = (k 0).val; omega
  | ⟨1, _⟩ => show win3_0.index t (1 : Fin 2) * 64 + 1 * (y 1).val = (k 1).val; omega

/-- Each of the four row windows' block at any point is its whole [1,64] array. -/
theorem iblk_rows (c : Dev nD) (t : Fin cfg3.N) :
    (∀ q : Fin 64, (iblk3 V c 1 t : Vec F S1x64 .f32) (ix2 (0 : Fin 1) q) = (V c main_v64 : S1x64.Idx → Elt F .f32) (ix2 (0 : Fin 1) q))
    ∧ (∀ q : Fin 64, (iblk3 V c 2 t : Vec F S1x64 .f32) (ix2 (0 : Fin 1) q) = (V c main_v70 : S1x64.Idx → Elt F .f32) (ix2 (0 : Fin 1) q))
    ∧ (∀ q : Fin 64, (iblk3 V c 3 t : Vec F S1x64 .f32) (ix2 (0 : Fin 1) q) = (V c main_v71 : S1x64.Idx → Elt F .f32) (ix2 (0 : Fin 1) q))
    ∧ (∀ q : Fin 64, (iblk3 V c 4 t : Vec F S1x64 .f32) (ix2 (0 : Fin 1) q) = (V c main_v72 : S1x64.Idx → Elt F .f32) (ix2 (0 : Fin 1) q)) := by
  obtain ⟨-, -, e10, e11, e20, e21, e30, e31, e40, e41, -⟩ := idx_facts t
  refine ⟨fun q => ?_, fun q => ?_, fun q => ?_, fun q => ?_⟩
  · show V c main_v64 (((cfg3.win 1).blk t).view.emb (ix2 (0 : Fin 1) q)) = V c main_v64 (ix2 (0 : Fin 1) q)
    refine congrArg (V c main_v64) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  · show V c main_v70 (((cfg3.win 2).blk t).view.emb (ix2 (0 : Fin 1) q)) = V c main_v70 (ix2 (0 : Fin 1) q)
    refine congrArg (V c main_v70) (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega
  · show V c main_v71 (((cfg3.win 3).blk t).view.emb (ix2 (0 : Fin 1) q)) = V c main_v71 (ix2 (0 : Fin 1) q)
    refine congrArg (V c main_v71) (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  · show V c main_v72 (((cfg3.win 4).blk t).view.emb (ix2 (0 : Fin 1) q)) = V c main_v72 (ix2 (0 : Fin 1) q)
    refine congrArg (V c main_v72) (funext fun a => Fin.ext ?_)
    match a with
    | ⟨0, _⟩ => show win3_4.index t (0 : Fin 2) * 1 + 1 * 0 = 0; omega
    | ⟨1, _⟩ => show win3_4.index t (1 : Fin 2) * 64 + 1 * q.val = q.val; omega

/-- What point `t` writes back to the first output is block `t` of `normRelu` of the arrays as the
    region finds them. -/
theorem flushed7_eq (c : Dev nD) (t : Fin cfg3.N) :
    (dat3 V c).flushed 7 t = ((cfg3.win 7).blk t).view.read (Elt F)
      (normRelu (V c main_v62_0) (V c main_v64) (V c main_v70) (V c main_v71) (V c main_v72)) := by
  show (cfg3.win 7).cut (grid3.coords t) ((dat3 V c).after 7 t) = _
  rw [after3_7]
  unfold out3_7
  rw [View.canon_unit_zero hz]
  simp only [View.ld_unit_zero (S := S4000x64) hz, View.ld_unit_zero (S := S1x64) hz]
  obtain ⟨-, -, -, -, -, -, -, -, -, -, -, -, -, -, e70, e71, -⟩ := idx_facts t
  obtain ⟨r1, r2, r3, r4⟩ := iblk_rows V c t
  funext y
  show k3_pay2 (iblk3 V c 0 t) (iblk3 V c 1 t) (iblk3 V c 2 t) (iblk3 V c 3 t) (iblk3 V c 4 t) y
    = normRelu (V c main_v62_0) (V c main_v64) (V c main_v70) (V c main_v71) (V c main_v72)
        (((cfg3.win 7).blk t).view.emb y)
  refine point7_eq _ _ _ _ _ _ _ _ _ _ y _ ?_ r1 r2 r3 r4 ?_
  · refine iblk0_apply V c t y _ ?_ ?_
    · show win3_7.index t (0 : Fin 2) * 4000 + 1 * (y 0).val = 4000 * t.val + (y 0).val; omega
    · show win3_7.index t (1 : Fin 2) * 64 + 1 * (y 1).val = (y 1).val; omega
  · refine Fin.ext ?_
    show win3_7.index t (1 : Fin 2) * 64 + 1 * (y 1).val = (y 1).val
    omega

/-- An index of the first output array is in point `t`'s block iff each coordinate is in the block's range. -/
theorem mem_blk7 (t : Fin cfg3.N) (i : S100000x64.Idx) :
    i ∈ ((cfg3.win 7).blk t).view.set ↔ ∀ a : Fin 2, win3_7.index t a * S4000x64.size a ≤ (i a).val
      ∧ (i a).val < win3_7.index t a * S4000x64.size a + S4000x64.size a := by
  show i ∈ ((View.whole main_v74_0).slice (win3_7.rect t)).set ↔ _
  rw [View.set_slice_whole, Rect.mem_set_unit]
  exact Iff.rfl

/-- Row `r` lies in the block of point `r / 4000`: the 25 blocks cover the first output array. -/
theorem cover7 (i : S100000x64.Idx) :
    ∃ t : Fin cfg3.N, (cfg3.win 7).flush t = true ∧ i ∈ ((cfg3.win 7).blk t).view.set := by
  have hi0 : (i 0).val < 100000 := (i 0).isLt
  have hi1 : (i 1).val < 64 := (i 1).isLt
  have hN : cfg3.N = 25 := N_3
  let t : Fin cfg3.N := ⟨(i 0).val / 4000, by rw [hN]; omega⟩
  obtain ⟨-, -, -, -, -, -, -, -, -, -, -, -, -, -, e70, e71, -⟩ := idx_facts t
  have ht : t.val = (i 0).val / 4000 := rfl
  refine ⟨t, flush3_7 t, ?_⟩
  rw [mem_blk7]
  intro a
  match a with
  | ⟨0, _⟩ => show win3_7.index t (0 : Fin 2) * 4000 ≤ (i 0).val ∧ (i 0).val < win3_7.index t (0 : Fin 2) * 4000 + 4000; omega
  | ⟨1, _⟩ => show win3_7.index t (1 : Fin 2) * 64 ≤ (i 1).val ∧ (i 1).val < win3_7.index t (1 : Fin 2) * 64 + 64; omega

/-- After the region's 25 points the first output array is `normRelu` of the arrays as the region finds them. -/
theorem final7 (c : Dev nD) :
    (dat3 V c).arrAt 7 cfg3.N
      = normRelu (V c main_v62_0) (V c main_v64) (V c main_v70) (V c main_v71) (V c main_v72) :=
  (dat3 V c).arrAt_eq_of_cover 7 _ (fun t _ => flushed7_eq V c t) cover7

/-! ## The class probabilities (the region's second output), at the ideal values

The region's second output applies, to each row of normalised activations, a linear layer into two
classes and a softmax over them. A block product is read entry by entry only at the ideal values, so
this part is stated there. -/

section AtIdeal

/-- A vector cast to a one-column matrix reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix broadcast over `b` columns reads, at `(p, j)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-- The sum over the two columns, kept as a column and broadcast back, read at `(p, j)`. -/
theorem rowSum_apply (v : FVec Ideal S4000x2 .f32) (p : Fin 4000) (j : Fin 2) :
    broadcastTo S4000x2
        (shapeCast S4000x1
          (multiReduction .add [1] S4000 v 0x00000000#32 reduces_S4000x2_S4000 (.inl rfl) rfl)
          shapeCasts_S4000_S4000x1)
        broadcasts_S4000x1_S4000x2 (ix2 p j)
      = ∑ j' : Fin 2, v (ix2 p j') := by
  rw [broadcastTo_a1_ab_apply, shapeCast_a_a1_apply]
  refine (Ideal.multiReduction_add_single v 0x00000000#32 reduces_S4000x2_S4000 (.inl rfl) rfl (ix1 p)).trans ?_
  refine Finset.sum_congr rfl fun j' _ => congrArg v (funext fun ax => ?_)
  match ax with
  | ⟨0, _⟩ => exact Fin.ext rfl
  | ⟨1, _⟩ => exact Fin.ext rfl

/-- The maximum over the two columns, kept as a column and broadcast back, read at `(p, j)`: the fold of
    `max` over the two entries of row `p`, from the value of the accumulator's word (minus infinity). -/
theorem rowMax_apply (v : FVec Ideal S4000x2 .f32) (p : Fin 4000) (j : Fin 2) :
    broadcastTo S4000x2
        (shapeCast S4000x1
          (multiReduction .maximumf [1] S4000 v 0xFF800000#32 reduces_S4000x2_S4000 (.inl rfl) rfl)
          shapeCasts_S4000_S4000x1)
        broadcasts_S4000x1_S4000x2 (ix2 p j)
      = (Finset.univ : Finset (Fin 2)).fold max (Ideal.ofBits .f32 0xFF800000#32) (fun j' => v (ix2 p j')) := by
  rw [broadcastTo_a1_ab_apply, shapeCast_a_a1_apply]
  refine (Ideal.multiReduction_maximumf_single v 0xFF800000#32 reduces_S4000x2_S4000 (.inl rfl) rfl (ix1 p)).trans ?_
  refine congrArg (fun f => (Finset.univ : Finset (Fin 2)).fold max (Ideal.ofBits .f32 0xFF800000#32) f) (funext fun j' => ?_)
  refine congrArg v (funext fun ax => ?_)
  match ax with
  | ⟨0, _⟩ => exact Fin.ext rfl
  | ⟨1, _⟩ => exact Fin.ext rfl

/-- The block's linear layer: the block of activations times the transposed weight matrix onto a zero
    accumulator, plus the bias row broadcast over the block (the format changes are the identity at
    the ideal values). -/
def blockLogits (z : FVec Ideal S4000x64 .f32) (x5 : FVec Ideal S2x64 .f32) (x6 : FVec Ideal S1x2 .f32) :
    FVec Ideal S4000x2 .f32 :=
  addf
    (matmul dot_S4000x64_S64x2_S4000x2_1_0_0_1_n_n none (truncf .bf16 z bitsLt_bf16_f32)
      (transpose S64x2 [1, 0] (truncf .bf16 x5 bitsLt_bf16_f32) transposes_S2x64_p1_0_S64x2)
      (constant S4000x2 .f32 0x00000000#32))
    (broadcastTo S4000x2 (shapeCast S1x2 x6 shapeCasts_S1x2_S1x2) broadcasts_S1x2_S4000x2)

/-- Entry `(p, j)` of the block's linear layer: row `p` of the activations contracted with row `j` of
    the weight matrix, plus the bias of class `j`. -/
theorem blockLogits_apply (z : FVec Ideal S4000x64 .f32) (x5 : FVec Ideal S2x64 .f32) (x6 : FVec Ideal S1x2 .f32)
    (p : Fin 4000) (j : Fin 2) :
    blockLogits z x5 x6 (ix2 p j) = (∑ k : Fin 64, z (ix2 p k) * x5 (ix2 j k)) + x6 (ix2 (0 : Fin 1) j) := by
  unfold blockLogits
  show FloatOps.matmul dot_S4000x64_S64x2_S4000x2_1_0_0_1_n_n none (truncf .bf16 z bitsLt_bf16_f32)
        (transpose S64x2 [1, 0] (truncf .bf16 x5 bitsLt_bf16_f32) transposes_S2x64_p1_0_S64x2)
        (constant S4000x2 .f32 0x00000000#32) (ix2 p j)
      + broadcastTo S4000x2 (shapeCast S1x2 x6 shapeCasts_S1x2_S1x2) broadcasts_S1x2_S4000x2 (ix2 p j) = _
  rw [shapeCast_self, broadcastTo_1b_ab_apply, Ideal.matmul_constant_zero_apply,
    ← Equiv.sum_comp (contrEquiv1 dot_S4000x64_S64x2_S4000x2_1_0_0_1_n_n 64 rfl rfl).symm]
  refine congrArg (· + x6 (ix2 (0 : Fin 1) j)) (Finset.sum_congr rfl fun c _ => ?_)
  have c2 := contrEquiv1_symm_val dot_S4000x64_S64x2_S4000x2_1_0_0_1_n_n 64 rfl rfl c
  have l2 : dot_S4000x64_S64x2_S4000x2_1_0_0_1_n_n.lhsIdx (ix2 p j)
      ((contrEquiv1 dot_S4000x64_S64x2_S4000x2_1_0_0_1_n_n 64 rfl rfl).symm c) = ix2 p c := by
    funext ax; apply Fin.ext
    match ax with
    | ⟨0, _⟩ => simp [DotDims.lhsIdx, dot_S4000x64_S64x2_S4000x2_1_0_0_1_n_n]; rfl
    | ⟨1, _⟩ => simp [DotDims.lhsIdx, dot_S4000x64_S64x2_S4000x2_1_0_0_1_n_n]; exact c2
  have r2 : dot_S4000x64_S64x2_S4000x2_1_0_0_1_n_n.rhsIdx (ix2 p j)
      ((contrEquiv1 dot_S4000x64_S64x2_S4000x2_1_0_0_1_n_n 64 rfl rfl).symm c) = ix2 c j := by
    funext ax; apply Fin.ext
    match ax with
    | ⟨0, _⟩ => simp [DotDims.rhsIdx, dot_S4000x64_S64x2_S4000x2_1_0_0_1_n_n]; exact c2
    | ⟨1, _⟩ => simp [DotDims.rhsIdx, dot_S4000x64_S64x2_S4000x2_1_0_0_1_n_n]; rfl
  rw [l2, r2]
  show z (ix2 p c) * transpose S64x2 [1, 0] (truncf .bf16 x5 bitsLt_bf16_f32) transposes_S2x64_p1_0_S64x2 (ix2 c j) = _
  rw [transpose_ix2_apply]
  rfl

/-- What the body stores into the second output, before the final normalisation: the exponential of
    the block's linear layer shifted by its row maximum. -/
theorem pay3_eq (x0 : Vec Ideal S4000x64 .f32) (x1 x2 x3 x4 : Vec Ideal S1x64 .f32) (x5 : Vec Ideal S2x64 .f32)
    (x6 : Vec Ideal S1x2 .f32) :
    k3_pay3 x0 x1 x2 x3 x4 x5 x6
      = exp (subf (blockLogits (k3_pay2 x0 x1 x2 x3 x4) x5 x6)
          (broadcastTo S4000x2
            (shapeCast S4000x1
              (multiReduction .maximumf [1] S4000 (blockLogits (k3_pay2 x0 x1 x2 x3 x4) x5 x6) 0xFF800000#32
                reduces_S4000x2_S4000 (.inl rfl) rfl)
              shapeCasts_S4000_S4000x1)
            broadcasts_S4000x1_S4000x2)) := rfl

/-- The softmax over two classes, as the body computes it: the exponentials of the two values shifted
    by their maximum (a fold of `max` from minus infinity), each divided by the sum of the two. -/
def softmax2 (l : Fin 2 → EReal) (j : Fin 2) : EReal :=
  Ideal.div (Ideal.exp (l j - (Finset.univ : Finset (Fin 2)).fold max (Ideal.ofBits .f32 0xFF800000#32) l))
    (∑ j' : Fin 2, Ideal.exp (l j' - (Finset.univ : Finset (Fin 2)).fold max (Ideal.ofBits .f32 0xFF800000#32) l))

/-- The fold of `max` over two values from minus infinity is their maximum. -/
theorem fold_max_two (l : Fin 2 → EReal) :
    (Finset.univ : Finset (Fin 2)).fold max (Ideal.ofBits .f32 0xFF800000#32) l = max (l 0) (l 1) := by
  have hb : ∀ y : EReal, max y (Ideal.ofBits .f32 0xFF800000#32) = y := fun y => by
    rw [max_comm]; simp [Ideal.ofBits, Ideal.ieee]
  rw [show (Finset.univ : Finset (Fin 2)) = {0, 1} from by decide, Finset.fold_insert (by decide),
    Finset.fold_singleton, hb]

/-- The exponentials of the shifted linear layer at entry `(p, j)` of the block. -/
theorem pay3_apply (x0 : Vec Ideal S4000x64 .f32) (x1 x2 x3 x4 : Vec Ideal S1x64 .f32) (x5 : Vec Ideal S2x64 .f32)
    (x6 : Vec Ideal S1x2 .f32) (p : Fin 4000) (j : Fin 2) :
    k3_pay3 x0 x1 x2 x3 x4 x5 x6 (ix2 p j)
      = Ideal.exp (blockLogits (k3_pay2 x0 x1 x2 x3 x4) x5 x6 (ix2 p j)
          - (Finset.univ : Finset (Fin 2)).fold max (Ideal.ofBits .f32 0xFF800000#32)
              (fun j' => blockLogits (k3_pay2 x0 x1 x2 x3 x4) x5 x6 (ix2 p j'))) := by
  rw [pay3_eq]
  show Ideal.exp (blockLogits (k3_pay2 x0 x1 x2 x3 x4) x5 x6 (ix2 p j)
      - broadcastTo S4000x2
          (shapeCast S4000x1
            (multiReduction .maximumf [1] S4000 (blockLogits (k3_pay2 x0 x1 x2 x3 x4) x5 x6) 0xFF800000#32
              reduces_S4000x2_S4000 (.inl rfl) rfl)
            shapeCasts_S4000_S4000x1)
          broadcasts_S4000x1_S4000x2 (ix2 p j)) = _
  rw [rowMax_apply]

/-- The final normalisation at entry `(p, j)`: the entry divided by the sum of its row's two entries. -/
theorem pay1_apply (v : FVec Ideal S4000x2 .f32) (p : Fin 4000) (j : Fin 2) :
    k3_pay1 v (ix2 p j) = Ideal.div (v (ix2 p j)) (∑ j' : Fin 2, v (ix2 p j')) := by
  unfold k3_pay1
  show Ideal.div (v (ix2 p j))
      (broadcastTo S4000x2
        (shapeCast S4000x1
          (multiReduction .add [1] S4000 v 0x00000000#32 reduces_S4000x2_S4000 (.inl rfl) rfl)
          shapeCasts_S4000_S4000x1)
        broadcasts_S4000x1_S4000x2 (ix2 p j)) = _
  rw [rowSum_apply]

/-- The second output's payload at entry `(p, j)` of the block: the softmax, at class `j`, of row `p`'s
    two linear-layer values. -/
theorem pay8_apply (x0 : Vec Ideal S4000x64 .f32) (x1 x2 x3 x4 : Vec Ideal S1x64 .f32) (x5 : Vec Ideal S2x64 .f32)
    (x6 : Vec Ideal S1x2 .f32) (p : Fin 4000) (j : Fin 2) :
    k3_pay1 (k3_pay3 x0 x1 x2 x3 x4 x5 x6) (ix2 p j)
      = softmax2 (fun j' => (∑ k : Fin 64, k3_pay2 x0 x1 x2 x3 x4 (ix2 p k) * x5 (ix2 j' k))
          + x6 (ix2 (0 : Fin 1) j')) j := by
  rw [pay1_apply]
  simp only [pay3_apply, blockLogits_apply]
  rfl

/-- The linear layer of the whole arrays: for row `r` and class `j`, the row's 64 activations contracted
    with row `j` of the weight matrix, plus the bias of class `j`. -/
def logit (X : S100000x64.Idx → EReal) (W : S2x64.Idx → EReal) (b : S1x2.Idx → EReal) (r : Fin 100000)
    (j : Fin 2) : EReal :=
  (∑ k : Fin 64, X (ix2 r k) * W (ix2 j k)) + b (ix2 (0 : Fin 1) j)

/-- The second output as one function of the seven arrays: entry `(r, j)` is the softmax, at class `j`,
    of the linear layer applied to row `r` of the normalised activations. -/
def classProb (a0 : S100000x64.Idx → Elt Ideal .f32) (a1 a2 a3 a4 : S1x64.Idx → Elt Ideal .f32)
    (a5 : S2x64.Idx → Elt Ideal .f32) (a6 : S1x2.Idx → Elt Ideal .f32) : S100000x2.Idx → Elt Ideal .f32 :=
  fun i => softmax2 (logit (normRelu a0 a1 a2 a3 a4) a5 a6 (i 0 : Fin 100000)) (i 1 : Fin 2)

theorem classProb_apply (a0 : S100000x64.Idx → Elt Ideal .f32) (a1 a2 a3 a4 : S1x64.Idx → Elt Ideal .f32)
    (a5 : S2x64.Idx → Elt Ideal .f32) (a6 : S1x2.Idx → Elt Ideal .f32) (r : Fin 100000) (j : Fin 2) :
    classProb a0 a1 a2 a3 a4 a5 a6 (ix2 r j) = softmax2 (logit (normRelu a0 a1 a2 a3 a4) a5 a6 r) j := rfl

/-- One entry of one block of the second output. If row `y 0` of the block of pre-activations is row
    `k 0` of the array, the row blocks, the weight block and the bias block are their arrays, and `k` is
    in `y`'s column, then the payload at `y` is the function at `k`. -/
theorem point8_eq (x0 : Vec Ideal S4000x64 .f32) (x1 x2 x3 x4 : Vec Ideal S1x64 .f32) (x5 : Vec Ideal S2x64 .f32)
    (x6 : Vec Ideal S1x2 .f32)
    (A0 : S100000x64.Idx → Elt Ideal .f32) (A1 A2 A3 A4 : S1x64.Idx → Elt Ideal .f32)
    (A5 : S2x64.Idx → Elt Ideal .f32) (A6 : S1x2.Idx → Elt Ideal .f32)
    (y : S4000x2.Idx) (k : S100000x2.Idx)
    (h0 : ∀ q : Fin 64, x0 (ix2 (y 0 : Fin 4000) q) = A0 (ix2 (k 0 : Fin 100000) q))
    (h1 : ∀ q : Fin 64, x1 (ix2 (0 : Fin 1) q) = A1 (ix2 (0 : Fin 1) q))
    (h2 : ∀ q : Fin 64, x2 (ix2 (0 : Fin 1) q) = A2 (ix2 (0 : Fin 1) q))
    (h3 : ∀ q : Fin 64, x3 (ix2 (0 : Fin 1) q) = A3 (ix2 (0 : Fin 1) q))
    (h4 : ∀ q : Fin 64, x4 (ix2 (0 : Fin 1) q) = A4 (ix2 (0 : Fin 1) q))
    (h5 : ∀ (j : Fin 2) (q : Fin 64), x5 (ix2 j q) = A5 (ix2 j q))
    (h6 : ∀ j : Fin 2, x6 (ix2 (0 : Fin 1) j) = A6 (ix2 (0 : Fin 1) j))
    (hk : (k 1 : Fin 2) = (y 1 : Fin 2)) :
    k3_pay1 (k3_pay3 x0 x1 x2 x3 x4 x5 x6) y = classProb A0 A1 A2 A3 A4 A5 A6 k := by
  obtain ⟨p, j, rfl⟩ : ∃ (p : Fin 4000) (j : Fin 2), y = ix2 p j := ⟨y 0, y 1, eq_ix2 y⟩
  obtain ⟨r, j', rfl⟩ : ∃ (r : Fin 100000) (j' : Fin 2), k = ix2 r j' := ⟨k 0, k 1, eq_ix2 k⟩
  have h0' : ∀ q : Fin 64, x0 (ix2 p q) = A0 (ix2 r q) := h0
  obtain rfl : j' = j := hk
  have hx : ∀ c : Fin 64, k3_pay2 x0 x1 x2 x3 x4 (ix2 p c) = normRelu A0 A1 A2 A3 A4 (ix2 r c) := fun c => by
    rw [pay2_apply, normRelu_apply, h0' c, h1, h2, h3, h4]
  rw [pay8_apply, classProb_apply]
  simp only [hx, h5, h6]
  rfl

variable (VI : (c : Dev nD) → (b : Ref sig .tc) → Buf (Elt Ideal) ((c : Thread nD τ).loc b))

/-- The weight window's block at any point is its whole [2,64] array, and the bias window's its whole
    [1,2] array. -/
theorem iblk_weights (c : Dev nD) (t : Fin cfg3.N) :
    (∀ (j : Fin 2) (q : Fin 64), (iblk3 VI c 5 t : Vec Ideal S2x64 .f32) (ix2 j q)
        = (VI c main_arg12 : S2x64.Idx → Elt Ideal .f32) (ix2 j q))
    ∧ (∀ j : Fin 2, (iblk3 VI c 6 t : Vec Ideal S1x2 .f32) (ix2 (0 : Fin 1) j)
        = (VI c main_v73 : S1x2.Idx → Elt Ideal .f32) (ix2 (0 : Fin 1) j)) := by
  obtain ⟨-, -, -, -, -, -, -, -, -, -, e50, e51, e60, e61, -⟩ := idx_facts t
  refine ⟨fun j q => ?_, fun j => ?_⟩
  · show VI c main_arg12 (((cfg3.win 5).blk t).view.emb (ix2 j q)) = VI c main_arg12 (ix2 j q)
    refine congrArg (VI c main_arg12) (funext fun a => Fin.ext ?_)
    match a with
    | ⟨0, _⟩ => show win3_5.index t (0 : Fin 2) * 2 + 1 * j.val = j.val; omega
    | ⟨1, _⟩ => show win3_5.index t (1 : Fin 2) * 64 + 1 * q.val = q.val; omega
  · show VI c main_v73 (((cfg3.win 6).blk t).view.emb (ix2 (0 : Fin 1) j)) = VI c main_v73 (ix2 (0 : Fin 1) j)
    refine congrArg (VI c main_v73) (funext fun a => Fin.ext ?_)
    match a with
    | ⟨0, _⟩ => show win3_6.index t (0 : Fin 2) * 1 + 1 * 0 = 0; omega
    | ⟨1, _⟩ => show win3_6.index t (1 : Fin 2) * 2 + 1 * j.val = j.val; omega

/-- What point `t` writes back to the second output is block `t` of `classProb` of the arrays as the
    region finds them. -/
theorem flushed8_eq (c : Dev nD) (t : Fin cfg3.N) :
    (dat3 VI c).flushed 8 t = ((cfg3.win 8).blk t).view.read (Elt Ideal)
      (classProb (VI c main_v62_0) (VI c main_v64) (VI c main_v70) (VI c main_v71) (VI c main_v72)
        (VI c main_arg12) (VI c main_v73)) := by
  show (cfg3.win 8).cut (grid3.coords t) ((dat3 VI c).after 8 t) = _
  rw [after3_8]
  unfold out3_8
  rw [View.canon_unit_zero hz]
  simp only [View.ld_unit_zero (S := S4000x64) hz, View.ld_unit_zero (S := S1x64) hz,
    View.ld_unit_zero (S := S2x64) hz, View.ld_unit_zero (S := S1x2) hz]
  obtain ⟨-, -, -, -, -, -, -, -, -, -, -, -, -, -, -, -, e80, e81⟩ := idx_facts t
  obtain ⟨r1, r2, r3, r4⟩ := iblk_rows VI c t
  obtain ⟨r5, r6⟩ := iblk_weights VI c t
  funext y
  show k3_pay1 (k3_pay3 (iblk3 VI c 0 t) (iblk3 VI c 1 t) (iblk3 VI c 2 t) (iblk3 VI c 3 t) (iblk3 VI c 4 t)
        (iblk3 VI c 5 t) (iblk3 VI c 6 t)) y
    = classProb (VI c main_v62_0) (VI c main_v64) (VI c main_v70) (VI c main_v71) (VI c main_v72)
        (VI c main_arg12) (VI c main_v73) (((cfg3.win 8).blk t).view.emb y)
  refine point8_eq _ _ _ _ _ _ _ _ _ _ _ _ _ _ y _ (fun q => ?_) r1 r2 r3 r4 r5 r6 ?_
  · refine iblk0_apply VI c t _ _ ?_ rfl
    show win3_8.index t (0 : Fin 2) * 4000 + 1 * (y 0).val = 4000 * t.val + (y 0).val
    omega
  · refine Fin.ext ?_
    show win3_8.index t (1 : Fin 2) * 2 + 1 * (y 1).val = (y 1).val
    omega

/-- An index of the second output array is in point `t`'s block iff each coordinate is in the block's range. -/
theorem mem_blk8 (t : Fin cfg3.N) (i : S100000x2.Idx) :
    i ∈ ((cfg3.win 8).blk t).view.set ↔ ∀ a : Fin 2, win3_8.index t a * S4000x2.size a ≤ (i a).val
      ∧ (i a).val < win3_8.index t a * S4000x2.size a + S4000x2.size a := by
  show i ∈ ((View.whole main_v74_1).slice (win3_8.rect t)).set ↔ _
  rw [View.set_slice_whole, Rect.mem_set_unit]
  exact Iff.rfl

/-- Row `r` lies in the block of point `r / 4000`: the 25 blocks cover the second output array. -/
theorem cover8 (i : S100000x2.Idx) :
    ∃ t : Fin cfg3.N, (cfg3.win 8).flush t = true ∧ i ∈ ((cfg3.win 8).blk t).view.set := by
  have hi0 : (i 0).val < 100000 := (i 0).isLt
  have hi1 : (i 1).val < 2 := (i 1).isLt
  have hN : cfg3.N = 25 := N_3
  let t : Fin cfg3.N := ⟨(i 0).val / 4000, by rw [hN]; omega⟩
  obtain ⟨-, -, -, -, -, -, -, -, -, -, -, -, -, -, -, -, e80, e81⟩ := idx_facts t
  have ht : t.val = (i 0).val / 4000 := rfl
  refine ⟨t, flush3_8 t, ?_⟩
  rw [mem_blk8]
  intro a
  match a with
  | ⟨0, _⟩ => show win3_8.index t (0 : Fin 2) * 4000 ≤ (i 0).val ∧ (i 0).val < win3_8.index t (0 : Fin 2) * 4000 + 4000; omega
  | ⟨1, _⟩ => show win3_8.index t (1 : Fin 2) * 2 ≤ (i 1).val ∧ (i 1).val < win3_8.index t (1 : Fin 2) * 2 + 2; omega

/-- After the region's 25 points the second output array is `classProb` of the arrays as the region
    finds them. -/
theorem final8 (c : Dev nD) :
    (dat3 VI c).arrAt 8 cfg3.N
      = classProb (VI c main_v62_0) (VI c main_v64) (VI c main_v70) (VI c main_v71) (VI c main_v72)
          (VI c main_arg12) (VI c main_v73) :=
  (dat3 VI c).arrAt_eq_of_cover 8 _ (fun t _ => flushed8_eq VI c t) cover8

end AtIdeal

end Cert.KernelIdeal.Norm3

end
-- ==== Proof.KernelValue.lean ====
/-
  The idealized kernel's two results, and the two linear layers' pre-activations, in terms of the launch memory.

  Reading the boundary contents backwards: the results are region 3's outputs, which are the normalised second-layer
  pre-activation (and its two-class softmax); that pre-activation is region 2's output, the second linear layer applied to the
  neighbour sums of region 1's output; region 1's output is the normalised first-layer pre-activation; and that is region 0's
  output, the first linear layer applied to the neighbour sums of the input features. The batch statistics each normalisation
  uses are the column sums region 0 (region 2) accumulated, divided by the number of rows on the host.
-/
import proofs.«173987_j26422638805210_2_alg».proof.Proof.KernelChain
import proofs.«173987_j26422638805210_2_alg».proof.Proof.LinAccum0
import proofs.«173987_j26422638805210_2_alg».proof.Proof.LinAccum2
import proofs.«173987_j26422638805210_2_alg».proof.Proof.Norm1
import proofs.«173987_j26422638805210_2_alg».proof.Proof.Norm3

set_option maxRecDepth 16384

noncomputable section

namespace Cert.KernelIdeal.KernelValue

open Cert.KernelIdeal Cert.KernelIdeal.Gen Cert.KernelIdeal.Stretch
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The first layer's pre-activation, entry (r, f), from the launch memory. -/
theorem pre1_eq (r : Fin 100000) (f : Fin 128) :
    LinAccum0.h (V1 m ρ) c r f
      = LinAccum0.hEntry (neighbourSum64 (F := Ideal) (m ((c : Thread nD τ).loc main_arg0)) (srcIds (m ((c : Thread nD τ).loc main_arg1))) (dstIds (m ((c : Thread nD τ).loc main_arg1)))) (invDegree (F := Ideal) (dstIds (m ((c : Thread nD τ).loc main_arg1))))
          (m ((c : Thread nD τ).loc main_arg0)) (m ((c : Thread nD τ).loc main_arg2)) (shapeCast S1x128 (m ((c : Thread nD τ).loc main_arg3)) shapeCasts_S128_S1x128) (m ((c : Thread nD τ).loc main_arg4)) r f := by
  show LinAccum0.hEntry (V1 m ρ c main_v32) (V1 m ρ c main_v17) (V1 m ρ c main_arg0) (V1 m ρ c main_arg2) (V1 m ρ c main_v33) (V1 m ρ c main_arg4) r f = _
  rw [Chain.V1_v32, Chain.V1_v17, Chain.V1_arg0, Chain.V1_arg2, Chain.V1_v33, Chain.V1_arg4]

/-- Region 1's output: the first layer's pre-activation, normalised with its batch statistics, then max with 0. -/
theorem act1_eq :
    (dat1 (V3 m ρ) c).arrAt 5 cfg1.N
      = Norm1.normRelu (F := Ideal) (LinAccum0.hArr (V1 m ρ) c) (mean128 (F := Ideal) (LinAccum0.sumArr (V1 m ρ) c))
          (var128 (F := Ideal) (LinAccum0.sumArr (V1 m ρ) c) (LinAccum0.sumsqArr (V1 m ρ) c))
          (shapeCast S1x128 (m ((c : Thread nD τ).loc main_arg5)) shapeCasts_S128_S1x128) (shapeCast S1x128 (m ((c : Thread nD τ).loc main_arg6)) shapeCasts_S128_S1x128) := by
  rw [Norm1.final (V3 m ρ) c, Chain.V3_v34_0, Chain.V3_v36, Chain.V3_v42, Chain.V3_v43, Chain.V3_v44,
    LinAccum0.final_block, LinAccum0.final_sum, LinAccum0.final_sumsq]

/-- The second layer's pre-activation, entry (r, f), over region 1's output. -/
theorem pre2_eq (r : Fin 100000) (f : Fin 64) :
    LinAccum2.h (V5 m ρ) c r f
      = LinAccum2.hEntry (neighbourSum128 (F := Ideal) ((dat1 (V3 m ρ) c).arrAt 5 cfg1.N) (srcIds (m ((c : Thread nD τ).loc main_arg1))) (dstIds (m ((c : Thread nD τ).loc main_arg1)))) (invDegree (F := Ideal) (dstIds (m ((c : Thread nD τ).loc main_arg1))))
          ((dat1 (V3 m ρ) c).arrAt 5 cfg1.N) (m ((c : Thread nD τ).loc main_arg7)) (shapeCast S1x64 (m ((c : Thread nD τ).loc main_arg8)) shapeCasts_S64_S1x64) (m ((c : Thread nD τ).loc main_arg9)) r f := by
  show LinAccum2.hEntry (V5 m ρ c main_v60) (V5 m ρ c main_v17) (V5 m ρ c main_v45) (V5 m ρ c main_arg7) (V5 m ρ c main_v61) (V5 m ρ c main_arg9) r f = _
  rw [Chain.V5_v60, Chain.V5_v17, Chain.V5_v45, Chain.V5_arg7, Chain.V5_v61, Chain.V5_arg9]

/-- Result 0: the second layer's pre-activation, normalised with its batch statistics, then max with 0. -/
theorem result0_eq :
    W8 m ρ c (Proc.devRef .tc main_v74_0)
      = Norm3.normRelu (F := Ideal) (LinAccum2.hArr (V5 m ρ) c) (mean64 (F := Ideal) (LinAccum2.sumArr (V5 m ρ) c))
          (var64 (F := Ideal) (LinAccum2.sumArr (V5 m ρ) c) (LinAccum2.sumsqArr (V5 m ρ) c))
          (shapeCast S1x64 (m ((c : Thread nD τ).loc main_arg10)) shapeCasts_S64_S1x64) (shapeCast S1x64 (m ((c : Thread nD τ).loc main_arg11)) shapeCasts_S64_S1x64) := by
  rw [Chain.W8_v74_0, Norm3.final7 (V7 m ρ) c, Chain.V7_v62_0, Chain.V7_v64, Chain.V7_v70, Chain.V7_v71, Chain.V7_v72,
    LinAccum2.final_block, LinAccum2.final_sum, LinAccum2.final_sumsq]

/-- Result 1: the two-class softmax of the final linear map of result 0. -/
theorem result1_eq :
    W8 m ρ c (Proc.devRef .tc main_v74_1)
      = Norm3.classProb (LinAccum2.hArr (V5 m ρ) c) (mean64 (F := Ideal) (LinAccum2.sumArr (V5 m ρ) c))
          (var64 (F := Ideal) (LinAccum2.sumArr (V5 m ρ) c) (LinAccum2.sumsqArr (V5 m ρ) c))
          (shapeCast S1x64 (m ((c : Thread nD τ).loc main_arg10)) shapeCasts_S64_S1x64) (shapeCast S1x64 (m ((c : Thread nD τ).loc main_arg11)) shapeCasts_S64_S1x64)
          (m ((c : Thread nD τ).loc main_arg12)) (shapeCast S1x2 (m ((c : Thread nD τ).loc main_arg13)) shapeCasts_S2_S1x2) := by
  rw [Chain.W8_v74_1, Norm3.final8 (V7 m ρ) c, Chain.V7_v62_0, Chain.V7_v64, Chain.V7_v70, Chain.V7_v71, Chain.V7_v72, Chain.V7_arg12, Chain.V7_v73,
    LinAccum2.final_block, LinAccum2.final_sum, LinAccum2.final_sumsq]

end Cert.KernelIdeal.KernelValue

end
-- ==== Proof.HostReal.lean ====
/-
  Host operations that keep real numbers real.

  An extended real is "a real number" when it equals the coercion of some r : ℝ. The sum of two real numbers is
  one (the coercion ℝ → EReal is additive), hence so is every finite sum; the product likewise; the maximum of
  two is one of them; and a quotient by a nonzero real number x / y = x · y⁻¹ is one. Each host operation below
  produces, at every index, such a combination of entries of its operands.
-/
import Idealize.ShloMosaic.PureOps.Ideal
import Idealize.ShloMosaic.PureOps.Ideal.Laws
import Idealize.ShloMosaic.PureOps.Contract
import Idealize.ShloMosaic.Lib.ValueIdx
import Idealize.ShloMosaic.Lib.Affine
import Idealize.ShloMosaic.Lib.IdealHost

noncomputable section

namespace Cert.Proof.HostReal

open Idealize.ShloMosaic
open scoped BigOperators

/-! ## Sums, products, maxima and quotients of real numbers -/

/-- The sum of two real numbers is a real number. -/
theorem add_real {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- The product of two real numbers is a real number. -/
theorem mul_real {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- A finite sum of real numbers is a real number (induction on the index set). -/
theorem sum_real {ι : Type} (S : Finset ι) (f : ι → EReal) :
    (∀ i ∈ S, ∃ r : ℝ, f i = (r : EReal)) → ∃ r : ℝ, ∑ i ∈ S, f i = (r : EReal) := by
  classical
  refine Finset.induction_on S (fun _ => ⟨0, by simp⟩) ?_
  intro a T ha ih hf
  rw [Finset.sum_insert ha]
  exact add_real (hf a (Finset.mem_insert_self a T)) (ih fun i hi => hf i (Finset.mem_insert_of_mem hi))

/-! ## Accumulating scatter and gather -/

/-- An accumulating scatter is, at every index, the operand's entry plus a finite sum of update entries. -/
theorem scatterAdd_real {s si u : Shape} {w : Nat} {φ : FTy} (d : ScatterDims s si u) (x : FVec Ideal s φ)
    (idx : IVec si w) (upd : FVec Ideal u φ) (hx : ∀ i, ∃ r : ℝ, x i = (r : EReal))
    (hu : ∀ j, ∃ r : ℝ, upd j = (r : EReal)) (i : s.Idx) :
    ∃ r : ℝ, Host.scatterAdd d x idx upd i = (r : EReal) :=
  add_real (hx i) (sum_real _ upd fun j _ => hu j)

/-- Every entry of a gather is an entry of its operand (the start indices are clamped into range; there is no
    fill value). -/
theorem gather_real {s si t : Shape} {w : Nat} (g : GatherDims s si t) (x : s.Idx → EReal) (idx : IVec si w)
    (hx : ∀ i, ∃ r : ℝ, x i = (r : EReal)) (j : t.Idx) : ∃ r : ℝ, Host.gather g x idx j = (r : EReal) :=
  hx _

/-! ## The degree clamped below by one, and the quotient -/

/-- A maximum with one is at least one, so it is not zero. -/
theorem max_one_ne_zero (z : EReal) : max z 1 ≠ 0 :=
  (lt_of_lt_of_le zero_lt_one (le_max_right z 1)).ne'

/-- The maximum of a real number and one is a real number, at least one. -/
theorem max_one_real {z : EReal} (hz : ∃ r : ℝ, z = (r : EReal)) : ∃ r : ℝ, max z 1 = (r : EReal) ∧ 1 ≤ r := by
  obtain ⟨rz, rfl⟩ := hz
  rcases le_total rz 1 with h | h
  · exact ⟨1, (max_eq_right (by exact_mod_cast h)).trans EReal.coe_one.symm, le_rfl⟩
  · exact ⟨rz, max_eq_left (by exact_mod_cast h), h⟩

/-- The maximum of two real numbers is a real number. -/
theorem max_real {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The quotient of a real number by a nonzero real number: x / y = x · y⁻¹, computed in ℝ. -/
theorem div_coe_coe (x y : ℝ) (hy : y ≠ 0) : Ideal.div (x : EReal) (y : EReal) = ((x / y : ℝ) : EReal) := by
  rw [Ideal.div_coe hy, ← EReal.coe_mul, mul_one_div]

/-- The quotient of a real number by a nonzero real number is a real number. -/
theorem div_real {a b : EReal} (ha : ∃ r : ℝ, a = (r : EReal)) (hb : ∃ r : ℝ, b = (r : EReal)) (hb0 : b ≠ 0) :
    ∃ r : ℝ, Ideal.div a b = (r : EReal) := by
  obtain ⟨ra, rfl⟩ := ha
  obtain ⟨rb, rfl⟩ := hb
  exact ⟨ra / rb, div_coe_coe ra rb (by exact_mod_cast hb0)⟩

/-- The same for the host's quotient, which at the extended reals is that quotient. -/
theorem hostDivf_real {φ : FTy} {a b : EReal} (ha : ∃ r : ℝ, a = (r : EReal)) (hb : ∃ r : ℝ, b = (r : EReal))
    (hb0 : b ≠ 0) : ∃ r : ℝ, FloatOps.hostDivf (F := Ideal) (φ := φ) a b = (r : EReal) :=
  div_real ha hb hb0

/-- The same for the vector unit's quotient. -/
theorem divf_real {φ : FTy} {a b : EReal} (ha : ∃ r : ℝ, a = (r : EReal)) (hb : ∃ r : ℝ, b = (r : EReal))
    (hb0 : b ≠ 0) : ∃ r : ℝ, FloatOps.divf (F := Ideal) (φ := φ) a b = (r : EReal) :=
  div_real ha hb hb0

/-- A real number divided by the maximum of a real number and one is a real number. -/
theorem div_max_one_real {a z : EReal} (ha : ∃ r : ℝ, a = (r : EReal)) (hz : ∃ r : ℝ, z = (r : EReal)) :
    ∃ r : ℝ, Ideal.div a (max z 1) = (r : EReal) := by
  obtain ⟨rm, hm, _⟩ := max_one_real hz
  exact div_real ha ⟨rm, hm⟩ (max_one_ne_zero z)

/-! ## Contractions and sums along axes -/

/-- An entry of the host's general dot product is a finite sum of products of entries of its operands. -/
theorem dotGeneral_real {sl sr so : Shape} {φ₁ φ₂ : FTy} (d : DotDims sl sr so) (prec : Option ContractPrecision)
    (sched : HostSchedule) (lhs : FVec Ideal sl φ₁) (rhs : FVec Ideal sr φ₂)
    (hl : ∀ i, ∃ r : ℝ, lhs i = (r : EReal)) (hr : ∀ i, ∃ r : ℝ, rhs i = (r : EReal)) (j : so.Idx) :
    ∃ r : ℝ, FloatOps.dotGeneral (F := Ideal) d prec sched lhs rhs j = (r : EReal) := by
  rw [Ideal.dotGeneral_apply]
  exact sum_real _ _ fun k _ => mul_real (hl _) (hr _)

/-- An entry of the matrix unit's product is the accumulator's entry plus such a sum. -/
theorem matmul_real {sl sr so : Shape} {φ₁ φ₂ : FTy} (d : DotDims sl sr so) (prec : Option ContractPrecision)
    (lhs : FVec Ideal sl φ₁) (rhs : FVec Ideal sr φ₂) (acc : FVec Ideal so .f32)
    (hl : ∀ i, ∃ r : ℝ, lhs i = (r : EReal)) (hr : ∀ i, ∃ r : ℝ, rhs i = (r : EReal))
    (hacc : ∀ j, ∃ r : ℝ, acc j = (r : EReal)) (j : so.Idx) :
    ∃ r : ℝ, FloatOps.matmul (F := Ideal) d prec lhs rhs acc j = (r : EReal) := by
  rw [Ideal.matmul_apply]
  exact add_real (hacc j) (sum_real _ _ fun k _ => mul_real (hl _) (hr _))

/-- Into the zero accumulator: just the sum. -/
theorem matmul_zero_real {sl sr so : Shape} {φ₁ φ₂ : FTy} (d : DotDims sl sr so) (prec : Option ContractPrecision)
    (lhs : FVec Ideal sl φ₁) (rhs : FVec Ideal sr φ₂)
    (hl : ∀ i, ∃ r : ℝ, lhs i = (r : EReal)) (hr : ∀ i, ∃ r : ℝ, rhs i = (r : EReal)) (j : so.Idx) :
    ∃ r : ℝ, FloatOps.matmul (F := Ideal) d prec lhs rhs (constant so .f32 0x00000000#32) j = (r : EReal) := by
  rw [Ideal.matmul_constant_zero_apply]
  exact sum_real _ _ fun k _ => mul_real (hl _) (hr _)

/-- The exact contraction itself, with any real accumulator. -/
theorem ideal_matmul_real {sl sr so : Shape} (d : DotDims sl sr so) (lhs : sl.Idx → EReal) (rhs : sr.Idx → EReal)
    (acc : so.Idx → EReal) (hl : ∀ i, ∃ r : ℝ, lhs i = (r : EReal)) (hr : ∀ i, ∃ r : ℝ, rhs i = (r : EReal))
    (hacc : ∀ j, ∃ r : ℝ, acc j = (r : EReal)) (j : so.Idx) : ∃ r : ℝ, Ideal.matmul d lhs rhs acc j = (r : EReal) :=
  add_real (hacc j) (sum_real _ _ fun k _ => mul_real (hl _) (hr _))

/-- A sum along axes is, at every index, the initial value plus a finite sum of entries. -/
theorem hostReduceAdd_real {s t : Shape} {axes : List (Fin s.rank)} (h : s.ReducesTo axes t) (x : s.Idx → EReal)
    (init : EReal) (hx : ∀ i, ∃ r : ℝ, x i = (r : EReal)) (hi : ∃ r : ℝ, init = (r : EReal)) (j : t.Idx) :
    ∃ r : ℝ, Ideal.hostReduceAdd h x init j = (r : EReal) :=
  add_real hi (sum_real _ x fun i _ => hx i)

/-- The same for the host's reduction as a program states it, the initial value read off a one-entry array. -/
theorem reduceAdd_real {s t u : Shape} {φ : FTy} {axes : List (Fin s.rank)} (x : FVec Ideal s φ) (init : FVec Ideal u φ)
    (h : s.ReducesTo axes t) (hu : 0 < u.numel) (hx : ∀ i, ∃ r : ℝ, x i = (r : EReal))
    (hi : ∀ k, ∃ r : ℝ, init k = (r : EReal)) (j : t.Idx) :
    ∃ r : ℝ, Host.reduceAdd (F := Ideal) x init h hu j = (r : EReal) :=
  add_real (hi _) (sum_real _ x fun i _ => hx i)

/-! ## The constants zero and one -/

/-- The pattern 0x00000000 denotes the real number 0. -/
theorem ofBits_zero_real : ∃ r : ℝ, Ideal.ofBits .f32 0x00000000#32 = (r : EReal) :=
  ⟨0, Ideal.ofBits_zero_f32.trans EReal.coe_zero.symm⟩

/-- The pattern 0x3F800000 denotes the real number 1. -/
theorem ofBits_one_real : ∃ r : ℝ, Ideal.ofBits .f32 0x3F800000#32 = (r : EReal) :=
  ⟨1, Ideal.ofBits_one_f32.trans EReal.coe_one.symm⟩

/-! ## Negative ids wrap around; non-negative ids are left alone -/

/-- The host replaces an id d by d + n where d < 0 (signed) and keeps it elsewhere. Where every id is non-negative
    the test is never 1, so the array is unchanged. -/
theorem wrap_of_nonneg {s : Shape} (D : IVec s 32) (n : BitVec 32)
    (hb : (⟨0, ![]⟩ : Shape).BroadcastsInDim s (![] : Fin 0 → Fin s.rank)) (h : ∀ e, 0 ≤ (D e).toInt) :
    select (cmpi .slt D (broadcastInDim s ![] hb (constantI ⟨0, ![]⟩ 32 0#32)))
      (addi D (broadcastInDim s ![] hb (constantI ⟨0, ![]⟩ 32 n))) D = D := by
  funext e
  show Scalar.select (IntOp.cmpi .slt (D e) 0#32) (IntOp.addi (D e) n) (D e) = D e
  have hc : IntOp.cmpi .slt (D e) 0#32 = 0#1 :=
    ValueIdx.eq_zero_of_ne_one fun hc => absurd (IntOp.cmpi_slt.1 hc) (not_lt.2 (h e))
  rw [hc, ValueIdx.select_zero]

end Cert.Proof.HostReal

end
-- ==== Proof.BridgeLin.lean ====
/-
  The bridge between the kernel's host arithmetic and the reference's, for the two linear layers.

  Both programs aggregate, for every node, the features of its in-neighbours: gather the source node's features
  along every edge and add them up at the destination node. They differ in two places. The kernel wraps a
  negative destination id around before adding; the reference does not: where no destination id is negative the
  wrap is the identity and the two index arrays coincide. And the kernel multiplies the sum by 1 / max(degree, 1)
  where the reference divides by max(degree, 1): the degree is a finite sum of ones, a real number, so max(degree, 1)
  is a real number at least one and the two are the same product with the real number 1 / max(degree, 1).
-/
import proofs.«173987_j26422638805210_2_alg».proof.Proof.RefRead
import proofs.«173987_j26422638805210_2_alg».proof.Proof.HostStretch
import proofs.«173987_j26422638805210_2_alg».proof.Proof.HostReal
import Idealize.ShloMosaic.Lib.ValueLayout
import Idealize.ShloMosaic.Lib.Pipeline.Value
import Idealize.ShloMosaic.Lib.IdealHost

noncomputable section
namespace Cert.Proof.BridgeLin

open Idealize.ShloMosaic Idealize.ShloMosaic.ValueIdx Cert.KernelIdeal Cert.KernelIdeal.Gen Cert.KernelIdeal.Stretch
open scoped BigOperators

/-! ## Entry-by-entry readings at any shape -/

/-- The constant 1 divided by the maximum with the constant 1, entry by entry. -/
theorem div_one_max_apply {s : Shape} (hb : (⟨0, ![]⟩ : Shape).BroadcastsInDim s (![] : Fin 0 → Fin s.rank))
    (d : FVec Ideal s .f32) (i : s.Idx) :
    Host.divf (broadcastInDim s ![] hb (constant (F := Ideal) ⟨0, ![]⟩ .f32 0x3F800000#32))
      (maximumf d (broadcastInDim s ![] hb (constant (F := Ideal) ⟨0, ![]⟩ .f32 0x3F800000#32))) i
    = Ideal.div 1 (max (d i) 1) := by
  show Ideal.div (Ideal.ofBits .f32 0x3F800000#32) (max (d i) (Ideal.ofBits .f32 0x3F800000#32)) = _
  rw [Ideal.ofBits_one_f32]

/-- A vector laid out as a column: row r of the column is entry r. -/
theorem shapeCast_col_apply {a : ℕ} {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- Every entry of the constant array 0 is the real number 0. -/
theorem zeros_real {s : Shape} (hb : (⟨0, ![]⟩ : Shape).BroadcastsInDim s (![] : Fin 0 → Fin s.rank)) (j : s.Idx) :
    ∃ r : ℝ, broadcastInDim s ![] hb (constant (F := Ideal) ⟨0, ![]⟩ .f32 0x00000000#32) j = (r : EReal) :=
  Cert.Proof.HostReal.ofBits_zero_real

/-- Every entry of the constant array 1 is the real number 1. -/
theorem ones_real {s : Shape} (hb : (⟨0, ![]⟩ : Shape).BroadcastsInDim s (![] : Fin 0 → Fin s.rank)) (j : s.Idx) :
    ∃ r : ℝ, broadcastInDim s ![] hb (constant (F := Ideal) ⟨0, ![]⟩ .f32 0x3F800000#32) j = (r : EReal) :=
  Cert.Proof.HostReal.ofBits_one_real

/-- Multiplying by 1 / d is dividing by d, for d = max z 1 with z a real number: d is then a real number at least
    one, and both sides are the product with the real number 1 / d. -/
theorem mul_inv_max_one (a z : EReal) (hz : ∃ r : ℝ, z = (r : EReal)) :
    a * Ideal.div 1 (max z 1) = Ideal.div a (max z 1) := by
  obtain ⟨rd, hd, h1⟩ := Cert.Proof.HostReal.max_one_real hz
  have hne : rd ≠ 0 := by intro h0; rw [h0] at h1; exact absurd h1 (by norm_num)
  rw [hd, Ideal.div_coe hne, Ideal.div_coe hne, one_mul]

/-! ## Non-negative destination ids are not changed by the wrap -/

/-- Where every destination id is non-negative, preparing the ids for indexing only lays them out as a column. -/
theorem wrapIds_dst (e : IVec S2x1200000 32) (hdst : ∀ j, 0 ≤ (dstIds e j).toInt) :
    wrapIds (dstIds e) = broadcastInDim S1200000x1 ![0] bcast_S1200000_S1200000x1_0 (dstIds e) := by
  unfold wrapIds
  rw [Cert.Proof.HostReal.wrap_of_nonneg (dstIds e) 100000#32 bcast_S_S1200000 hdst]

/-! ## The kernel's host arrays hold real numbers -/

/-- Every degree is a real number: a finite sum of ones, from zero. -/
theorem degree_real (D : IVec S1200000 32) (i : S100000.Idx) : ∃ z : ℝ, degree (F := Ideal) D i = (z : EReal) :=
  Cert.Proof.HostReal.scatterAdd_real scatter_S100000_S1200000x1_S1200000_n_0_0_1 _ (wrapIds D) _
    (zeros_real bcast_S_S100000) (ones_real bcast_S_S1200000) i

/-- Row r of the [100000, 1] column 1 / max(degree, 1) is 1 / max(degree r, 1). -/
theorem invDegree_apply (D : IVec S1200000 32) (r : Fin 100000) (u : Fin 1) :
    invDegree (F := Ideal) D (ix2 r u) = Ideal.div 1 (max (degree (F := Ideal) D (ix1 r)) 1) :=
  (shapeCast_col_apply _ shapeCasts_S100000_S100000x1 r u).trans
    (div_one_max_apply bcast_S_S100000 (degree (F := Ideal) D) (ix1 r))

/-- The sums of real neighbour features are real numbers. -/
theorem neighbourSum64_real (x : FVec Ideal S100000x64 .f32) (src dst : IVec S1200000 32)
    (hx : ∀ i, ∃ r : ℝ, x i = (r : EReal)) : ∀ i, ∃ r : ℝ, neighbourSum64 x src dst i = (r : EReal) :=
  Cert.Proof.HostReal.scatterAdd_real scatter_S100000x64_S1200000x1_S1200000x64_1_0_0_1 _ (wrapIds dst) _
    (zeros_real bcast_S_S100000x64)
    (Cert.Proof.HostReal.gather_real gather_S100000x64_S1200000x1_S1200000x64_1_0_n_n_0_1_164 x (wrapIds src) hx)

theorem neighbourSum128_real (y : FVec Ideal S100000x128 .f32) (src dst : IVec S1200000 32)
    (hy : ∀ i, ∃ r : ℝ, y i = (r : EReal)) : ∀ i, ∃ r : ℝ, neighbourSum128 y src dst i = (r : EReal) :=
  Cert.Proof.HostReal.scatterAdd_real scatter_S100000x128_S1200000x1_S1200000x128_1_0_0_1 _ (wrapIds dst) _
    (zeros_real bcast_S_S100000x128)
    (Cert.Proof.HostReal.gather_real gather_S100000x128_S1200000x1_S1200000x128_1_0_n_n_0_1_1128 y (wrapIds src) hy)

/-- The reciprocal of the clamped degree is a real number at every index of the column. -/
theorem invDegree_real (dst : IVec S1200000 32) : ∀ i, ∃ r : ℝ, invDegree (F := Ideal) dst i = (r : EReal) := by
  intro i
  obtain ⟨r, u, rfl⟩ : ∃ (r : Fin 100000) (u : Fin 1), i = ix2 r u := ⟨i 0, i 1, eq_ix2 i⟩
  rw [invDegree_apply]
  exact Cert.Proof.HostReal.div_max_one_real ⟨1, EReal.coe_one.symm⟩ (degree_real dst _)

/-- The bias laid out as one row, read at column f. -/
theorem bias128_apply (bl : FVec Ideal S128 .f32) (f : Fin 128) :
    (shapeCast S1x128 bl shapeCasts_S128_S1x128) (ix2 (0 : Fin 1) f) = bl (ix1 f) :=
  shapeCast_a_1a_apply bl shapeCasts_S128_S1x128 (0 : Fin 1) f

theorem bias64_apply (bl : FVec Ideal S64 .f32) (f : Fin 64) :
    (shapeCast S1x64 bl shapeCasts_S64_S1x64) (ix2 (0 : Fin 1) f) = bl (ix1 f) :=
  shapeCast_a_1a_apply bl shapeCasts_S64_S1x64 (0 : Fin 1) f

/-! ## The kernel's host terms are the reference's

The reference adds the gathered features up at the destination ids as they are; the kernel first wraps negative
destination ids around. Under the hypothesis that no destination id is negative the two index arrays are the same,
and the kernel's sums of neighbour features and its degrees are the reference's, term for term. -/

section Reference

open Cert.ReferenceIdeal.Read

/-- The first layer's neighbour sums are the reference's. -/
theorem neighbourSum64_eq_ref (x : FVec Ideal S100000x64 .f32) (e : IVec S2x1200000 32)
    (hdst : ∀ j, 0 ≤ (dstIds e j).toInt) :
    neighbourSum64 (F := Ideal) x (srcIds e) (dstIds e) = val_main_v13 (F := Ideal) x e := by
  unfold neighbourSum64
  rw [wrapIds_dst e hdst]
  rfl

/-- The degrees are the reference's (the reference computes them once per layer: the two are the same term). -/
theorem degree_eq_ref (e : IVec S2x1200000 32) (hdst : ∀ j, 0 ≤ (dstIds e j).toInt) :
    degree (F := Ideal) (dstIds e) = val_main_v17 (F := Ideal) e := by
  unfold degree
  rw [wrapIds_dst e hdst]
  rfl

theorem degree_eq_ref2 (e : IVec S2x1200000 32) (hdst : ∀ j, 0 ≤ (dstIds e j).toInt) :
    degree (F := Ideal) (dstIds e) = val_main_v70 (F := Ideal) e := by
  unfold degree
  rw [wrapIds_dst e hdst]
  rfl

/-- The reference's degrees are real numbers. -/
theorem ref_degree_real (e : IVec S2x1200000 32) (hdst : ∀ j, 0 ≤ (dstIds e j).toInt) (r : Fin 100000) :
    ∃ z : ℝ, val_main_v17 (F := Ideal) e (ix1 r) = (z : EReal) := by
  rw [← degree_eq_ref e hdst]
  exact degree_real _ _

theorem ref_degree_real2 (e : IVec S2x1200000 32) (hdst : ∀ j, 0 ≤ (dstIds e j).toInt) (r : Fin 100000) :
    ∃ z : ℝ, val_main_v70 (F := Ideal) e (ix1 r) = (z : EReal) := by
  rw [← degree_eq_ref2 e hdst]
  exact degree_real _ _

/-- The kernel's reciprocal clamped degree, in the reference's degree. -/
theorem invDegree_eq_ref (e : IVec S2x1200000 32) (hdst : ∀ j, 0 ≤ (dstIds e j).toInt) (r : Fin 100000) :
    invDegree (F := Ideal) (dstIds e) (ix2 r (0 : Fin 1))
      = Ideal.div 1 (max (val_main_v17 (F := Ideal) e (ix1 r)) 1) := by
  rw [invDegree_apply, degree_eq_ref e hdst]

theorem invDegree_eq_ref2 (e : IVec S2x1200000 32) (hdst : ∀ j, 0 ≤ (dstIds e j).toInt) (r : Fin 100000) :
    invDegree (F := Ideal) (dstIds e) (ix2 r (0 : Fin 1))
      = Ideal.div 1 (max (val_main_v70 (F := Ideal) e (ix1 r)) 1) := by
  rw [invDegree_apply, degree_eq_ref2 e hdst]

/-- The reference's clamped degree at node r. -/
theorem ref_v19_apply (e : IVec S2x1200000 32) (r : Fin 100000) :
    val_main_v19 (F := Ideal) e (ix1 r) = max (val_main_v17 (F := Ideal) e (ix1 r)) 1 := by
  rw [val_main_v19_apply, val_main_v18_apply, val_main_cst_3_apply, Ideal.maximumf_def, Ideal.ofBits_def,
    Ideal.ofBits_one_f32]

theorem ref_v72_apply (e : IVec S2x1200000 32) (r : Fin 100000) :
    val_main_v72 (F := Ideal) e (ix1 r) = max (val_main_v70 (F := Ideal) e (ix1 r)) 1 := by
  rw [val_main_v72_apply, val_main_v71_apply, val_main_cst_14_apply, Ideal.maximumf_def, Ideal.ofBits_def,
    Ideal.ofBits_one_f32]

/-! ## The first linear layer, entry by entry

Entry (r, f) of the layer is ∑ₖ mean(r, k) · Wl(f, k) + bl(f) + ∑ₖ x(r, k) · Wr(f, k), where mean(r, k) is the
neighbour sum at (r, k) divided by the clamped degree of r. The kernel multiplies by the reciprocal instead; the
degree is a real number, so the two agree. -/

theorem layer1_entry (x : FVec Ideal S100000x64 .f32) (e : IVec S2x1200000 32) (wl wr : FVec Ideal S128x64 .f32)
    (bl : FVec Ideal S128 .f32) (hdst : ∀ j, 0 ≤ (dstIds e j).toInt) (r : Fin 100000) (f : Fin 128) :
    (∑ k : Fin 64, (neighbourSum64 (F := Ideal) x (srcIds e) (dstIds e) (ix2 r k)
          * invDegree (F := Ideal) (dstIds e) (ix2 r (0 : Fin 1))) * wl (ix2 f k))
        + (shapeCast S1x128 bl shapeCasts_S128_S1x128) (ix2 (0 : Fin 1) f)
        + ∑ k : Fin 64, x (ix2 r k) * wr (ix2 f k)
      = val_main_v30 (F := Ideal) x e wl bl wr (ix2 r f) := by
  have hz := ref_degree_real e hdst r
  rw [val_main_v30_apply, val_main_v27_apply, val_main_v24_apply, val_main_v26_apply, val_main_v25_apply,
    val_main_v29_apply, Ideal.addf_def, Ideal.addf_def, bias128_apply]
  refine congrArg₂ (· + ·) (congrArg₂ (· + ·) (Finset.sum_congr rfl fun k _ => ?_) ?_)
    (Finset.sum_congr rfl fun k _ => ?_)
  · have i1 : lidx_main_v24 (ix2 r f) k = ix2 r k := funext fun a => Fin.ext (by match a with | ⟨0, _⟩ => rfl | ⟨1, _⟩ => rfl)
    have i2 : idx_main_v20 (idx_main_v21 (ix2 r k)) = ix1 r := funext fun a => Fin.ext (by match a with | ⟨0, _⟩ => rfl)
    have i3 : idx_main_v23 (ridx_main_v24 (ix2 r f) k) = ix2 f k := funext fun a => Fin.ext (by match a with | ⟨0, _⟩ => rfl | ⟨1, _⟩ => rfl)
    rw [val_main_v22_apply, val_main_v21_apply, val_main_v20_apply, val_main_v23_apply, Ideal.hostDivf_def,
      i1, i2, i3, ref_v19_apply, ← neighbourSum64_eq_ref x e hdst, invDegree_eq_ref e hdst,
      mul_inv_max_one _ _ hz]
  · exact congrArg bl (funext fun a => Fin.ext (by match a with | ⟨0, _⟩ => rfl))
  · have j1 : lidx_main_v29 (ix2 r f) k = ix2 r k := funext fun a => Fin.ext (by match a with | ⟨0, _⟩ => rfl | ⟨1, _⟩ => rfl)
    have j3 : idx_main_v28 (ridx_main_v29 (ix2 r f) k) = ix2 f k := funext fun a => Fin.ext (by match a with | ⟨0, _⟩ => rfl | ⟨1, _⟩ => rfl)
    rw [val_main_v28_apply, j1, j3]

/-! ## The second layer, over any array y that is the reference's first-layer output -/

/-- The second layer's neighbour sums are the reference's. -/
theorem neighbourSum128_eq_ref (x : FVec Ideal S100000x64 .f32) (e : IVec S2x1200000 32)
    (w1 : FVec Ideal S128x64 .f32) (b1 : FVec Ideal S128 .f32) (w2 : FVec Ideal S128x64 .f32)
    (g1 be1 : FVec Ideal S128 .f32) (y : FVec Ideal S100000x128 .f32)
    (hy : y = val_main_v56 (F := Ideal) x e w1 b1 w2 g1 be1) (hdst : ∀ j, 0 ≤ (dstIds e j).toInt) :
    neighbourSum128 (F := Ideal) y (srcIds e) (dstIds e) = val_main_v66 (F := Ideal) x e w1 b1 w2 g1 be1 := by
  subst hy
  unfold neighbourSum128
  rw [wrapIds_dst e hdst]
  rfl

theorem layer2_entry (x : FVec Ideal S100000x64 .f32) (e : IVec S2x1200000 32)
    (w1 : FVec Ideal S128x64 .f32) (b1 : FVec Ideal S128 .f32) (w2 : FVec Ideal S128x64 .f32)
    (g1 be1 : FVec Ideal S128 .f32) (y : FVec Ideal S100000x128 .f32)
    (hy : y = val_main_v56 (F := Ideal) x e w1 b1 w2 g1 be1)
    (wl2 wr2 : FVec Ideal S64x128 .f32) (bl2 : FVec Ideal S64 .f32)
    (hdst : ∀ j, 0 ≤ (dstIds e j).toInt) (r : Fin 100000) (f : Fin 64) :
    (∑ k : Fin 128, (neighbourSum128 (F := Ideal) y (srcIds e) (dstIds e) (ix2 r k)
          * invDegree (F := Ideal) (dstIds e) (ix2 r (0 : Fin 1))) * wl2 (ix2 f k))
        + (shapeCast S1x64 bl2 shapeCasts_S64_S1x64) (ix2 (0 : Fin 1) f)
        + ∑ k : Fin 128, y (ix2 r k) * wr2 (ix2 f k)
      = val_main_v83 (F := Ideal) x e w1 b1 w2 g1 be1 wl2 bl2 wr2 (ix2 r f) := by
  have hz := ref_degree_real2 e hdst r
  have hN := neighbourSum128_eq_ref x e w1 b1 w2 g1 be1 y hy hdst
  rw [val_main_v83_apply, val_main_v80_apply, val_main_v77_apply, val_main_v79_apply, val_main_v78_apply,
    val_main_v82_apply, Ideal.addf_def, Ideal.addf_def, bias64_apply]
  refine congrArg₂ (· + ·) (congrArg₂ (· + ·) (Finset.sum_congr rfl fun k _ => ?_) ?_)
    (Finset.sum_congr rfl fun k _ => ?_)
  · have i1 : lidx_main_v77 (ix2 r f) k = ix2 r k := funext fun a => Fin.ext (by match a with | ⟨0, _⟩ => rfl | ⟨1, _⟩ => rfl)
    have i2 : idx_main_v73 (idx_main_v74 (ix2 r k)) = ix1 r := funext fun a => Fin.ext (by match a with | ⟨0, _⟩ => rfl)
    have i3 : idx_main_v76 (ridx_main_v77 (ix2 r f) k) = ix2 f k := funext fun a => Fin.ext (by match a with | ⟨0, _⟩ => rfl | ⟨1, _⟩ => rfl)
    rw [val_main_v75_apply, val_main_v74_apply, val_main_v73_apply, val_main_v76_apply, Ideal.hostDivf_def,
      i1, i2, i3, ref_v72_apply, ← hN, invDegree_eq_ref2 e hdst, mul_inv_max_one _ _ hz]
  · exact congrArg bl2 (funext fun a => Fin.ext (by match a with | ⟨0, _⟩ => rfl))
  · have j1 : lidx_main_v82 (ix2 r f) k = ix2 r k := funext fun a => Fin.ext (by match a with | ⟨0, _⟩ => rfl | ⟨1, _⟩ => rfl)
    have j3 : idx_main_v81 (ridx_main_v82 (ix2 r f) k) = ix2 f k := funext fun a => Fin.ext (by match a with | ⟨0, _⟩ => rfl | ⟨1, _⟩ => rfl)
    rw [val_main_v81_apply, j1, j3, hy]

end Reference

end Cert.Proof.BridgeLin

end
-- ==== Proof.BridgeNorm.lean ====
/-
  The bridge between the kernel's and the reference's batch normalisation, layer by layer, at the
  ideal values.

  The reference computes a column's mean as the column sum divided by 100000 and its variance as the
  mean of the squared deviations from that mean. The kernel computes the same mean, and the variance
  as the mean of the squares minus the squared mean, clamped below at zero. On a column of real
  numbers the two variances are one number, so the normalised activations max (g * (h - mu) *
  rsqrt (var + eps) + b) 0 agree entry by entry, and they are again real numbers, which is what the
  next layer's statistics need. After the second normalisation both sides apply the same linear
  layer into two classes and the same softmax; the reference additionally takes the maximum of the
  row maximum with minus infinity, which changes nothing.

  Everything is stated for an arbitrary array H standing for the kernel's pre-activation, tied to the
  reference's by a hypothesis.
-/
import proofs.«173987_j26422638805210_2_alg».proof.Proof.RefRead
import proofs.«173987_j26422638805210_2_alg».proof.Proof.Stats
import proofs.«173987_j26422638805210_2_alg».proof.Proof.HostStretch
import proofs.«173987_j26422638805210_2_alg».proof.Proof.Norm1
import proofs.«173987_j26422638805210_2_alg».proof.Proof.Norm3
import Idealize.ShloMosaic.Lib.Pipeline.Value
import Idealize.ShloMosaic.Lib.ValueIdx
import Idealize.ShloMosaic.Lib.ValueLayout
import Idealize.ShloMosaic.PureOps.Ideal.Laws

noncomputable section

namespace Cert.Proof.BridgeNorm

open Idealize.ShloMosaic Idealize.ShloMosaic.ValueIdx
open Cert.KernelIdeal.Stretch (mean128 var128 mean64 var64)
open Cert.Proof.Stats (IsReal)
open scoped BigOperators

/-! ## Three single-precision words as real numbers -/

/-- The word `0x47C35000` is the real number 100000, the number of rows. -/
theorem ofBits_count : Ideal.ofBits .f32 0x47C35000#32 = ((100000 : ℝ) : EReal) := by
  simp [Ideal.ofBits, Ideal.ieee, -EReal.coe_mul]; norm_num

/-- The word `0x3727C5AC` (the `eps` added to a variance) is a positive real number. -/
theorem ofBits_eps : ∃ e : ℝ, 0 < e ∧ Ideal.ofBits .f32 0x3727C5AC#32 = (e : EReal) := by
  refine ⟨10995116 / 2 ^ 40, by positivity, ?_⟩
  simp [Ideal.ofBits, Ideal.ieee, -EReal.coe_mul]; norm_num

theorem count_ne_zero : (100000 : ℝ) ≠ 0 := by norm_num

/-- The entrywise normalisation sends reals to reals, when the variance is not negative: `var + eps` is
    then a positive real, whose reciprocal square root is real. -/
theorem normReluElt_real {h mu var g b : EReal} (hh : IsReal h) (hmu : IsReal mu) (hvar : IsReal var)
    (hv0 : 0 ≤ var) (hg : IsReal g) (hb : IsReal b) :
    IsReal (Cert.KernelIdeal.Norm1.normReluElt (F := Ideal) h mu var g b) := by
  obtain ⟨e, he, hE⟩ := ofBits_eps
  obtain ⟨v, rfl⟩ := hvar
  have hv : 0 ≤ v := EReal.coe_nonneg.mp hv0
  have hpos : (0 : EReal) < ((v : ℝ) : EReal) + Ideal.ofBits .f32 0x3727C5AC#32 := by
    rw [hE, ← EReal.coe_add]; exact EReal.coe_pos.mpr (by linarith)
  have hrs : IsReal (Ideal.rsqrt (((v : ℝ) : EReal) + Ideal.ofBits .f32 0x3727C5AC#32)) :=
    Stats.IsReal.rsqrt ((Stats.isReal_coe v).add (hE ▸ Stats.isReal_coe e)) hpos
  show IsReal (max ((g * (h - mu)) * Ideal.rsqrt (((v : ℝ) : EReal) + Ideal.ofBits .f32 0x3727C5AC#32) + b)
    (Ideal.ofBits .f32 0x00000000#32))
  rw [Ideal.ofBits_zero_f32]
  exact (((hg.mul (hh.sub hmu)).mul hrs).add hb).max Stats.isReal_zero
/-- The same for the second normalisation region's entrywise function. -/
theorem normReluElt_real3 {h mu var g b : EReal} (hh : IsReal h) (hmu : IsReal mu) (hvar : IsReal var)
    (hv0 : 0 ≤ var) (hg : IsReal g) (hb : IsReal b) :
    IsReal (Cert.KernelIdeal.Norm3.normReluElt (F := Ideal) h mu var g b) := by
  obtain ⟨e, he, hE⟩ := ofBits_eps
  obtain ⟨v, rfl⟩ := hvar
  have hv : 0 ≤ v := EReal.coe_nonneg.mp hv0
  have hpos : (0 : EReal) < ((v : ℝ) : EReal) + Ideal.ofBits .f32 0x3727C5AC#32 := by
    rw [hE, ← EReal.coe_add]; exact EReal.coe_pos.mpr (by linarith)
  have hrs : IsReal (Ideal.rsqrt (((v : ℝ) : EReal) + Ideal.ofBits .f32 0x3727C5AC#32)) :=
    Stats.IsReal.rsqrt ((Stats.isReal_coe v).add (hE ▸ Stats.isReal_coe e)) hpos
  show IsReal (max ((g * (h - mu)) * Ideal.rsqrt (((v : ℝ) : EReal) + Ideal.ofBits .f32 0x3727C5AC#32) + b)
    (Ideal.ofBits .f32 0x00000000#32))
  rw [Ideal.ofBits_zero_f32]
  exact (((hg.mul (hh.sub hmu)).mul hrs).add hb).max Stats.isReal_zero

/-! ## Layer 1: the kernel side's mean and clamped variance over 128 columns, read at a column -/

/-- A scalar broadcast to a [1,128] row reads the scalar everywhere. -/
theorem bcast0_128 (c : Cert.KernelIdeal.S_.Idx → EReal) (i : Cert.KernelIdeal.S1x128.Idx) :
    broadcastInDim Cert.KernelIdeal.S1x128 ![] Cert.KernelIdeal.Gen.bcast_S_S1x128 c i = c (fun a => a.elim0) :=
  broadcastInDim_apply _ Cert.KernelIdeal.Gen.bcast_S_S1x128 c i (fun a => a.elim0) (fun a => a.elim0)

/-- The kernel side's mean at a column: the column sum times the inverse of 100000. -/
theorem mean128_apply (s : FVec Ideal Cert.KernelIdeal.S1x128 .f32) (i : Cert.KernelIdeal.S1x128.Idx) :
    mean128 (F := Ideal) s i = s i * ((100000 : ℝ) : EReal)⁻¹ := by
  unfold mean128
  show Ideal.div (s i) (broadcastInDim Cert.KernelIdeal.S1x128 ![] Cert.KernelIdeal.Gen.bcast_S_S1x128
    (constant (F := Ideal) Cert.KernelIdeal.S_ .f32 0x47C35000#32) i) = _
  rw [bcast0_128]
  show Ideal.div (s i) (Ideal.ofBits .f32 0x47C35000#32) = _
  rw [ofBits_count, Stats.div_coe_eq_mul_inv count_ne_zero]

/-- The kernel side's variance at a column: the mean square minus the squared mean, clamped below at zero. -/
theorem var128_apply (s q : FVec Ideal Cert.KernelIdeal.S1x128 .f32) (i : Cert.KernelIdeal.S1x128.Idx) :
    var128 (F := Ideal) s q i
      = max (q i * ((100000 : ℝ) : EReal)⁻¹
          - (s i * ((100000 : ℝ) : EReal)⁻¹) * (s i * ((100000 : ℝ) : EReal)⁻¹)) 0 := by
  unfold var128
  show max (mean128 (F := Ideal) q i - mean128 (F := Ideal) s i * mean128 (F := Ideal) s i)
    (broadcastInDim Cert.KernelIdeal.S1x128 ![] Cert.KernelIdeal.Gen.bcast_S_S1x128
      (constant (F := Ideal) Cert.KernelIdeal.S_ .f32 0x00000000#32) i) = _
  rw [bcast0_128, mean128_apply, mean128_apply]
  show max _ (Ideal.ofBits .f32 0x00000000#32) = _
  rw [Ideal.ofBits_zero_f32]

/-- The column sums of `H` and of its squares, as [1,128] rows. -/
abbrev colSum128 (H : Fin 100000 → Fin 128 → EReal) : FVec Ideal Cert.KernelIdeal.S1x128 .f32 :=
  fun i => ∑ r : Fin 100000, H r (i 1 : Fin 128)
abbrev colSumSq128 (H : Fin 100000 → Fin 128 → EReal) : FVec Ideal Cert.KernelIdeal.S1x128 .f32 :=
  fun i => ∑ r : Fin 100000, H r (i 1 : Fin 128) * H r (i 1 : Fin 128)

/-! ## Layer 1: the reference's statistics and normalised activations, read at a column -/

section Layer1

open Cert.ReferenceIdeal.Read

variable (x0 : (⟨Cert.ReferenceIdeal.S100000x64, .f32⟩ : BufTy).Contents (Elt Ideal))
  (x1 : (⟨Cert.ReferenceIdeal.S2x1200000, .i32⟩ : BufTy).Contents (Elt Ideal))
  (x2 : (⟨Cert.ReferenceIdeal.S128x64, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 x6 : (⟨Cert.ReferenceIdeal.S128, .f32⟩ : BufTy).Contents (Elt Ideal))

/-- The reference's column sum of the pre-activation, at column `f`. -/
theorem l1_sum_at (f : Fin 128) :
    val_main_v31 (F := Ideal) x0 x1 x2 x3 x4 (ix1 f) = ∑ r : Fin 100000, val_main_v30 (F := Ideal) x0 x1 x2 x3 x4 (ix2 r f) := by
  rw [val_main_v31_apply]
  show Ideal.ofBits .f32 0x00000000#32 + _ = _
  rw [Ideal.ofBits_zero_f32, zero_add]
  refine Finset.sum_congr rfl fun r _ => congrArg _ (funext fun a => ?_)
  match a with
  | ⟨0, _⟩ => rfl
  | ⟨1, _⟩ => rfl

/-- The reference's mean at column `f`: the column sum times the inverse of 100000. -/
theorem l1_mean_at (f : Fin 128) :
    val_main_v33 (F := Ideal) x0 x1 x2 x3 x4 (ix1 f) = (∑ r : Fin 100000, val_main_v30 (F := Ideal) x0 x1 x2 x3 x4 (ix2 r f)) * ((100000 : ℝ) : EReal)⁻¹ := by
  rw [val_main_v33_apply, l1_sum_at, val_main_v32_apply]
  show Ideal.div _ (Ideal.ofBits .f32 0x47C35000#32) = _
  rw [ofBits_count, Stats.div_coe_eq_mul_inv count_ne_zero]

/-- The mean broadcast over the rows (for the variance), read at `(r, f)`, is the mean at column `f`. -/
theorem l1_meanA_at (r : Fin 100000) (f : Fin 128) :
    val_main_v35 (F := Ideal) x0 x1 x2 x3 x4 (ix2 r f) = val_main_v33 (F := Ideal) x0 x1 x2 x3 x4 (ix1 f) := by
  rw [val_main_v35_apply, val_main_v34_apply]
  refine congrArg _ (funext fun a => ?_)
  match a with
  | ⟨0, _⟩ => rfl

/-- The mean broadcast over the rows (for the normalisation), read at `(r, f)`, is the mean at column `f`. -/
theorem l1_meanB_at (r : Fin 100000) (f : Fin 128) :
    val_main_v42 (F := Ideal) x0 x1 x2 x3 x4 (ix2 r f) = val_main_v33 (F := Ideal) x0 x1 x2 x3 x4 (ix1 f) := by
  rw [val_main_v42_apply, val_main_v41_apply]
  refine congrArg _ (funext fun a => ?_)
  match a with
  | ⟨0, _⟩ => rfl

/-- The reference's variance at column `f`: the mean of the squared deviations from the mean. -/
theorem l1_var_at (f : Fin 128) :
    val_main_v40 (F := Ideal) x0 x1 x2 x3 x4 (ix1 f)
      = (∑ r : Fin 100000,
          (val_main_v30 (F := Ideal) x0 x1 x2 x3 x4 (ix2 r f) - val_main_v33 (F := Ideal) x0 x1 x2 x3 x4 (ix1 f))
            * (val_main_v30 (F := Ideal) x0 x1 x2 x3 x4 (ix2 r f) - val_main_v33 (F := Ideal) x0 x1 x2 x3 x4 (ix1 f)))
          * ((100000 : ℝ) : EReal)⁻¹ := by
  rw [val_main_v40_apply, val_main_v38_apply, val_main_v39_apply]
  show Ideal.div (Ideal.ofBits .f32 0x00000000#32 + _) (Ideal.ofBits .f32 0x47C35000#32) = _
  rw [Ideal.ofBits_zero_f32, zero_add, ofBits_count, Stats.div_coe_eq_mul_inv count_ne_zero]
  refine congrArg (· * ((100000 : ℝ) : EReal)⁻¹) (Finset.sum_congr rfl fun r _ => ?_)
  have hi : idx_main_v38 (ix1 f) r = ix2 r f := funext fun a => by
    match a with
    | ⟨0, _⟩ => rfl
    | ⟨1, _⟩ => rfl
  rw [hi, val_main_v37_apply, val_main_v36_apply, l1_meanA_at]
  rfl

/-- The scale broadcast over the rows, read at `(r, f)`, is the scale at `f`. -/
theorem l1_scale_at (r : Fin 100000) (f : Fin 128) : val_main_v45 (F := Ideal) x5 (ix2 r f) = x5 (ix1 f) := by
  rw [val_main_v45_apply, val_main_v44_apply]
  refine congrArg _ (funext fun a => ?_)
  match a with
  | ⟨0, _⟩ => rfl

/-- The shift broadcast over the rows, read at `(r, f)`, is the shift at `f`. -/
theorem l1_shift_at (r : Fin 100000) (f : Fin 128) : val_main_v54 (F := Ideal) x6 (ix2 r f) = x6 (ix1 f) := by
  rw [val_main_v54_apply, val_main_v53_apply]
  refine congrArg _ (funext fun a => ?_)
  match a with
  | ⟨0, _⟩ => rfl

/-- The reciprocal standard deviation broadcast over the rows, read at `(r, f)`. -/
theorem l1_rstd_at (r : Fin 100000) (f : Fin 128) :
    val_main_v51 (F := Ideal) x0 x1 x2 x3 x4 (ix2 r f) = Ideal.rsqrt (val_main_v40 (F := Ideal) x0 x1 x2 x3 x4 (ix1 f) + Ideal.ofBits .f32 0x3727C5AC#32) := by
  rw [val_main_v51_apply, val_main_v50_apply]
  have hi : idx_main_v50 (idx_main_v51 (ix2 r f)) = ix1 f := funext fun a => by
    match a with
    | ⟨0, _⟩ => rfl
  rw [hi, val_main_v49_apply, val_main_v48_apply, val_main_v47_apply]
  rfl

variable (H : Fin 100000 → Fin 128 → EReal)

/-- The two means agree: each is the column sum divided by 100000. -/
theorem mean1_eq (hH : ∀ r f, H r f = val_main_v30 (F := Ideal) x0 x1 x2 x3 x4 (ix2 r f)) (f : Fin 128) :
    mean128 (F := Ideal) (colSum128 H) (ix2 (0 : Fin 1) f) = val_main_v33 (F := Ideal) x0 x1 x2 x3 x4 (ix1 f) := by
  rw [mean128_apply, l1_mean_at]
  show (∑ r : Fin 100000, H r f) * _ = _
  rw [Finset.sum_congr rfl fun r _ => hH r f]

/-- The two variances agree on a column of real numbers: the mean square minus the squared mean,
    clamped below at zero, is the mean squared deviation from the mean. -/
theorem var1_eq (hH : ∀ r f, H r f = val_main_v30 (F := Ideal) x0 x1 x2 x3 x4 (ix2 r f))
    (hreal : ∀ r f, IsReal (H r f)) (f : Fin 128) :
    var128 (F := Ideal) (colSum128 H) (colSumSq128 H) (ix2 (0 : Fin 1) f) = val_main_v40 (F := Ideal) x0 x1 x2 x3 x4 (ix1 f) := by
  rw [var128_apply, l1_var_at, l1_mean_at]
  show max ((∑ r : Fin 100000, H r f * H r f) * _
    - ((∑ r : Fin 100000, H r f) * _) * ((∑ r : Fin 100000, H r f) * _)) 0 = _
  simp only [← hH]
  exact Stats.var_identity_of_isReal (fun r => H r f) (fun r => hreal r f) 100000 (by norm_num) (by simp)

/-- The layer's normalised activations: the kernel's function of `H`, of its own mean and clamped
    variance and of the scale and shift rows is the reference's value, entry by entry. -/
theorem out1_eq (hH : ∀ r f, H r f = val_main_v30 (F := Ideal) x0 x1 x2 x3 x4 (ix2 r f))
    (hreal : ∀ r f, IsReal (H r f)) (r : Fin 100000) (f : Fin 128) :
    Cert.KernelIdeal.Norm1.normRelu (fun i => H (i 0 : Fin 100000) (i 1 : Fin 128))
        (mean128 (F := Ideal) (colSum128 H)) (var128 (F := Ideal) (colSum128 H) (colSumSq128 H))
        (shapeCast Cert.KernelIdeal.S1x128 x5 Cert.KernelIdeal.Gen.shapeCasts_S128_S1x128)
        (shapeCast Cert.KernelIdeal.S1x128 x6 Cert.KernelIdeal.Gen.shapeCasts_S128_S1x128) (ix2 r f)
      = val_main_v56 (F := Ideal) x0 x1 x2 x3 x4 x5 x6 (ix2 r f) := by
  rw [Cert.KernelIdeal.Norm1.normRelu_apply, mean1_eq x0 x1 x2 x3 x4 H hH f, var1_eq x0 x1 x2 x3 x4 H hH hreal f,
    shapeCast_a_1a_apply, shapeCast_a_1a_apply,
    val_main_v56_apply, val_main_v55_apply, val_main_v52_apply, val_main_v46_apply, val_main_v43_apply,
    l1_meanB_at, l1_scale_at, l1_rstd_at, l1_shift_at, val_main_call0_v0_apply, ← hH r f]
  rfl

/-- The reference's activations of this layer are real numbers when the pre-activations, the scale and
    the shift are: the clamped variance is a real that is not negative. -/
theorem out1_real (hH : ∀ r f, H r f = val_main_v30 (F := Ideal) x0 x1 x2 x3 x4 (ix2 r f))
    (hreal : ∀ r f, IsReal (H r f)) (hg : ∀ i, IsReal (x5 i)) (hb : ∀ i, IsReal (x6 i))
    (r : Fin 100000) (f : Fin 128) :
    IsReal (val_main_v56 (F := Ideal) x0 x1 x2 x3 x4 x5 x6 (ix2 r f)) := by
  rw [← out1_eq x0 x1 x2 x3 x4 x5 x6 H hH hreal r f, Cert.KernelIdeal.Norm1.normRelu_apply]
  have hS : IsReal (colSum128 H (ix2 (0 : Fin 1) f)) := Stats.IsReal.sum _ _ fun r _ => hreal r _
  have hQ : IsReal (colSumSq128 H (ix2 (0 : Fin 1) f)) :=
    Stats.IsReal.sum _ _ fun r _ => (hreal r _).mul (hreal r _)
  have hN : IsReal (((100000 : ℝ) : EReal)) := Stats.isReal_coe _
  refine normReluElt_real (hreal r f) ?_ ?_ ?_ ?_ ?_
  · rw [mean128_apply]; exact hS.mul_inv hN
  · rw [var128_apply]
    exact ((hQ.mul_inv hN).sub ((hS.mul_inv hN).mul (hS.mul_inv hN))).max Stats.isReal_zero
  · rw [var128_apply]; exact le_max_right _ _
  · rw [shapeCast_a_1a_apply]; exact hg _
  · rw [shapeCast_a_1a_apply]; exact hb _

end Layer1

/-! ## Layer 2: the kernel side's mean and clamped variance over 64 columns, read at a column -/

/-- A scalar broadcast to a [1,64] row reads the scalar everywhere. -/
theorem bcast0_64 (c : Cert.KernelIdeal.S_.Idx → EReal) (i : Cert.KernelIdeal.S1x64.Idx) :
    broadcastInDim Cert.KernelIdeal.S1x64 ![] Cert.KernelIdeal.Gen.bcast_S_S1x64 c i = c (fun a => a.elim0) :=
  broadcastInDim_apply _ Cert.KernelIdeal.Gen.bcast_S_S1x64 c i (fun a => a.elim0) (fun a => a.elim0)

/-- The kernel side's mean at a column: the column sum times the inverse of 100000. -/
theorem mean64_apply (s : FVec Ideal Cert.KernelIdeal.S1x64 .f32) (i : Cert.KernelIdeal.S1x64.Idx) :
    mean64 (F := Ideal) s i = s i * ((100000 : ℝ) : EReal)⁻¹ := by
  unfold mean64
  show Ideal.div (s i) (broadcastInDim Cert.KernelIdeal.S1x64 ![] Cert.KernelIdeal.Gen.bcast_S_S1x64
    (constant (F := Ideal) Cert.KernelIdeal.S_ .f32 0x47C35000#32) i) = _
  rw [bcast0_64]
  show Ideal.div (s i) (Ideal.ofBits .f32 0x47C35000#32) = _
  rw [ofBits_count, Stats.div_coe_eq_mul_inv count_ne_zero]

/-- The kernel side's variance at a column: the mean square minus the squared mean, clamped below at zero. -/
theorem var64_apply (s q : FVec Ideal Cert.KernelIdeal.S1x64 .f32) (i : Cert.KernelIdeal.S1x64.Idx) :
    var64 (F := Ideal) s q i
      = max (q i * ((100000 : ℝ) : EReal)⁻¹
          - (s i * ((100000 : ℝ) : EReal)⁻¹) * (s i * ((100000 : ℝ) : EReal)⁻¹)) 0 := by
  unfold var64
  show max (mean64 (F := Ideal) q i - mean64 (F := Ideal) s i * mean64 (F := Ideal) s i)
    (broadcastInDim Cert.KernelIdeal.S1x64 ![] Cert.KernelIdeal.Gen.bcast_S_S1x64
      (constant (F := Ideal) Cert.KernelIdeal.S_ .f32 0x00000000#32) i) = _
  rw [bcast0_64, mean64_apply, mean64_apply]
  show max _ (Ideal.ofBits .f32 0x00000000#32) = _
  rw [Ideal.ofBits_zero_f32]

/-- The column sums of `H` and of its squares, as [1,64] rows. -/
abbrev colSum64 (H : Fin 100000 → Fin 64 → EReal) : FVec Ideal Cert.KernelIdeal.S1x64 .f32 :=
  fun i => ∑ r : Fin 100000, H r (i 1 : Fin 64)
abbrev colSumSq64 (H : Fin 100000 → Fin 64 → EReal) : FVec Ideal Cert.KernelIdeal.S1x64 .f32 :=
  fun i => ∑ r : Fin 100000, H r (i 1 : Fin 64) * H r (i 1 : Fin 64)

/-! ## Layer 2: the reference's statistics and normalised activations, read at a column -/

section Layer2

open Cert.ReferenceIdeal.Read

variable (x0 : (⟨Cert.ReferenceIdeal.S100000x64, .f32⟩ : BufTy).Contents (Elt Ideal))
  (x1 : (⟨Cert.ReferenceIdeal.S2x1200000, .i32⟩ : BufTy).Contents (Elt Ideal))
  (x2 : (⟨Cert.ReferenceIdeal.S128x64, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 x6 : (⟨Cert.ReferenceIdeal.S128, .f32⟩ : BufTy).Contents (Elt Ideal))
  (x7 : (⟨Cert.ReferenceIdeal.S64x128, .f32⟩ : BufTy).Contents (Elt Ideal))
  (x8 : (⟨Cert.ReferenceIdeal.S64, .f32⟩ : BufTy).Contents (Elt Ideal))
  (x9 : (⟨Cert.ReferenceIdeal.S64x128, .f32⟩ : BufTy).Contents (Elt Ideal))
  (x10 x11 : (⟨Cert.ReferenceIdeal.S64, .f32⟩ : BufTy).Contents (Elt Ideal))

/-- The reference's column sum of the pre-activation, at column `f`. -/
theorem l2_sum_at (f : Fin 64) :
    val_main_v84 (F := Ideal) x0 x1 x2 x3 x4 x5 x6 x7 x8 x9 (ix1 f) = ∑ r : Fin 100000, val_main_v83 (F := Ideal) x0 x1 x2 x3 x4 x5 x6 x7 x8 x9 (ix2 r f) := by
  rw [val_main_v84_apply]
  show Ideal.ofBits .f32 0x00000000#32 + _ = _
  rw [Ideal.ofBits_zero_f32, zero_add]
  refine Finset.sum_congr rfl fun r _ => congrArg _ (funext fun a => ?_)
  match a with
  | ⟨0, _⟩ => rfl
  | ⟨1, _⟩ => rfl

/-- The reference's mean at column `f`: the column sum times the inverse of 100000. -/
theorem l2_mean_at (f : Fin 64) :
    val_main_v86 (F := Ideal) x0 x1 x2 x3 x4 x5 x6 x7 x8 x9 (ix1 f) = (∑ r : Fin 100000, val_main_v83 (F := Ideal) x0 x1 x2 x3 x4 x5 x6 x7 x8 x9 (ix2 r f)) * ((100000 : ℝ) : EReal)⁻¹ := by
  rw [val_main_v86_apply, l2_sum_at, val_main_v85_apply]
  show Ideal.div _ (Ideal.ofBits .f32 0x47C35000#32) = _
  rw [ofBits_count, Stats.div_coe_eq_mul_inv count_ne_zero]

/-- The mean broadcast over the rows (for the variance), read at `(r, f)`, is the mean at column `f`. -/
theorem l2_meanA_at (r : Fin 100000) (f : Fin 64) :
    val_main_v88 (F := Ideal) x0 x1 x2 x3 x4 x5 x6 x7 x8 x9 (ix2 r f) = val_main_v86 (F := Ideal) x0 x1 x2 x3 x4 x5 x6 x7 x8 x9 (ix1 f) := by
  rw [val_main_v88_apply, val_main_v87_apply]
  refine congrArg _ (funext fun a => ?_)
  match a with
  | ⟨0, _⟩ => rfl

/-- The mean broadcast over the rows (for the normalisation), read at `(r, f)`, is the mean at column `f`. -/
theorem l2_meanB_at (r : Fin 100000) (f : Fin 64) :
    val_main_v95 (F := Ideal) x0 x1 x2 x3 x4 x5 x6 x7 x8 x9 (ix2 r f) = val_main_v86 (F := Ideal) x0 x1 x2 x3 x4 x5 x6 x7 x8 x9 (ix1 f) := by
  rw [val_main_v95_apply, val_main_v94_apply]
  refine congrArg _ (funext fun a => ?_)
  match a with
  | ⟨0, _⟩ => rfl

/-- The reference's variance at column `f`: the mean of the squared deviations from the mean. -/
theorem l2_var_at (f : Fin 64) :
    val_main_v93 (F := Ideal) x0 x1 x2 x3 x4 x5 x6 x7 x8 x9 (ix1 f)
      = (∑ r : Fin 100000,
          (val_main_v83 (F := Ideal) x0 x1 x2 x3 x4 x5 x6 x7 x8 x9 (ix2 r f) - val_main_v86 (F := Ideal) x0 x1 x2 x3 x4 x5 x6 x7 x8 x9 (ix1 f))
            * (val_main_v83 (F := Ideal) x0 x1 x2 x3 x4 x5 x6 x7 x8 x9 (ix2 r f) - val_main_v86 (F := Ideal) x0 x1 x2 x3 x4 x5 x6 x7 x8 x9 (ix1 f)))
          * ((100000 : ℝ) : EReal)⁻¹ := by
  rw [val_main_v93_apply, val_main_v91_apply, val_main_v92_apply]
  show Ideal.div (Ideal.ofBits .f32 0x00000000#32 + _) (Ideal.ofBits .f32 0x47C35000#32) = _
  rw [Ideal.ofBits_zero_f32, zero_add, ofBits_count, Stats.div_coe_eq_mul_inv count_ne_zero]
  refine congrArg (· * ((100000 : ℝ) : EReal)⁻¹) (Finset.sum_congr rfl fun r _ => ?_)
  have hi : idx_main_v91 (ix1 f) r = ix2 r f := funext fun a => by
    match a with
    | ⟨0, _⟩ => rfl
    | ⟨1, _⟩ => rfl
  rw [hi, val_main_v90_apply, val_main_v89_apply, l2_meanA_at]
  rfl

/-- The scale broadcast over the rows, read at `(r, f)`, is the scale at `f`. -/
theorem l2_scale_at (r : Fin 100000) (f : Fin 64) : val_main_v98 (F := Ideal) x10 (ix2 r f) = x10 (ix1 f) := by
  rw [val_main_v98_apply, val_main_v97_apply]
  refine congrArg _ (funext fun a => ?_)
  match a with
  | ⟨0, _⟩ => rfl

/-- The shift broadcast over the rows, read at `(r, f)`, is the shift at `f`. -/
theorem l2_shift_at (r : Fin 100000) (f : Fin 64) : val_main_v107 (F := Ideal) x11 (ix2 r f) = x11 (ix1 f) := by
  rw [val_main_v107_apply, val_main_v106_apply]
  refine congrArg _ (funext fun a => ?_)
  match a with
  | ⟨0, _⟩ => rfl

/-- The reciprocal standard deviation broadcast over the rows, read at `(r, f)`. -/
theorem l2_rstd_at (r : Fin 100000) (f : Fin 64) :
    val_main_v104 (F := Ideal) x0 x1 x2 x3 x4 x5 x6 x7 x8 x9 (ix2 r f) = Ideal.rsqrt (val_main_v93 (F := Ideal) x0 x1 x2 x3 x4 x5 x6 x7 x8 x9 (ix1 f) + Ideal.ofBits .f32 0x3727C5AC#32) := by
  rw [val_main_v104_apply, val_main_v103_apply]
  have hi : idx_main_v103 (idx_main_v104 (ix2 r f)) = ix1 f := funext fun a => by
    match a with
    | ⟨0, _⟩ => rfl
  rw [hi, val_main_v102_apply, val_main_v101_apply, val_main_v100_apply]
  rfl

variable (H : Fin 100000 → Fin 64 → EReal)

/-- The two means agree: each is the column sum divided by 100000. -/
theorem mean2_eq (hH : ∀ r f, H r f = val_main_v83 (F := Ideal) x0 x1 x2 x3 x4 x5 x6 x7 x8 x9 (ix2 r f)) (f : Fin 64) :
    mean64 (F := Ideal) (colSum64 H) (ix2 (0 : Fin 1) f) = val_main_v86 (F := Ideal) x0 x1 x2 x3 x4 x5 x6 x7 x8 x9 (ix1 f) := by
  rw [mean64_apply, l2_mean_at]
  show (∑ r : Fin 100000, H r f) * _ = _
  rw [Finset.sum_congr rfl fun r _ => hH r f]

/-- The two variances agree on a column of real numbers: the mean square minus the squared mean,
    clamped below at zero, is the mean squared deviation from the mean. -/
theorem var2_eq (hH : ∀ r f, H r f = val_main_v83 (F := Ideal) x0 x1 x2 x3 x4 x5 x6 x7 x8 x9 (ix2 r f))
    (hreal : ∀ r f, IsReal (H r f)) (f : Fin 64) :
    var64 (F := Ideal) (colSum64 H) (colSumSq64 H) (ix2 (0 : Fin 1) f) = val_main_v93 (F := Ideal) x0 x1 x2 x3 x4 x5 x6 x7 x8 x9 (ix1 f) := by
  rw [var64_apply, l2_var_at, l2_mean_at]
  show max ((∑ r : Fin 100000, H r f * H r f) * _
    - ((∑ r : Fin 100000, H r f) * _) * ((∑ r : Fin 100000, H r f) * _)) 0 = _
  simp only [← hH]
  exact Stats.var_identity_of_isReal (fun r => H r f) (fun r => hreal r f) 100000 (by norm_num) (by simp)

/-- The layer's normalised activations: the kernel's function of `H`, of its own mean and clamped
    variance and of the scale and shift rows is the reference's value, entry by entry. -/
theorem out2_eq (hH : ∀ r f, H r f = val_main_v83 (F := Ideal) x0 x1 x2 x3 x4 x5 x6 x7 x8 x9 (ix2 r f))
    (hreal : ∀ r f, IsReal (H r f)) (r : Fin 100000) (f : Fin 64) :
    Cert.KernelIdeal.Norm3.normRelu (fun i => H (i 0 : Fin 100000) (i 1 : Fin 64))
        (mean64 (F := Ideal) (colSum64 H)) (var64 (F := Ideal) (colSum64 H) (colSumSq64 H))
        (shapeCast Cert.KernelIdeal.S1x64 x10 Cert.KernelIdeal.Gen.shapeCasts_S64_S1x64)
        (shapeCast Cert.KernelIdeal.S1x64 x11 Cert.KernelIdeal.Gen.shapeCasts_S64_S1x64) (ix2 r f)
      = val_main_v109 (F := Ideal) x0 x1 x2 x3 x4 x5 x6 x7 x8 x9 x10 x11 (ix2 r f) := by
  rw [Cert.KernelIdeal.Norm3.normRelu_apply, mean2_eq x0 x1 x2 x3 x4 x5 x6 x7 x8 x9 H hH f, var2_eq x0 x1 x2 x3 x4 x5 x6 x7 x8 x9 H hH hreal f,
    shapeCast_a_1a_apply, shapeCast_a_1a_apply,
    val_main_v109_apply, val_main_v108_apply, val_main_v105_apply, val_main_v99_apply, val_main_v96_apply,
    l2_meanB_at, l2_scale_at, l2_rstd_at, l2_shift_at, val_main_call1_v0_apply, ← hH r f]
  rfl

/-- The reference's activations of this layer are real numbers when the pre-activations, the scale and
    the shift are: the clamped variance is a real that is not negative. -/
theorem out2_real (hH : ∀ r f, H r f = val_main_v83 (F := Ideal) x0 x1 x2 x3 x4 x5 x6 x7 x8 x9 (ix2 r f))
    (hreal : ∀ r f, IsReal (H r f)) (hg : ∀ i, IsReal (x10 i)) (hb : ∀ i, IsReal (x11 i))
    (r : Fin 100000) (f : Fin 64) :
    IsReal (val_main_v109 (F := Ideal) x0 x1 x2 x3 x4 x5 x6 x7 x8 x9 x10 x11 (ix2 r f)) := by
  rw [← out2_eq x0 x1 x2 x3 x4 x5 x6 x7 x8 x9 x10 x11 H hH hreal r f, Cert.KernelIdeal.Norm3.normRelu_apply]
  have hS : IsReal (colSum64 H (ix2 (0 : Fin 1) f)) := Stats.IsReal.sum _ _ fun r _ => hreal r _
  have hQ : IsReal (colSumSq64 H (ix2 (0 : Fin 1) f)) :=
    Stats.IsReal.sum _ _ fun r _ => (hreal r _).mul (hreal r _)
  have hN : IsReal (((100000 : ℝ) : EReal)) := Stats.isReal_coe _
  refine normReluElt_real3 (hreal r f) ?_ ?_ ?_ ?_ ?_
  · rw [mean64_apply]; exact hS.mul_inv hN
  · rw [var64_apply]
    exact ((hQ.mul_inv hN).sub ((hS.mul_inv hN).mul (hS.mul_inv hN))).max Stats.isReal_zero
  · rw [var64_apply]; exact le_max_right _ _
  · rw [shapeCast_a_1a_apply]; exact hg _
  · rw [shapeCast_a_1a_apply]; exact hb _

end Layer2

/-! ## The class probabilities: the reference's softmax head, read at an entry -/

section Head

open Cert.ReferenceIdeal.Read

variable (x0 : (⟨Cert.ReferenceIdeal.S100000x64, .f32⟩ : BufTy).Contents (Elt Ideal))
  (x1 : (⟨Cert.ReferenceIdeal.S2x1200000, .i32⟩ : BufTy).Contents (Elt Ideal))
  (x2 : (⟨Cert.ReferenceIdeal.S128x64, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 x6 : (⟨Cert.ReferenceIdeal.S128, .f32⟩ : BufTy).Contents (Elt Ideal))
  (x7 : (⟨Cert.ReferenceIdeal.S64x128, .f32⟩ : BufTy).Contents (Elt Ideal))
  (x8 : (⟨Cert.ReferenceIdeal.S64, .f32⟩ : BufTy).Contents (Elt Ideal))
  (x9 : (⟨Cert.ReferenceIdeal.S64x128, .f32⟩ : BufTy).Contents (Elt Ideal))
  (x10 x11 : (⟨Cert.ReferenceIdeal.S64, .f32⟩ : BufTy).Contents (Elt Ideal))
  (x12 : (⟨Cert.ReferenceIdeal.S2x64, .f32⟩ : BufTy).Contents (Elt Ideal))
  (x13 : (⟨Cert.ReferenceIdeal.S2, .f32⟩ : BufTy).Contents (Elt Ideal))

/-- Minus infinity is neutral for `max`. -/
theorem max_neg_inf (y : EReal) : max (Ideal.ofBits .f32 0xFF800000#32) y = y := by
  simp [Ideal.ofBits, Ideal.ieee]

/-- The host's reduction with a maximum body over the two columns of a [100000,2] array, at row `r`: the
    fold of `max` from the initial value over the row's two entries. -/
theorem hostRowMax_apply (y : Cert.ReferenceIdeal.S100000x2.Idx → EReal) (init : Cert.ReferenceIdeal.S_.Idx → EReal)
    (h' : Cert.ReferenceIdeal.S100000x2.ReducesTo [1] Cert.ReferenceIdeal.S100000)
    (hu : 0 < Cert.ReferenceIdeal.S_.numel) (r : Fin 100000) :
    Host.reduce (FloatOps.maximumf (F := Ideal) (φ := .f32)) y init h' hu (ix1 r)
      = (Finset.univ : Finset (Fin 2)).fold max (init (Shape.Idx.first hu)) (fun j' => y (ix2 r j')) := by
  have h : Cert.ReferenceIdeal.S100000x2.Reduces [1] Cert.ReferenceIdeal.S100000 := by decide
  rw [Host.reduce_eq_fold_single (FloatOps.maximumf (F := Ideal) (φ := .f32)) y init h' h hu (ix1 r)]
  have hf : (y ∘ h.lift (ix1 r)) = fun j' : Fin 2 => y (ix2 r j') := funext fun j' =>
    congrArg y (funext fun a => by
      match a with
      | ⟨0, _⟩ => exact Fin.ext rfl
      | ⟨1, _⟩ => exact Fin.ext rfl)
  rw [hf]
  rfl

/-- The reference's linear layer at `(r, j)`: row `r` of the activations contracted with row `j` of the
    weight matrix (the transposition read back), plus the bias of class `j`. -/
theorem logit_at (r : Fin 100000) (j : Fin 2) :
    val_main_v114 (F := Ideal) x0 x1 x2 x3 x4 x5 x6 x7 x8 x9 x10 x11 x12 x13 (ix2 r j)
      = (∑ k : Fin 64, val_main_v109 (F := Ideal) x0 x1 x2 x3 x4 x5 x6 x7 x8 x9 x10 x11 (ix2 r k) * x12 (ix2 j k)) + x13 (ix1 j) := by
  rw [val_main_v114_apply, val_main_v111_apply, val_main_v113_apply, val_main_v112_apply]
  have hb : idx_main_v112 (idx_main_v113 (ix2 r j)) = ix1 j := funext fun a => by
    match a with
    | ⟨0, _⟩ => rfl
  rw [hb]
  refine congrArg (· + x13 (ix1 j)) (Finset.sum_congr rfl fun k _ => ?_)
  have hl : lidx_main_v111 (ix2 r j) k = ix2 r k := funext fun a => by
    match a with
    | ⟨0, _⟩ => rfl
    | ⟨1, _⟩ => rfl
  have hr : idx_main_v110 (ridx_main_v111 (ix2 r j) k) = ix2 j k := funext fun a => by
    match a with
    | ⟨0, _⟩ => rfl
    | ⟨1, _⟩ => rfl
  rw [hl, val_main_v110_apply, hr]

/-- The reference's row maximum broadcast over the two classes, read at `(r, j)`: the fold of `max` from
    minus infinity over the two linear-layer values of row `r` (the further `max` with minus infinity
    changes nothing). -/
theorem rowmax_at (r : Fin 100000) (j : Fin 2) :
    val_main_v119 (F := Ideal) x0 x1 x2 x3 x4 x5 x6 x7 x8 x9 x10 x11 x12 x13 (ix2 r j)
      = (Finset.univ : Finset (Fin 2)).fold max (Ideal.ofBits .f32 0xFF800000#32)
          (fun j' => val_main_v114 (F := Ideal) x0 x1 x2 x3 x4 x5 x6 x7 x8 x9 x10 x11 x12 x13 (ix2 r j')) := by
  rw [val_main_v119_apply, val_main_v118_apply]
  have hi : idx_main_v118 (idx_main_v119 (ix2 r j)) = ix1 r := funext fun a => by
    match a with
    | ⟨0, _⟩ => rfl
  rw [hi, val_main_v117_apply, val_main_v116_apply]
  show max (Ideal.ofBits .f32 0xFF800000#32) (val_main_v115 (F := Ideal) x0 x1 x2 x3 x4 x5 x6 x7 x8 x9 x10 x11 x12 x13 (ix1 r)) = _
  rw [max_neg_inf]
  unfold val_main_v115
  rw [hostRowMax_apply]
  rfl

/-- The reference's exponentials at `(r, j)`. -/
theorem exp_at (r : Fin 100000) (j : Fin 2) :
    val_main_v121 (F := Ideal) x0 x1 x2 x3 x4 x5 x6 x7 x8 x9 x10 x11 x12 x13 (ix2 r j)
      = Ideal.exp (val_main_v114 (F := Ideal) x0 x1 x2 x3 x4 x5 x6 x7 x8 x9 x10 x11 x12 x13 (ix2 r j)
          - (Finset.univ : Finset (Fin 2)).fold max (Ideal.ofBits .f32 0xFF800000#32)
              (fun j' => val_main_v114 (F := Ideal) x0 x1 x2 x3 x4 x5 x6 x7 x8 x9 x10 x11 x12 x13 (ix2 r j'))) := by
  rw [val_main_v121_apply, val_main_v120_apply, rowmax_at]
  rfl

/-- The reference's sum of the two exponentials of row `r`, broadcast over the classes, read at `(r, j)`. -/
theorem expsum_at (r : Fin 100000) (j : Fin 2) :
    val_main_v124 (F := Ideal) x0 x1 x2 x3 x4 x5 x6 x7 x8 x9 x10 x11 x12 x13 (ix2 r j)
      = ∑ j' : Fin 2, val_main_v121 (F := Ideal) x0 x1 x2 x3 x4 x5 x6 x7 x8 x9 x10 x11 x12 x13 (ix2 r j') := by
  rw [val_main_v124_apply, val_main_v123_apply]
  have hi : idx_main_v123 (idx_main_v124 (ix2 r j)) = ix1 r := funext fun a => by
    match a with
    | ⟨0, _⟩ => rfl
  rw [hi, val_main_v122_apply]
  show Ideal.ofBits .f32 0x00000000#32 + _ = _
  rw [Ideal.ofBits_zero_f32, zero_add]
  refine Finset.sum_congr rfl fun j' _ => congrArg _ (funext fun a => ?_)
  match a with
  | ⟨0, _⟩ => rfl
  | ⟨1, _⟩ => rfl

variable (H : Fin 100000 → Fin 64 → EReal)

/-- The class probabilities: the kernel's function of `H`, of its own mean and clamped variance, of the
    scale and shift rows, of the weight matrix and of the bias row is the reference's second result,
    entry by entry. -/
theorem prob_eq (hH : ∀ r f, H r f = val_main_v83 (F := Ideal) x0 x1 x2 x3 x4 x5 x6 x7 x8 x9 (ix2 r f))
    (hreal : ∀ r f, IsReal (H r f)) (r : Fin 100000) (j : Fin 2) :
    Cert.KernelIdeal.Norm3.classProb (fun i => H (i 0 : Fin 100000) (i 1 : Fin 64))
        (mean64 (F := Ideal) (colSum64 H)) (var64 (F := Ideal) (colSum64 H) (colSumSq64 H))
        (shapeCast Cert.KernelIdeal.S1x64 x10 Cert.KernelIdeal.Gen.shapeCasts_S64_S1x64)
        (shapeCast Cert.KernelIdeal.S1x64 x11 Cert.KernelIdeal.Gen.shapeCasts_S64_S1x64)
        x12 (shapeCast Cert.KernelIdeal.S1x2 x13 Cert.KernelIdeal.Gen.shapeCasts_S2_S1x2) (ix2 r j)
      = val_main_v125 (F := Ideal) x0 x1 x2 x3 x4 x5 x6 x7 x8 x9 x10 x11 x12 x13 (ix2 r j) := by
  have hl : Cert.KernelIdeal.Norm3.logit
      (Cert.KernelIdeal.Norm3.normRelu (fun i => H (i 0 : Fin 100000) (i 1 : Fin 64))
        (mean64 (F := Ideal) (colSum64 H)) (var64 (F := Ideal) (colSum64 H) (colSumSq64 H))
        (shapeCast Cert.KernelIdeal.S1x64 x10 Cert.KernelIdeal.Gen.shapeCasts_S64_S1x64)
        (shapeCast Cert.KernelIdeal.S1x64 x11 Cert.KernelIdeal.Gen.shapeCasts_S64_S1x64))
      x12 (shapeCast Cert.KernelIdeal.S1x2 x13 Cert.KernelIdeal.Gen.shapeCasts_S2_S1x2) r
      = fun j' => val_main_v114 (F := Ideal) x0 x1 x2 x3 x4 x5 x6 x7 x8 x9 x10 x11 x12 x13 (ix2 r j') := funext fun j' => by
    rw [logit_at]
    unfold Cert.KernelIdeal.Norm3.logit
    rw [shapeCast_a_1a_apply]
    refine congrArg (· + x13 (ix1 j')) (Finset.sum_congr rfl fun k _ => ?_)
    rw [out2_eq x0 x1 x2 x3 x4 x5 x6 x7 x8 x9 x10 x11 H hH hreal r k]
  rw [Cert.KernelIdeal.Norm3.classProb_apply, hl, val_main_v125_apply, expsum_at]
  simp only [exp_at]
  rfl

end Head

end Cert.Proof.BridgeNorm

end
-- ==== Proof.LinReal.lean ====
/-
  The pre-activations of the two linear layers are real numbers.

  An entry of a linear layer's pre-activation is a finite sum of products of entries of its six
  argument arrays, plus one more entry. Sums, products and finite sums of real numbers, embedded in the
  extended reals, are real numbers; so the entry is real whenever every entry of the six arrays is.
-/
import proofs.«173987_j26422638805210_2_alg».proof.Proof.LinAccum0
import proofs.«173987_j26422638805210_2_alg».proof.Proof.LinAccum2
import proofs.«173987_j26422638805210_2_alg».proof.Proof.Stats
import Idealize.ShloMosaic.Lib.ValueIdx

namespace Cert.Proof.LinReal

open Idealize.ShloMosaic Idealize.ShloMosaic.ValueIdx
open Cert.Proof.Stats (IsReal)
open scoped BigOperators

/-- An entry of the first linear layer's pre-activation — a sum of 64 products of three reals, a real,
    and a sum of 64 products of two reals — is a real number when every entry of the six arrays is. -/
theorem hEntry_real0 (A0 : Cert.KernelIdeal.S100000x64.Idx → EReal) (A1 : Cert.KernelIdeal.S100000x1.Idx → EReal)
    (A2 : Cert.KernelIdeal.S100000x64.Idx → EReal) (A3 : Cert.KernelIdeal.S128x64.Idx → EReal)
    (A4 : Cert.KernelIdeal.S1x128.Idx → EReal) (A5 : Cert.KernelIdeal.S128x64.Idx → EReal)
    (h0 : ∀ i, IsReal (A0 i)) (h1 : ∀ i, IsReal (A1 i)) (h2 : ∀ i, IsReal (A2 i)) (h3 : ∀ i, IsReal (A3 i))
    (h4 : ∀ i, IsReal (A4 i)) (h5 : ∀ i, IsReal (A5 i)) (r : Fin 100000) (f : Fin 128) :
    IsReal (Cert.KernelIdeal.LinAccum0.hEntry A0 A1 A2 A3 A4 A5 r f) := by
  unfold Cert.KernelIdeal.LinAccum0.hEntry
  exact ((Stats.IsReal.sum _ _ fun k _ => ((h0 _).mul (h1 _)).mul (h3 _)).add (h4 _)).add
    (Stats.IsReal.sum _ _ fun k _ => (h2 _).mul (h5 _))

/-- The same for the second linear layer, whose sums run over 128 terms. -/
theorem hEntry_real2 (A0 : Cert.KernelIdeal.S100000x128.Idx → EReal) (A1 : Cert.KernelIdeal.S100000x1.Idx → EReal)
    (A2 : Cert.KernelIdeal.S100000x128.Idx → EReal) (A3 : Cert.KernelIdeal.S64x128.Idx → EReal)
    (A4 : Cert.KernelIdeal.S1x64.Idx → EReal) (A5 : Cert.KernelIdeal.S64x128.Idx → EReal)
    (h0 : ∀ i, IsReal (A0 i)) (h1 : ∀ i, IsReal (A1 i)) (h2 : ∀ i, IsReal (A2 i)) (h3 : ∀ i, IsReal (A3 i))
    (h4 : ∀ i, IsReal (A4 i)) (h5 : ∀ i, IsReal (A5 i)) (r : Fin 100000) (f : Fin 64) :
    IsReal (Cert.KernelIdeal.LinAccum2.hEntry A0 A1 A2 A3 A4 A5 r f) := by
  unfold Cert.KernelIdeal.LinAccum2.hEntry
  exact ((Stats.IsReal.sum _ _ fun k _ => ((h0 _).mul (h1 _)).mul (h3 _)).add (h4 _)).add
    (Stats.IsReal.sum _ _ fun k _ => (h2 _).mul (h5 _))

end Cert.Proof.LinReal
-- ==== Proof.Domain.lean ====
/-
  The precondition of this claim, read back as plain facts about the fourteen arguments.

  The precondition is a conjunction of fourteen tests, each of them an "and" taken over all entries of one
  argument, and it is stated to come out 1. Thirteen of the tests ask |x| < +∞ of every entry x of a float
  argument; the fourteenth asks 0 ≤ d (signed) of every entry d of the second row of the integer argument,
  the row of destination node ids, taken as a vector of 1200000 words.

  Over the extended reals |x| is max x (−x), which is +∞ at both infinities and a real number elsewhere; so
  |x| < +∞ holds exactly when x is a real number. A conjunction of bits is 1 exactly when every bit is 1, and
  the bit of the signed test 0 ≤ d is 1 exactly when d, read as a signed integer, is at least 0.
-/
import proofs.«173987_j26422638805210_2_alg».proof.Pre_finite_inputs
import Idealize.ShloMosaic.Lib.ReduceAll
import Idealize.ShloMosaic.Lib.ValueIdx
import Idealize.ShloMosaic.Lib.ValueLayout
import Idealize.ShloMosaic.PureOps.Ideal

noncomputable section

namespace Cert.Proof.Domain

open Idealize.ShloMosaic Cert.Pre_finite_inputs

variable [Cert.Pre_finite_inputs.Facts]

/-- The shape of a scalar has exactly one index (the empty tuple). -/
instance : Subsingleton S_.Idx := ⟨fun a b => funext fun d => d.elim0⟩

/-- An extended real whose absolute value lies strictly below +∞ is a real number: the pattern 0x7F800000
    denotes +∞, and max x (−x) = +∞ both at x = +∞ and at x = −∞. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  have h' : Ideal.cmp .olt (max x (-x)) (Ideal.ofBits .f32 0x7F800000#32) = 1#1 := h
  rw [htop] at h'
  induction x using EReal.rec with
  | bot => simp [Ideal.cmp] at h'
  | coe r => exact ⟨r, rfl⟩
  | top => simp [Ideal.cmp] at h'

/-- One test of the precondition, at any shape: if the conjunction over all entries x of "|x| < +∞" is 1, then
    every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) : ∃ r : ℝ, x i = (r : EReal) :=
  real_of_abs_lt_top (x i) (Host.reduce_andi_all _ _ hr hu _ e i)

/-- The integer test: if the conjunction over all entries d of "0 ≤ d, signed" is 1, every entry read as a signed
    integer is at least 0 (the comparison is against the word 0 copied to every position). -/
theorem all_nonneg {s : Shape} {axes : List (Fin s.rank)} (d : IVec s 32)
    (hb : S_.BroadcastsInDim s (![] : Fin 0 → Fin s.rank)) (hr : s.ReducesTo axes S_) (hu : 0 < S_.numel)
    (e : Host.reduce IntOp.andi (cmpi .sge d (broadcastInDim s ![] hb (constantI S_ 32 0#32)))
          (constantI S_ 1 1#1) hr hu ValueIdx.ix0 = 1#1) (i : s.Idx) : 0 ≤ (d i).toInt :=
  IntOp.cmpi_sge.1 (Host.reduce_andi_all _ _ hr hu _ e i)

/-- The whole precondition, decoded: the value of the predicate at its one index is a left-nested conjunction of
    the fourteen tests; each is read by the two lemmas above. -/
theorem decoded (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    (∀ i, ∃ r : ℝ, a0 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ e : S1200000.Idx, 0 ≤ ((shapeCast S1200000 (extractStridedSlice S1x1200000 ![1, 0] a1 Facts.slices_S2x1200000_S1x1200000_1_0)
        Facts.shapeCasts_S1x1200000_S1200000) e).toInt) := by
  have e := congrFun h ValueIdx.ix0
  dsimp only [fn, fn_part1, fn_part2, fn_part3, fn_part4, Idealize.ShloMosaic.andi] at e
  simp only [IntOp.andi_eq_one] at e
  obtain ⟨⟨⟨⟨⟨⟨⟨⟨⟨⟨⟨⟨⟨h0, h2⟩, h3⟩, h4⟩, h5⟩, h6⟩, h7⟩, h8⟩, h9⟩, h10⟩, h11⟩, h12⟩, h13⟩, hd⟩ := e
  exact ⟨all_real a0 _ _ _ h0,
    all_real a2 _ _ _ h2,
    all_real a3 _ _ _ h3,
    all_real a4 _ _ _ h4,
    all_real a5 _ _ _ h5,
    all_real a6 _ _ _ h6,
    all_real a7 _ _ _ h7,
    all_real a8 _ _ _ h8,
    all_real a9 _ _ _ h9,
    all_real a10 _ _ _ h10,
    all_real a11 _ _ _ h11,
    all_real a12 _ _ _ h12,
    all_real a13 _ _ _ h13,
    all_nonneg _ _ _ _ hd⟩

/-- Every entry of argument 0 is a real number. -/
theorem real_arg0 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a0 i = (r : EReal) :=
  (decoded a0 a1 a2 a3 a4 a5 a6 a7 a8 a9 a10 a11 a12 a13 h).1

/-- Every entry of argument 2 is a real number. -/
theorem real_arg2 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a2 i = (r : EReal) :=
  (decoded a0 a1 a2 a3 a4 a5 a6 a7 a8 a9 a10 a11 a12 a13 h).2.1

/-- Every entry of argument 3 is a real number. -/
theorem real_arg3 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a3 i = (r : EReal) :=
  (decoded a0 a1 a2 a3 a4 a5 a6 a7 a8 a9 a10 a11 a12 a13 h).2.2.1

/-- Every entry of argument 4 is a real number. -/
theorem real_arg4 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a4 i = (r : EReal) :=
  (decoded a0 a1 a2 a3 a4 a5 a6 a7 a8 a9 a10 a11 a12 a13 h).2.2.2.1

/-- Every entry of argument 5 is a real number. -/
theorem real_arg5 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a5 i = (r : EReal) :=
  (decoded a0 a1 a2 a3 a4 a5 a6 a7 a8 a9 a10 a11 a12 a13 h).2.2.2.2.1

/-- Every entry of argument 6 is a real number. -/
theorem real_arg6 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a6 i = (r : EReal) :=
  (decoded a0 a1 a2 a3 a4 a5 a6 a7 a8 a9 a10 a11 a12 a13 h).2.2.2.2.2.1

/-- Every entry of argument 7 is a real number. -/
theorem real_arg7 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a7 i = (r : EReal) :=
  (decoded a0 a1 a2 a3 a4 a5 a6 a7 a8 a9 a10 a11 a12 a13 h).2.2.2.2.2.2.1

/-- Every entry of argument 8 is a real number. -/
theorem real_arg8 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a8 i = (r : EReal) :=
  (decoded a0 a1 a2 a3 a4 a5 a6 a7 a8 a9 a10 a11 a12 a13 h).2.2.2.2.2.2.2.1

/-- Every entry of argument 9 is a real number. -/
theorem real_arg9 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a9 i = (r : EReal) :=
  (decoded a0 a1 a2 a3 a4 a5 a6 a7 a8 a9 a10 a11 a12 a13 h).2.2.2.2.2.2.2.2.1

/-- Every entry of argument 10 is a real number. -/
theorem real_arg10 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a10 i = (r : EReal) :=
  (decoded a0 a1 a2 a3 a4 a5 a6 a7 a8 a9 a10 a11 a12 a13 h).2.2.2.2.2.2.2.2.2.1

/-- Every entry of argument 11 is a real number. -/
theorem real_arg11 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a11 i = (r : EReal) :=
  (decoded a0 a1 a2 a3 a4 a5 a6 a7 a8 a9 a10 a11 a12 a13 h).2.2.2.2.2.2.2.2.2.2.1

/-- Every entry of argument 12 is a real number. -/
theorem real_arg12 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a12 i = (r : EReal) :=
  (decoded a0 a1 a2 a3 a4 a5 a6 a7 a8 a9 a10 a11 a12 a13 h).2.2.2.2.2.2.2.2.2.2.2.1

/-- Every entry of argument 13 is a real number. -/
theorem real_arg13 (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ i, ∃ r : ℝ, a13 i = (r : EReal) :=
  (decoded a0 a1 a2 a3 a4 a5 a6 a7 a8 a9 a10 a11 a12 a13 h).2.2.2.2.2.2.2.2.2.2.2.2.1

/-- Every destination id — every entry of the second row of the integer argument, taken as a vector of 1200000
    words — is non-negative when read as a signed integer. -/
theorem dst_nonneg (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) :
    ∀ e : S1200000.Idx, 0 ≤ ((shapeCast S1200000 (extractStridedSlice S1x1200000 ![1, 0] a1 Facts.slices_S2x1200000_S1x1200000_1_0)
        Facts.shapeCasts_S1x1200000_S1200000) e).toInt :=
  (decoded a0 a1 a2 a3 a4 a5 a6 a7 a8 a9 a10 a11 a12 a13 h).2.2.2.2.2.2.2.2.2.2.2.2.2

/-- The same fact at the integer argument itself: entry k of its second row (row 1 of 2), read as a signed
    integer, is at least 0. The row is cut out at offset (1, 0) and flattened, so position k of the vector is
    position (1, k) of the argument. -/
theorem dst_nonneg_row (a0 : FVec Ideal S100000x64 .f32) (a1 : IVec S2x1200000 32) (a2 : FVec Ideal S128x64 .f32) (a3 : FVec Ideal S128 .f32)
    (a4 : FVec Ideal S128x64 .f32) (a5 a6 : FVec Ideal S128 .f32) (a7 : FVec Ideal S64x128 .f32) (a8 : FVec Ideal S64 .f32)
    (a9 : FVec Ideal S64x128 .f32) (a10 a11 : FVec Ideal S64 .f32) (a12 : FVec Ideal S2x64 .f32) (a13 : FVec Ideal S2 .f32)
    (h : Cert.Pre_finite_inputs.fn (F := Ideal) a0 a1 a2 a3 a4 a5 a6 a7 a8 a9 a10 a11 a12 a13 = fun _ => 1#1) (k : Fin 1200000) :
    0 ≤ (a1 (ValueIdx.ix2 (1 : Fin 2) k)).toInt := by
  have e := dst_nonneg a0 a1 a2 a3 a4 a5 a6 a7 a8 a9 a10 a11 a12 a13 h (ValueIdx.ix1 k)
  have e1 : (shapeCast S1200000 (extractStridedSlice S1x1200000 ![1, 0] a1 Facts.slices_S2x1200000_S1x1200000_1_0)
        Facts.shapeCasts_S1x1200000_S1200000) (ValueIdx.ix1 k) = a1 (ValueIdx.ix2 (1 : Fin 2) k) :=
    (ValueIdx.shapeCast_1a_a_apply _ _ k).trans
      (ValueIdx.slice2_axis0_apply 1 a1 _ (0 : Fin 1) k (1 : Fin 2) rfl)
  rw [e1] at e
  exact e

end Cert.Proof.Domain

end
-- ==== Proof.Bridge.lean ====
/-
  The idealized kernel's two results are the reference's two results, as functions of the launch memory.

  Under the precondition every float argument is a real number and every destination id is non-negative. Then, stage by stage:
  the kernel's wrapped destination ids are the ids themselves, so its neighbour sums and degrees are the reference's; multiplying by
  the reciprocal clamped degree is dividing by the clamped degree; so the first linear layer agrees entry by entry. Every entry of it
  is a real number, so the kernel's variance max(E[h²] − mean², 0) is the reference's E[(h − mean)²], and the normalised, rectified
  activations agree. The second layer runs over those activations in the same way, and the two results are its normalised activations
  and the two-class softmax of their final linear map.
-/
import proofs.«173987_j26422638805210_2_alg».proof.Proof.KernelValue
import proofs.«173987_j26422638805210_2_alg».proof.Proof.BridgeLin
import proofs.«173987_j26422638805210_2_alg».proof.Proof.BridgeNorm
import proofs.«173987_j26422638805210_2_alg».proof.Proof.LinReal
import proofs.«173987_j26422638805210_2_alg».proof.Proof.Domain

set_option maxRecDepth 16384

noncomputable section

namespace Cert.Proof.Bridge

open Cert.KernelIdeal Cert.KernelIdeal.Gen Cert.KernelIdeal.Stretch
open Idealize.ShloMosaic Idealize.ShloMosaic.TcCoe Idealize.SL.Sem Idealize.ShloMosaic.ValueIdx
open Cert.Proof.Stats (IsReal)
open Cert.ReferenceIdeal.Read (val_main_v30 val_main_v56 val_main_v83 val_main_v109 val_main_v125)

/-- A reshape of an array of real numbers holds real numbers. -/
theorem shapeCast_real {s t : Shape} (v : s.Idx → EReal) (h : s.ShapeCasts t) (hv : ∀ i, IsReal (v i)) (i : t.Idx) :
    IsReal (shapeCast t v h i) := hv _

variable [Cert.Pre_finite_inputs.Facts]
variable (m : (ℓ : Loc nD τ sig) → Buf (Elt Ideal) ℓ) (ρ : Dev nD → PrngReg) (c : Dev nD)

/-- Under the precondition the destination ids are non-negative. -/
theorem dst_nonneg (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = fun _ => 1#1) :
    ∀ j, 0 ≤ (dstIds (m ((c : Thread nD τ).loc main_arg1)) j).toInt := fun j => Cert.Proof.Domain.dst_nonneg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre j

/-- The first layer's pre-activation is the reference's, entry by entry. -/
theorem pre1_ref (hdst : ∀ j, 0 ≤ (dstIds (m ((c : Thread nD τ).loc main_arg1)) j).toInt) (r : Fin 100000) (f : Fin 128) :
    LinAccum0.h (V1 m ρ) c r f = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r f) :=
  (KernelValue.pre1_eq m ρ c r f).trans (Cert.Proof.BridgeLin.layer1_entry (m ((c : Thread nD τ).loc main_arg0)) (m ((c : Thread nD τ).loc main_arg1)) (m ((c : Thread nD τ).loc main_arg2)) (m ((c : Thread nD τ).loc main_arg4)) (m ((c : Thread nD τ).loc main_arg3)) hdst r f)

/-- Every entry of it is a real number. -/
theorem pre1_real (r0 : ∀ i, IsReal ((m ((c : Thread nD τ).loc main_arg0)) i)) (r2 : ∀ i, IsReal ((m ((c : Thread nD τ).loc main_arg2)) i)) (r3 : ∀ i, IsReal ((m ((c : Thread nD τ).loc main_arg3)) i)) (r4 : ∀ i, IsReal ((m ((c : Thread nD τ).loc main_arg4)) i)) (r : Fin 100000) (f : Fin 128) :
    IsReal (LinAccum0.h (V1 m ρ) c r f) := by
  rw [KernelValue.pre1_eq m ρ c r f]
  exact Cert.Proof.LinReal.hEntry_real0 _ _ _ _ _ _ (Cert.Proof.BridgeLin.neighbourSum64_real _ _ _ r0) (Cert.Proof.BridgeLin.invDegree_real _)
    r0 r2 (shapeCast_real _ _ r3) r4 r f

/-- The first layer's normalised, rectified activations are the reference's. -/
theorem act1_ref (hH1 : ∀ (r : Fin 100000) (f : Fin 128), LinAccum0.h (V1 m ρ) c r f = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r f)) (hreal1 : ∀ (r : Fin 100000) (f : Fin 128), IsReal (LinAccum0.h (V1 m ρ) c r f)) :
    (dat1 (V3 m ρ) c).arrAt 5 cfg1.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [KernelValue.act1_eq m ρ c]
  funext i
  obtain ⟨r, f, rfl⟩ : ∃ (r : Fin 100000) (f : Fin 128), i = ix2 r f := ⟨i 0, i 1, eq_ix2 i⟩
  exact Cert.Proof.BridgeNorm.out1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (fun r f => LinAccum0.h (V1 m ρ) c r f) hH1 hreal1 r f

/-- Every entry of them is a real number. -/
theorem act1_real (hH1 : ∀ (r : Fin 100000) (f : Fin 128), LinAccum0.h (V1 m ρ) c r f = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r f)) (hreal1 : ∀ (r : Fin 100000) (f : Fin 128), IsReal (LinAccum0.h (V1 m ρ) c r f)) (r5 : ∀ i, IsReal ((m ((c : Thread nD τ).loc main_arg5)) i)) (r6 : ∀ i, IsReal ((m ((c : Thread nD τ).loc main_arg6)) i)) (i : S100000x128.Idx) :
    IsReal (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i) := by
  obtain ⟨r, f, rfl⟩ : ∃ (r : Fin 100000) (f : Fin 128), i = ix2 r f := ⟨i 0, i 1, eq_ix2 i⟩
  exact Cert.Proof.BridgeNorm.out1_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (fun r f => LinAccum0.h (V1 m ρ) c r f) hH1 hreal1 r5 r6 r f

/-- The second layer's pre-activation is the reference's, entry by entry. -/
theorem pre2_ref (hO1 : (dat1 (V3 m ρ) c).arrAt 5 cfg1.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (hdst : ∀ j, 0 ≤ (dstIds (m ((c : Thread nD τ).loc main_arg1)) j).toInt) (r : Fin 100000) (f : Fin 64) :
    LinAccum2.h (V5 m ρ) c r f = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r f) :=
  (KernelValue.pre2_eq m ρ c r f).trans (Cert.Proof.BridgeLin.layer2_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((dat1 (V3 m ρ) c).arrAt 5 cfg1.N) hO1
    (m ((c : Thread nD τ).loc main_arg7)) (m ((c : Thread nD τ).loc main_arg9)) (m ((c : Thread nD τ).loc main_arg8)) hdst r f)

/-- Every entry of it is a real number. -/
theorem pre2_real (hO1 : (dat1 (V3 m ρ) c).arrAt 5 cfg1.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (hv56real : ∀ i : S100000x128.Idx, IsReal (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i)) (r7 : ∀ i, IsReal ((m ((c : Thread nD τ).loc main_arg7)) i)) (r8 : ∀ i, IsReal ((m ((c : Thread nD τ).loc main_arg8)) i)) (r9 : ∀ i, IsReal ((m ((c : Thread nD τ).loc main_arg9)) i)) (r : Fin 100000) (f : Fin 64) :
    IsReal (LinAccum2.h (V5 m ρ) c r f) := by
  rw [KernelValue.pre2_eq m ρ c r f, hO1]
  exact Cert.Proof.LinReal.hEntry_real2 _ _ _ _ _ _ (Cert.Proof.BridgeLin.neighbourSum128_real _ _ _ hv56real) (Cert.Proof.BridgeLin.invDegree_real _)
    hv56real r7 (shapeCast_real _ _ r8) r9 r f

/-- Result 0 is the reference's result 0. -/
theorem result0_ref (hH2 : ∀ (r : Fin 100000) (f : Fin 64), LinAccum2.h (V5 m ρ) c r f = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r f)) (hreal2 : ∀ (r : Fin 100000) (f : Fin 64), IsReal (LinAccum2.h (V5 m ρ) c r f)) :
    W8 m ρ c (Proc.devRef .tc main_v74_0) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [KernelValue.result0_eq m ρ c]
  funext i
  obtain ⟨r, f, rfl⟩ : ∃ (r : Fin 100000) (f : Fin 64), i = ix2 r f := ⟨i 0, i 1, eq_ix2 i⟩
  exact Cert.Proof.BridgeNorm.out2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (fun r f => LinAccum2.h (V5 m ρ) c r f) hH2 hreal2 r f

/-- Result 1 is the reference's result 1. -/
theorem result1_ref (hH2 : ∀ (r : Fin 100000) (f : Fin 64), LinAccum2.h (V5 m ρ) c r f = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r f)) (hreal2 : ∀ (r : Fin 100000) (f : Fin 64), IsReal (LinAccum2.h (V5 m ρ) c r f)) :
    W8 m ρ c (Proc.devRef .tc main_v74_1) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [KernelValue.result1_eq m ρ c]
  funext i
  obtain ⟨r, j, rfl⟩ : ∃ (r : Fin 100000) (j : Fin 2), i = ix2 r j := ⟨i 0, i 1, eq_ix2 i⟩
  exact Cert.Proof.BridgeNorm.prob_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (fun r f => LinAccum2.h (V5 m ρ) c r f) hH2 hreal2 r j

/-- Both results, from the precondition. -/
theorem results
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = fun _ => 1#1) :
    W8 m ρ c (Proc.devRef .tc main_v74_0) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ∧ W8 m ρ c (Proc.devRef .tc main_v74_1) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have r0 : ∀ i, IsReal ((m ((c : Thread nD τ).loc main_arg0)) i) := Cert.Proof.Domain.real_arg0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have r2 : ∀ i, IsReal ((m ((c : Thread nD τ).loc main_arg2)) i) := Cert.Proof.Domain.real_arg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have r3 : ∀ i, IsReal ((m ((c : Thread nD τ).loc main_arg3)) i) := Cert.Proof.Domain.real_arg3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have r4 : ∀ i, IsReal ((m ((c : Thread nD τ).loc main_arg4)) i) := Cert.Proof.Domain.real_arg4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have r5 : ∀ i, IsReal ((m ((c : Thread nD τ).loc main_arg5)) i) := Cert.Proof.Domain.real_arg5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have r6 : ∀ i, IsReal ((m ((c : Thread nD τ).loc main_arg6)) i) := Cert.Proof.Domain.real_arg6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have r7 : ∀ i, IsReal ((m ((c : Thread nD τ).loc main_arg7)) i) := Cert.Proof.Domain.real_arg7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have r8 : ∀ i, IsReal ((m ((c : Thread nD τ).loc main_arg8)) i) := Cert.Proof.Domain.real_arg8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have r9 : ∀ i, IsReal ((m ((c : Thread nD τ).loc main_arg9)) i) := Cert.Proof.Domain.real_arg9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hpre
  have hdst := dst_nonneg m c hpre
  have hH1 := pre1_ref m ρ c hdst
  have hreal1 := pre1_real m ρ c r0 r2 r3 r4
  have hO1 := act1_ref m ρ c hH1 hreal1
  have hv56 := act1_real m ρ c hH1 hreal1 r5 r6
  have hH2 := pre2_ref m ρ c hO1 hdst
  have hreal2 := pre2_real m ρ c hO1 hv56 r7 r8 r9
  exact ⟨result0_ref m ρ c hH2 hreal2, result1_ref m ρ c hH2 hreal2⟩

end Cert.Proof.Bridge

end
-- ==== Proof.lean ====
/-
  A two-layer GraphSAGE network with batch normalisation (100000 nodes, 1200000 edges), as four Pallas regions among host
  gathers and scatter-adds, against its jnp reference; equality of the two results over the extended reals.

  Per layer: the host gathers each edge's source features and scatter-adds them at the edge's destination (and scatter-adds ones for the
  degree); a first region forms h = (agg · 1/max(deg,1)) Wlᵀ + bl + x Wrᵀ block by block and accumulates the column sums of h and h²;
  the host turns them into the batch mean and the variance max(E[h²] − mean², 0); a second region normalises and rectifies. The last
  region also applies the final linear map and a two-class softmax. The reference computes the mean aggregate by a division, the
  variance as E[(h − mean)²], and takes the destination ids as they are where the kernel first wraps negative ones; under the
  precondition (finite float inputs, non-negative destination ids) these agree: the wrap is the identity, a product with a reciprocal
  is the quotient, and the two variances are one real number.

  The kernel's run (every buffer's final contents) is KernelRun; the four regions' outputs are LinAccum0/2 and Norm1/3 over
  LinCases, LinBlock; the host stretches between them HostStretch and KernelChain; KernelValue composes them. The reference's stages
  are read by RefRead over RefRun. BridgeLin, BridgeNorm (with Stats, HostReal, LinReal, Domain) equate the stages; Bridge concludes.
  The idealization rewrote nothing, so `preserves` is trivial; the word-level kernel contributes its frame only.
-/
import proofs.«173987_j26422638805210_2_alg».proof.Defs
import proofs.«173987_j26422638805210_2_alg».proof.Proof.Gen.Kernel
import proofs.«173987_j26422638805210_2_alg».proof.Proof.Gen.Kernel.Skeleton
import proofs.«173987_j26422638805210_2_alg».proof.Proof.Gen.Kernel.Launch
import proofs.«173987_j26422638805210_2_alg».proof.Proof.Gen.Kernel.Points
import proofs.«173987_j26422638805210_2_alg».proof.Proof.Gen.Kernel.Frame
import proofs.«173987_j26422638805210_2_alg».proof.Proof.Gen.KernelIdeal
import proofs.«173987_j26422638805210_2_alg».proof.Proof.Gen.KernelIdeal.Skeleton
import proofs.«173987_j26422638805210_2_alg».proof.Proof.Gen.KernelIdeal.Launch
import proofs.«173987_j26422638805210_2_alg».proof.Proof.Gen.KernelIdeal.Points
import proofs.«173987_j26422638805210_2_alg».proof.Proof.Gen.KernelIdeal.Frame
import proofs.«173987_j26422638805210_2_alg».proof.Proof.Gen.ReferenceIdeal
import proofs.«173987_j26422638805210_2_alg».proof.Proof.Gen.Pre_finite_inputs
import proofs.«173987_j26422638805210_2_alg».proof.Proof.RefRun
import proofs.«173987_j26422638805210_2_alg».proof.Proof.RefRead
import proofs.«173987_j26422638805210_2_alg».proof.Proof.KernelRun
import proofs.«173987_j26422638805210_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference is host operations only: its run, with the results dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- Both idealized programs run, from memories agreeing on the arguments, to the same two result arrays: the kernel's own final
    contents, which the reference's stages reproduce entry by entry. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W8 m ρ c (Proc.devRef .tc Cert.KernelIdeal.main_v74_0), fun c => Cert.KernelIdeal.Gen.W8 m ρ c (Proc.devRef .tc Cert.KernelIdeal.main_v74_1), ?_, ?_⟩
  · exact (θ_run Cert.KernelIdeal.defs _ _).mono (fun r h c =>
      ⟨h c _ (Cert.KernelIdeal.Gen.mem_uc Cert.KernelIdeal.main_v74_0 (by decide)), h c _ (Cert.KernelIdeal.Gen.mem_uc Cert.KernelIdeal.main_v74_1 (by decide)),
      (h c _ (Cert.KernelIdeal.Gen.mem_uc Cert.KernelIdeal.main_arg0 (by decide))).trans (Cert.KernelIdeal.Gen.W8_main_arg0 m ρ c),
      (h c _ (Cert.KernelIdeal.Gen.mem_uc Cert.KernelIdeal.main_arg1 (by decide))).trans (Cert.KernelIdeal.Gen.W8_main_arg1 m ρ c),
      (h c _ (Cert.KernelIdeal.Gen.mem_uc Cert.KernelIdeal.main_arg2 (by decide))).trans (Cert.KernelIdeal.Gen.W8_main_arg2 m ρ c),
      (h c _ (Cert.KernelIdeal.Gen.mem_uc Cert.KernelIdeal.main_arg3 (by decide))).trans (Cert.KernelIdeal.Gen.W8_main_arg3 m ρ c),
      (h c _ (Cert.KernelIdeal.Gen.mem_uc Cert.KernelIdeal.main_arg4 (by decide))).trans (Cert.KernelIdeal.Gen.W8_main_arg4 m ρ c),
      (h c _ (Cert.KernelIdeal.Gen.mem_uc Cert.KernelIdeal.main_arg5 (by decide))).trans (Cert.KernelIdeal.Gen.W8_main_arg5 m ρ c),
      (h c _ (Cert.KernelIdeal.Gen.mem_uc Cert.KernelIdeal.main_arg6 (by decide))).trans (Cert.KernelIdeal.Gen.W8_main_arg6 m ρ c),
      (h c _ (Cert.KernelIdeal.Gen.mem_uc Cert.KernelIdeal.main_arg7 (by decide))).trans (Cert.KernelIdeal.Gen.W8_main_arg7 m ρ c),
      (h c _ (Cert.KernelIdeal.Gen.mem_uc Cert.KernelIdeal.main_arg8 (by decide))).trans (Cert.KernelIdeal.Gen.W8_main_arg8 m ρ c),
      (h c _ (Cert.KernelIdeal.Gen.mem_uc Cert.KernelIdeal.main_arg9 (by decide))).trans (Cert.KernelIdeal.Gen.W8_main_arg9 m ρ c),
      (h c _ (Cert.KernelIdeal.Gen.mem_uc Cert.KernelIdeal.main_arg10 (by decide))).trans (Cert.KernelIdeal.Gen.W8_main_arg10 m ρ c),
      (h c _ (Cert.KernelIdeal.Gen.mem_uc Cert.KernelIdeal.main_arg11 (by decide))).trans (Cert.KernelIdeal.Gen.W8_main_arg11 m ρ c),
      (h c _ (Cert.KernelIdeal.Gen.mem_uc Cert.KernelIdeal.main_arg12 (by decide))).trans (Cert.KernelIdeal.Gen.W8_main_arg12 m ρ c),
      (h c _ (Cert.KernelIdeal.Gen.mem_uc Cert.KernelIdeal.main_arg13 (by decide))).trans (Cert.KernelIdeal.Gen.W8_main_arg13 m ρ c)⟩)
      (Cert.KernelIdeal.RunValue.run_all m ρ)
  · haveI := Cert.Pre_finite_inputs.Gen.facts
    refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v109_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
      exact (Cert.Proof.Bridge.results m ρ c (hpre c)).1.symm
    · rw [Cert.ReferenceIdeal.Read.val_main_v125_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
      exact (Cert.Proof.Bridge.results m ρ c (hpre c)).2.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
